-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30)) (m ((c.tc : Thread Cert.Kernel.nD Cert.Kernel.τ).loc Cert.Kernel.main_arg31)) (m ((c.tc : Thread Cert.Kernel.nD Cert.Kernel.τ).loc Cert.Kernel.main_arg32)) (m ((c.tc : Thread Cert.Kernel.nD Cert.Kernel.τ).loc Cert.Kernel.main_arg33)) (m ((c.tc : Thread Cert.Kernel.nD Cert.Kernel.τ).loc Cert.Kernel.main_arg34)) (m ((c.tc : Thread Cert.Kernel.nD Cert.Kernel.τ).loc Cert.Kernel.main_arg35)) (m ((c.tc : Thread Cert.Kernel.nD Cert.Kernel.τ).loc Cert.Kernel.main_arg36)) (m ((c.tc : Thread Cert.Kernel.nD Cert.Kernel.τ).loc Cert.Kernel.main_arg37)) (m ((c.tc : Thread Cert.Kernel.nD Cert.Kernel.τ).loc Cert.Kernel.main_arg38)) (m ((c.tc : Thread Cert.Kernel.nD Cert.Kernel.τ).loc Cert.Kernel.main_arg39)) (m ((c.tc : Thread Cert.Kernel.nD Cert.Kernel.τ).loc Cert.Kernel.main_arg40))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32)) (m ((c.tc : Thread Cert.KernelIdeal.nD Cert.KernelIdeal.τ).loc Cert.KernelIdeal.main_arg33)) (m ((c.tc : Thread Cert.KernelIdeal.nD Cert.KernelIdeal.τ).loc Cert.KernelIdeal.main_arg34)) (m ((c.tc : Thread Cert.KernelIdeal.nD Cert.KernelIdeal.τ).loc Cert.KernelIdeal.main_arg35)) (m ((c.tc : Thread Cert.KernelIdeal.nD Cert.KernelIdeal.τ).loc Cert.KernelIdeal.main_arg36)) (m ((c.tc : Thread Cert.KernelIdeal.nD Cert.KernelIdeal.τ).loc Cert.KernelIdeal.main_arg37)) (m ((c.tc : Thread Cert.KernelIdeal.nD Cert.KernelIdeal.τ).loc Cert.KernelIdeal.main_arg38)) (m ((c.tc : Thread Cert.KernelIdeal.nD Cert.KernelIdeal.τ).loc Cert.KernelIdeal.main_arg39)) (m ((c.tc : Thread Cert.KernelIdeal.nD Cert.KernelIdeal.τ).loc Cert.KernelIdeal.main_arg40))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31)) (m ((c.tc : Thread Cert.ReferenceIdeal.nD Cert.ReferenceIdeal.τ).loc Cert.ReferenceIdeal.main_arg32)) (m ((c.tc : Thread Cert.ReferenceIdeal.nD Cert.ReferenceIdeal.τ).loc Cert.ReferenceIdeal.main_arg33)) (m ((c.tc : Thread Cert.ReferenceIdeal.nD Cert.ReferenceIdeal.τ).loc Cert.ReferenceIdeal.main_arg34)) (m ((c.tc : Thread Cert.ReferenceIdeal.nD Cert.ReferenceIdeal.τ).loc Cert.ReferenceIdeal.main_arg35)) (m ((c.tc : Thread Cert.ReferenceIdeal.nD Cert.ReferenceIdeal.τ).loc Cert.ReferenceIdeal.main_arg36)) (m ((c.tc : Thread Cert.ReferenceIdeal.nD Cert.ReferenceIdeal.τ).loc Cert.ReferenceIdeal.main_arg37)) (m ((c.tc : Thread Cert.ReferenceIdeal.nD Cert.ReferenceIdeal.τ).loc Cert.ReferenceIdeal.main_arg38)) (m ((c.tc : Thread Cert.ReferenceIdeal.nD Cert.ReferenceIdeal.τ).loc Cert.ReferenceIdeal.main_arg39)) (m ((c.tc : Thread Cert.ReferenceIdeal.nD Cert.ReferenceIdeal.τ).loc Cert.ReferenceIdeal.main_arg40))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31)
      ∧ r.2.mem ((c.tc : Thread Cert.Kernel.nD Cert.Kernel.τ).loc Cert.Kernel.main_arg32) = m ((c.tc : Thread Cert.Kernel.nD Cert.Kernel.τ).loc Cert.Kernel.main_arg32)
      ∧ r.2.mem ((c.tc : Thread Cert.Kernel.nD Cert.Kernel.τ).loc Cert.Kernel.main_arg33) = m ((c.tc : Thread Cert.Kernel.nD Cert.Kernel.τ).loc Cert.Kernel.main_arg33)
      ∧ r.2.mem ((c.tc : Thread Cert.Kernel.nD Cert.Kernel.τ).loc Cert.Kernel.main_arg34) = m ((c.tc : Thread Cert.Kernel.nD Cert.Kernel.τ).loc Cert.Kernel.main_arg34)
      ∧ r.2.mem ((c.tc : Thread Cert.Kernel.nD Cert.Kernel.τ).loc Cert.Kernel.main_arg35) = m ((c.tc : Thread Cert.Kernel.nD Cert.Kernel.τ).loc Cert.Kernel.main_arg35)
      ∧ r.2.mem ((c.tc : Thread Cert.Kernel.nD Cert.Kernel.τ).loc Cert.Kernel.main_arg36) = m ((c.tc : Thread Cert.Kernel.nD Cert.Kernel.τ).loc Cert.Kernel.main_arg36)
      ∧ r.2.mem ((c.tc : Thread Cert.Kernel.nD Cert.Kernel.τ).loc Cert.Kernel.main_arg37) = m ((c.tc : Thread Cert.Kernel.nD Cert.Kernel.τ).loc Cert.Kernel.main_arg37)
      ∧ r.2.mem ((c.tc : Thread Cert.Kernel.nD Cert.Kernel.τ).loc Cert.Kernel.main_arg38) = m ((c.tc : Thread Cert.Kernel.nD Cert.Kernel.τ).loc Cert.Kernel.main_arg38)
      ∧ r.2.mem ((c.tc : Thread Cert.Kernel.nD Cert.Kernel.τ).loc Cert.Kernel.main_arg39) = m ((c.tc : Thread Cert.Kernel.nD Cert.Kernel.τ).loc Cert.Kernel.main_arg39)
      ∧ r.2.mem ((c.tc : Thread Cert.Kernel.nD Cert.Kernel.τ).loc Cert.Kernel.main_arg40) = m ((c.tc : Thread Cert.Kernel.nD Cert.Kernel.τ).loc Cert.Kernel.main_arg40))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
      ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
      ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
      ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
      ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35)
      ∧ r.2.mem ((c.tc : Thread Cert.KernelIdeal.nD Cert.KernelIdeal.τ).loc Cert.KernelIdeal.main_arg36) = m ((c.tc : Thread Cert.KernelIdeal.nD Cert.KernelIdeal.τ).loc Cert.KernelIdeal.main_arg36)
      ∧ r.2.mem ((c.tc : Thread Cert.KernelIdeal.nD Cert.KernelIdeal.τ).loc Cert.KernelIdeal.main_arg37) = m ((c.tc : Thread Cert.KernelIdeal.nD Cert.KernelIdeal.τ).loc Cert.KernelIdeal.main_arg37)
      ∧ r.2.mem ((c.tc : Thread Cert.KernelIdeal.nD Cert.KernelIdeal.τ).loc Cert.KernelIdeal.main_arg38) = m ((c.tc : Thread Cert.KernelIdeal.nD Cert.KernelIdeal.τ).loc Cert.KernelIdeal.main_arg38)
      ∧ r.2.mem ((c.tc : Thread Cert.KernelIdeal.nD Cert.KernelIdeal.τ).loc Cert.KernelIdeal.main_arg39) = m ((c.tc : Thread Cert.KernelIdeal.nD Cert.KernelIdeal.τ).loc Cert.KernelIdeal.main_arg39)
      ∧ r.2.mem ((c.tc : Thread Cert.KernelIdeal.nD Cert.KernelIdeal.τ).loc Cert.KernelIdeal.main_arg40) = m ((c.tc : Thread Cert.KernelIdeal.nD Cert.KernelIdeal.τ).loc Cert.KernelIdeal.main_arg40))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31)
      ∧ r.2.mem ((c.tc : Thread Cert.ReferenceIdeal.nD Cert.ReferenceIdeal.τ).loc Cert.ReferenceIdeal.main_arg32) = m ((c.tc : Thread Cert.ReferenceIdeal.nD Cert.ReferenceIdeal.τ).loc Cert.ReferenceIdeal.main_arg32)
      ∧ r.2.mem ((c.tc : Thread Cert.ReferenceIdeal.nD Cert.ReferenceIdeal.τ).loc Cert.ReferenceIdeal.main_arg33) = m ((c.tc : Thread Cert.ReferenceIdeal.nD Cert.ReferenceIdeal.τ).loc Cert.ReferenceIdeal.main_arg33)
      ∧ r.2.mem ((c.tc : Thread Cert.ReferenceIdeal.nD Cert.ReferenceIdeal.τ).loc Cert.ReferenceIdeal.main_arg34) = m ((c.tc : Thread Cert.ReferenceIdeal.nD Cert.ReferenceIdeal.τ).loc Cert.ReferenceIdeal.main_arg34)
      ∧ r.2.mem ((c.tc : Thread Cert.ReferenceIdeal.nD Cert.ReferenceIdeal.τ).loc Cert.ReferenceIdeal.main_arg35) = m ((c.tc : Thread Cert.ReferenceIdeal.nD Cert.ReferenceIdeal.τ).loc Cert.ReferenceIdeal.main_arg35)
      ∧ r.2.mem ((c.tc : Thread Cert.ReferenceIdeal.nD Cert.ReferenceIdeal.τ).loc Cert.ReferenceIdeal.main_arg36) = m ((c.tc : Thread Cert.ReferenceIdeal.nD Cert.ReferenceIdeal.τ).loc Cert.ReferenceIdeal.main_arg36)
      ∧ r.2.mem ((c.tc : Thread Cert.ReferenceIdeal.nD Cert.ReferenceIdeal.τ).loc Cert.ReferenceIdeal.main_arg37) = m ((c.tc : Thread Cert.ReferenceIdeal.nD Cert.ReferenceIdeal.τ).loc Cert.ReferenceIdeal.main_arg37)
      ∧ r.2.mem ((c.tc : Thread Cert.ReferenceIdeal.nD Cert.ReferenceIdeal.τ).loc Cert.ReferenceIdeal.main_arg38) = m ((c.tc : Thread Cert.ReferenceIdeal.nD Cert.ReferenceIdeal.τ).loc Cert.ReferenceIdeal.main_arg38)
      ∧ r.2.mem ((c.tc : Thread Cert.ReferenceIdeal.nD Cert.ReferenceIdeal.τ).loc Cert.ReferenceIdeal.main_arg39) = m ((c.tc : Thread Cert.ReferenceIdeal.nD Cert.ReferenceIdeal.τ).loc Cert.ReferenceIdeal.main_arg39)
      ∧ r.2.mem ((c.tc : Thread Cert.ReferenceIdeal.nD Cert.ReferenceIdeal.τ).loc Cert.ReferenceIdeal.main_arg40) = m ((c.tc : Thread Cert.ReferenceIdeal.nD Cert.ReferenceIdeal.τ).loc Cert.ReferenceIdeal.main_arg40))

def preserves_Kernel_KernelIdeal : Prop :=
  IdealRules.truncf_extf.Statement Cert.KernelIdeal.S1000x128 .f32 .bf16
  ∧ IdealRules.truncf_extf.Statement Cert.KernelIdeal.S128x256 .f32 .bf16
  ∧ IdealRules.truncf_extf.Statement Cert.KernelIdeal.S1000x256 .f32 .bf16
  ∧ IdealRules.truncf_extf.Statement Cert.KernelIdeal.S256x128 .f32 .bf16
  ∧ IdealRules.truncf_extf.Statement Cert.KernelIdeal.S1000x128 .f32 .bf16
  ∧ IdealRules.truncf_extf.Statement Cert.KernelIdeal.S128x256 .f32 .bf16
  ∧ IdealRules.truncf_extf.Statement Cert.KernelIdeal.S1000x256 .f32 .bf16
  ∧ IdealRules.truncf_extf.Statement Cert.KernelIdeal.S256x128 .f32 .bf16
  ∧ IdealRules.truncf_extf.Statement Cert.KernelIdeal.S1000x32 .f32 .bf16
  ∧ IdealRules.truncf_extf.Statement Cert.KernelIdeal.S32x256 .f32 .bf16
  ∧ IdealRules.truncf_extf.Statement Cert.KernelIdeal.S1000x256 .f32 .bf16
  ∧ IdealRules.truncf_extf.Statement Cert.KernelIdeal.S256x32 .f32 .bf16
  ∧ IdealRules.truncf_extf.Statement Cert.KernelIdeal.S1000x64 .f32 .bf16
  ∧ IdealRules.truncf_extf.Statement Cert.KernelIdeal.S64x256 .f32 .bf16
  ∧ IdealRules.truncf_extf.Statement Cert.KernelIdeal.S1000x256 .f32 .bf16
  ∧ IdealRules.truncf_extf.Statement Cert.KernelIdeal.S256x64 .f32 .bf16
  ∧ IdealRules.truncf_extf.Statement Cert.KernelIdeal.S1000x128 .f32 .bf16
  ∧ IdealRules.truncf_extf.Statement Cert.KernelIdeal.S128x256 .f32 .bf16
  ∧ IdealRules.truncf_extf.Statement Cert.KernelIdeal.S1000x256 .f32 .bf16
  ∧ IdealRules.truncf_extf.Statement Cert.KernelIdeal.S256x128 .f32 .bf16
  ∧ IdealRules.truncf_extf.Statement Cert.KernelIdeal.S1000x128 .f32 .bf16
  ∧ IdealRules.truncf_extf.Statement Cert.KernelIdeal.S128x256 .f32 .bf16
  ∧ IdealRules.truncf_extf.Statement Cert.KernelIdeal.S1000x256 .f32 .bf16
  ∧ IdealRules.truncf_extf.Statement Cert.KernelIdeal.S256x128 .f32 .bf16
  ∧ IdealRules.truncf_extf.Statement Cert.KernelIdeal.S1000x128 .f32 .bf16
  ∧ IdealRules.truncf_extf.Statement Cert.KernelIdeal.S128x256 .f32 .bf16
  ∧ IdealRules.truncf_extf.Statement Cert.KernelIdeal.S1000x128 .f32 .bf16
  ∧ IdealRules.truncf_extf.Statement Cert.KernelIdeal.S128x256 .f32 .bf16
  ∧ IdealRules.truncf_extf.Statement Cert.KernelIdeal.S1000x64 .f32 .bf16
  ∧ IdealRules.truncf_extf.Statement Cert.KernelIdeal.S64x256 .f32 .bf16
  ∧ IdealRules.truncf_extf.Statement Cert.KernelIdeal.S1000x32 .f32 .bf16
  ∧ IdealRules.truncf_extf.Statement Cert.KernelIdeal.S32x256 .f32 .bf16
  ∧ IdealRules.truncf_extf.Statement Cert.KernelIdeal.S1000x128 .f32 .bf16
  ∧ IdealRules.truncf_extf.Statement Cert.KernelIdeal.S128x256 .f32 .bf16
  ∧ IdealRules.truncf_extf.Statement Cert.KernelIdeal.S1000x128 .f32 .bf16
  ∧ IdealRules.truncf_extf.Statement Cert.KernelIdeal.S128x256 .f32 .bf16
  ∧ IdealRules.truncf_extf.Statement Cert.KernelIdeal.S1000x256 .f32 .bf16
  ∧ IdealRules.truncf_extf.Statement Cert.KernelIdeal.S256x128 .f32 .bf16
  ∧ IdealRules.truncf_extf.Statement Cert.KernelIdeal.S1000x128 .f32 .bf16
  ∧ IdealRules.truncf_extf.Statement Cert.KernelIdeal.S128x128 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)
      ∧ m' ((c.tc : Thread Cert.ReferenceIdeal.nD Cert.ReferenceIdeal.τ).loc Cert.ReferenceIdeal.main_arg33) = m ((c.tc : Thread Cert.KernelIdeal.nD Cert.KernelIdeal.τ).loc Cert.KernelIdeal.main_arg33)
      ∧ m' ((c.tc : Thread Cert.ReferenceIdeal.nD Cert.ReferenceIdeal.τ).loc Cert.ReferenceIdeal.main_arg34) = m ((c.tc : Thread Cert.KernelIdeal.nD Cert.KernelIdeal.τ).loc Cert.KernelIdeal.main_arg34)
      ∧ m' ((c.tc : Thread Cert.ReferenceIdeal.nD Cert.ReferenceIdeal.τ).loc Cert.ReferenceIdeal.main_arg35) = m ((c.tc : Thread Cert.KernelIdeal.nD Cert.KernelIdeal.τ).loc Cert.KernelIdeal.main_arg35)
      ∧ m' ((c.tc : Thread Cert.ReferenceIdeal.nD Cert.ReferenceIdeal.τ).loc Cert.ReferenceIdeal.main_arg36) = m ((c.tc : Thread Cert.KernelIdeal.nD Cert.KernelIdeal.τ).loc Cert.KernelIdeal.main_arg36)
      ∧ m' ((c.tc : Thread Cert.ReferenceIdeal.nD Cert.ReferenceIdeal.τ).loc Cert.ReferenceIdeal.main_arg37) = m ((c.tc : Thread Cert.KernelIdeal.nD Cert.KernelIdeal.τ).loc Cert.KernelIdeal.main_arg37)
      ∧ m' ((c.tc : Thread Cert.ReferenceIdeal.nD Cert.ReferenceIdeal.τ).loc Cert.ReferenceIdeal.main_arg38) = m ((c.tc : Thread Cert.KernelIdeal.nD Cert.KernelIdeal.τ).loc Cert.KernelIdeal.main_arg38)
      ∧ m' ((c.tc : Thread Cert.ReferenceIdeal.nD Cert.ReferenceIdeal.τ).loc Cert.ReferenceIdeal.main_arg39) = m ((c.tc : Thread Cert.KernelIdeal.nD Cert.KernelIdeal.τ).loc Cert.KernelIdeal.main_arg39)
      ∧ m' ((c.tc : Thread Cert.ReferenceIdeal.nD Cert.ReferenceIdeal.τ).loc Cert.ReferenceIdeal.main_arg40) = m ((c.tc : Thread Cert.KernelIdeal.nD Cert.KernelIdeal.τ).loc Cert.KernelIdeal.main_arg40)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
          ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
          ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
          ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
          ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35)
          ∧ r.2.mem ((c.tc : Thread Cert.KernelIdeal.nD Cert.KernelIdeal.τ).loc Cert.KernelIdeal.main_arg36) = m ((c.tc : Thread Cert.KernelIdeal.nD Cert.KernelIdeal.τ).loc Cert.KernelIdeal.main_arg36)
          ∧ r.2.mem ((c.tc : Thread Cert.KernelIdeal.nD Cert.KernelIdeal.τ).loc Cert.KernelIdeal.main_arg37) = m ((c.tc : Thread Cert.KernelIdeal.nD Cert.KernelIdeal.τ).loc Cert.KernelIdeal.main_arg37)
          ∧ r.2.mem ((c.tc : Thread Cert.KernelIdeal.nD Cert.KernelIdeal.τ).loc Cert.KernelIdeal.main_arg38) = m ((c.tc : Thread Cert.KernelIdeal.nD Cert.KernelIdeal.τ).loc Cert.KernelIdeal.main_arg38)
          ∧ r.2.mem ((c.tc : Thread Cert.KernelIdeal.nD Cert.KernelIdeal.τ).loc Cert.KernelIdeal.main_arg39) = m ((c.tc : Thread Cert.KernelIdeal.nD Cert.KernelIdeal.τ).loc Cert.KernelIdeal.main_arg39)
          ∧ r.2.mem ((c.tc : Thread Cert.KernelIdeal.nD Cert.KernelIdeal.τ).loc Cert.KernelIdeal.main_arg40) = m ((c.tc : Thread Cert.KernelIdeal.nD Cert.KernelIdeal.τ).loc Cert.KernelIdeal.main_arg40))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v115) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31)
          ∧ r.2.mem ((c.tc : Thread Cert.ReferenceIdeal.nD Cert.ReferenceIdeal.τ).loc Cert.ReferenceIdeal.main_arg32) = m' ((c.tc : Thread Cert.ReferenceIdeal.nD Cert.ReferenceIdeal.τ).loc Cert.ReferenceIdeal.main_arg32)
          ∧ r.2.mem ((c.tc : Thread Cert.ReferenceIdeal.nD Cert.ReferenceIdeal.τ).loc Cert.ReferenceIdeal.main_arg33) = m' ((c.tc : Thread Cert.ReferenceIdeal.nD Cert.ReferenceIdeal.τ).loc Cert.ReferenceIdeal.main_arg33)
          ∧ r.2.mem ((c.tc : Thread Cert.ReferenceIdeal.nD Cert.ReferenceIdeal.τ).loc Cert.ReferenceIdeal.main_arg34) = m' ((c.tc : Thread Cert.ReferenceIdeal.nD Cert.ReferenceIdeal.τ).loc Cert.ReferenceIdeal.main_arg34)
          ∧ r.2.mem ((c.tc : Thread Cert.ReferenceIdeal.nD Cert.ReferenceIdeal.τ).loc Cert.ReferenceIdeal.main_arg35) = m' ((c.tc : Thread Cert.ReferenceIdeal.nD Cert.ReferenceIdeal.τ).loc Cert.ReferenceIdeal.main_arg35)
          ∧ r.2.mem ((c.tc : Thread Cert.ReferenceIdeal.nD Cert.ReferenceIdeal.τ).loc Cert.ReferenceIdeal.main_arg36) = m' ((c.tc : Thread Cert.ReferenceIdeal.nD Cert.ReferenceIdeal.τ).loc Cert.ReferenceIdeal.main_arg36)
          ∧ r.2.mem ((c.tc : Thread Cert.ReferenceIdeal.nD Cert.ReferenceIdeal.τ).loc Cert.ReferenceIdeal.main_arg37) = m' ((c.tc : Thread Cert.ReferenceIdeal.nD Cert.ReferenceIdeal.τ).loc Cert.ReferenceIdeal.main_arg37)
          ∧ r.2.mem ((c.tc : Thread Cert.ReferenceIdeal.nD Cert.ReferenceIdeal.τ).loc Cert.ReferenceIdeal.main_arg38) = m' ((c.tc : Thread Cert.ReferenceIdeal.nD Cert.ReferenceIdeal.τ).loc Cert.ReferenceIdeal.main_arg38)
          ∧ r.2.mem ((c.tc : Thread Cert.ReferenceIdeal.nD Cert.ReferenceIdeal.τ).loc Cert.ReferenceIdeal.main_arg39) = m' ((c.tc : Thread Cert.ReferenceIdeal.nD Cert.ReferenceIdeal.τ).loc Cert.ReferenceIdeal.main_arg39)
          ∧ r.2.mem ((c.tc : Thread Cert.ReferenceIdeal.nD Cert.ReferenceIdeal.τ).loc Cert.ReferenceIdeal.main_arg40) = m' ((c.tc : Thread Cert.ReferenceIdeal.nD Cert.ReferenceIdeal.τ).loc Cert.ReferenceIdeal.main_arg40))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S20000x128 : Shape := ⟨2, ![20000, 128]⟩
abbrev S500x32 : Shape := ⟨2, ![500, 32]⟩
abbrev S1000x64 : Shape := ⟨2, ![1000, 64]⟩
abbrev S50000 : Shape := ⟨1, ![50000]⟩
abbrev S100000 : Shape := ⟨1, ![100000]⟩
abbrev S800000 : Shape := ⟨1, ![800000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S64x256 : Shape := ⟨2, ![64, 256]⟩
abbrev S256x64 : Shape := ⟨2, ![256, 64]⟩
abbrev S64 : Shape := ⟨1, ![64]⟩
abbrev S32x256 : Shape := ⟨2, ![32, 256]⟩
abbrev S256x32 : Shape := ⟨2, ![256, 32]⟩
abbrev S32 : Shape := ⟨1, ![32]⟩
abbrev S608x256 : Shape := ⟨2, ![608, 256]⟩
abbrev S128x128 : Shape := ⟨2, ![128, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S20000x128 : S_.BroadcastsInDim S20000x128 (![] : Fin 0 → Fin S20000x128.rank)
  reducesTo_S20000x128_S_d0_1 : S20000x128.ReducesTo [0, 1] S_
  bcast_S_S500x32 : S_.BroadcastsInDim S500x32 (![] : Fin 0 → Fin S500x32.rank)
  reducesTo_S500x32_S_d0_1 : S500x32.ReducesTo [0, 1] S_
  bcast_S_S1000x64 : S_.BroadcastsInDim S1000x64 (![] : Fin 0 → Fin S1000x64.rank)
  reducesTo_S1000x64_S_d0_1 : S1000x64.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S64x256 : S_.BroadcastsInDim S64x256 (![] : Fin 0 → Fin S64x256.rank)
  reducesTo_S64x256_S_d0_1 : S64x256.ReducesTo [0, 1] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S32x256 : S_.BroadcastsInDim S32x256 (![] : Fin 0 → Fin S32x256.rank)
  reducesTo_S32x256_S_d0_1 : S32x256.ReducesTo [0, 1] S_
  bcast_S_S256x32 : S_.BroadcastsInDim S256x32 (![] : Fin 0 → Fin S256x32.rank)
  reducesTo_S256x32_S_d0_1 : S256x32.ReducesTo [0, 1] S_
  bcast_S_S32 : S_.BroadcastsInDim S32 (![] : Fin 0 → Fin S32.rank)
  reducesTo_S32_S_d0 : S32.ReducesTo [0] S_
  bcast_S_S608x256 : S_.BroadcastsInDim S608x256 (![] : Fin 0 → Fin S608x256.rank)
  reducesTo_S608x256_S_d0_1 : S608x256.ReducesTo [0, 1] S_
  bcast_S_S128x128 : S_.BroadcastsInDim S128x128 (![] : Fin 0 → Fin S128x128.rank)
  reducesTo_S128x128_S_d0_1 : S128x128.ReducesTo [0, 1] S_

variable [Facts]

def fn_part9 {F : FTy → Type} [FloatOps F] (main_arg38 : FVec F S128 .f32) (main_arg39 : FVec F S128x128 .f32) (main_arg40 : FVec F S128 .f32) (main_v153 : IVec S_ 1) : IVec S_ 1 :=
  let main_v154 : FVec F S128 .f32 := Host.absf main_arg38
  let main_cst_60 : FVec F S_ .f32 := constant S_ .f32 0x7F800000#32
  let main_v155 : FVec F S128 .f32 := broadcastInDim S128 ![] bcast_S_S128 main_cst_60
  let main_v156 : IVec S128 1 := cmpf .olt main_v154 main_v155
  let main_c_61 : IVec S_ 1 := constantI S_ 1 1#1
  let main_v157 : IVec S_ 1 := (fun x v => Host.reduce IntOp.andi x v reducesTo_S128_S_d0 h_S_) main_v156 main_c_61
  let main_v158 : IVec S_ 1 := andi main_v153 main_v157
  let main_v159 : FVec F S128x128 .f32 := Host.absf main_arg39
  let main_cst_62 : FVec F S_ .f32 := constant S_ .f32 0x7F800000#32
  let main_v160 : FVec F S128x128 .f32 := broadcastInDim S128x128 ![] bcast_S_S128x128 main_cst_62
  let main_v161 : IVec S128x128 1 := cmpf .olt main_v159 main_v160
  let main_c_63 : IVec S_ 1 := constantI S_ 1 1#1
  let main_v162 : IVec S_ 1 := (fun x v => Host.reduce IntOp.andi x v reducesTo_S128x128_S_d0_1 h_S_) main_v161 main_c_63
  let main_v163 : IVec S_ 1 := andi main_v158 main_v162
  let main_v164 : FVec F S128 .f32 := Host.absf main_arg40
  let main_cst_64 : FVec F S_ .f32 := constant S_ .f32 0x7F800000#32
  let main_v165 : FVec F S128 .f32 := broadcastInDim S128 ![] bcast_S_S128 main_cst_64
  let main_v166 : IVec S128 1 := cmpf .olt main_v164 main_v165
  let main_c_65 : IVec S_ 1 := constantI S_ 1 1#1
  let main_v167 : IVec S_ 1 := (fun x v => Host.reduce IntOp.andi x v reducesTo_S128_S_d0 h_S_) main_v166 main_c_65
  let main_v168 : IVec S_ 1 := andi main_v163 main_v167
  main_v168

def fn_part8 {F : FTy → Type} [FloatOps F] (main_arg35 : FVec F S608x256 .f32) (main_arg36 : FVec F S256 .f32) (main_arg37 : FVec F S256x128 .f32) (main_arg38 : FVec F S128 .f32) (main_arg39 : FVec F S128x128 .f32) (main_arg40 : FVec F S128 .f32) (main_v133 : IVec S_ 1) (main_v136 : IVec S32 1) : IVec S_ 1 :=
  let main_c_53 : IVec S_ 1 := constantI S_ 1 1#1
  let main_v137 : IVec S_ 1 := (fun x v => Host.reduce IntOp.andi x v reducesTo_S32_S_d0 h_S_) main_v136 main_c_53
  let main_v138 : IVec S_ 1 := andi main_v133 main_v137
  let main_v139 : FVec F S608x256 .f32 := Host.absf main_arg35
  let main_cst_54 : FVec F S_ .f32 := constant S_ .f32 0x7F800000#32
  let main_v140 : FVec F S608x256 .f32 := broadcastInDim S608x256 ![] bcast_S_S608x256 main_cst_54
  let main_v141 : IVec S608x256 1 := cmpf .olt main_v139 main_v140
  let main_c_55 : IVec S_ 1 := constantI S_ 1 1#1
  let main_v142 : IVec S_ 1 := (fun x v => Host.reduce IntOp.andi x v reducesTo_S608x256_S_d0_1 h_S_) main_v141 main_c_55
  let main_v143 : IVec S_ 1 := andi main_v138 main_v142
  let main_v144 : FVec F S256 .f32 := Host.absf main_arg36
  let main_cst_56 : FVec F S_ .f32 := constant S_ .f32 0x7F800000#32
  let main_v145 : FVec F S256 .f32 := broadcastInDim S256 ![] bcast_S_S256 main_cst_56
  let main_v146 : IVec S256 1 := cmpf .olt main_v144 main_v145
  let main_c_57 : IVec S_ 1 := constantI S_ 1 1#1
  let main_v147 : IVec S_ 1 := (fun x v => Host.reduce IntOp.andi x v reducesTo_S256_S_d0 h_S_) main_v146 main_c_57
  let main_v148 : IVec S_ 1 := andi main_v143 main_v147
  let main_v149 : FVec F S256x128 .f32 := Host.absf main_arg37
  let main_cst_58 : FVec F S_ .f32 := constant S_ .f32 0x7F800000#32
  let main_v150 : FVec F S256x128 .f32 := broadcastInDim S256x128 ![] bcast_S_S256x128 main_cst_58
  let main_v151 : IVec S256x128 1 := cmpf .olt main_v149 main_v150
  let main_c_59 : IVec S_ 1 := constantI S_ 1 1#1
  let main_v152 : IVec S_ 1 := (fun x v => Host.reduce IntOp.andi x v reducesTo_S256x128_S_d0_1 h_S_) main_v151 main_c_59
  let main_v153 : IVec S_ 1 := andi main_v148 main_v152
  fn_part9 (F := F) main_arg38 main_arg39 main_arg40 main_v153

def fn_part7 {F : FTy → Type} [FloatOps F] (main_arg32 : FVec F S256 .f32) (main_arg33 : FVec F S256x32 .f32) (main_arg34 : FVec F S32 .f32) (main_arg35 : FVec F S608x256 .f32) (main_arg36 : FVec F S256 .f32) (main_arg37 : FVec F S256x128 .f32) (main_arg38 : FVec F S128 .f32) (main_arg39 : FVec F S128x128 .f32) (main_arg40 : FVec F S128 .f32) (main_v118 : IVec S_ 1) (main_v119 : FVec F S32x256 .f32) : IVec S_ 1 :=
  let main_cst_46 : FVec F S_ .f32 := constant S_ .f32 0x7F800000#32
  let main_v120 : FVec F S32x256 .f32 := broadcastInDim S32x256 ![] bcast_S_S32x256 main_cst_46
  let main_v121 : IVec S32x256 1 := cmpf .olt main_v119 main_v120
  let main_c_47 : IVec S_ 1 := constantI S_ 1 1#1
  let main_v122 : IVec S_ 1 := (fun x v => Host.reduce IntOp.andi x v reducesTo_S32x256_S_d0_1 h_S_) main_v121 main_c_47
  let main_v123 : IVec S_ 1 := andi main_v118 main_v122
  let main_v124 : FVec F S256 .f32 := Host.absf main_arg32
  let main_cst_48 : FVec F S_ .f32 := constant S_ .f32 0x7F800000#32
  let main_v125 : FVec F S256 .f32 := broadcastInDim S256 ![] bcast_S_S256 main_cst_48
  let main_v126 : IVec S256 1 := cmpf .olt main_v124 main_v125
  let main_c_49 : IVec S_ 1 := constantI S_ 1 1#1
  let main_v127 : IVec S_ 1 := (fun x v => Host.reduce IntOp.andi x v reducesTo_S256_S_d0 h_S_) main_v126 main_c_49
  let main_v128 : IVec S_ 1 := andi main_v123 main_v127
  let main_v129 : FVec F S256x32 .f32 := Host.absf main_arg33
  let main_cst_50 : FVec F S_ .f32 := constant S_ .f32 0x7F800000#32
  let main_v130 : FVec F S256x32 .f32 := broadcastInDim S256x32 ![] bcast_S_S256x32 main_cst_50
  let main_v131 : IVec S256x32 1 := cmpf .olt main_v129 main_v130
  let main_c_51 : IVec S_ 1 := constantI S_ 1 1#1
  let main_v132 : IVec S_ 1 := (fun x v => Host.reduce IntOp.andi x v reducesTo_S256x32_S_d0_1 h_S_) main_v131 main_c_51
  let main_v133 : IVec S_ 1 := andi main_v128 main_v132
  let main_v134 : FVec F S32 .f32 := Host.absf main_arg34
  let main_cst_52 : FVec F S_ .f32 := constant S_ .f32 0x7F800000#32
  let main_v135 : FVec F S32 .f32 := broadcastInDim S32 ![] bcast_S_S32 main_cst_52
  let main_v136 : IVec S32 1 := cmpf .olt main_v134 main_v135
  fn_part8 (F := F) main_arg35 main_arg36 main_arg37 main_arg38 main_arg39 main_arg40 main_v133 main_v136

def fn_part6 {F : FTy → Type} [FloatOps F] (main_arg28 : FVec F S256 .f32) (main_arg29 : FVec F S256x64 .f32) (main_arg30 : FVec F S64 .f32) (main_arg31 : FVec F S32x256 .f32) (main_arg32 : FVec F S256 .f32) (main_arg33 : FVec F S256x32 .f32) (main_arg34 : FVec F S32 .f32) (main_arg35 : FVec F S608x256 .f32) (main_arg36 : FVec F S256 .f32) (main_arg37 : FVec F S256x128 .f32) (main_arg38 : FVec F S128 .f32) (main_arg39 : FVec F S128x128 .f32) (main_arg40 : FVec F S128 .f32) (main_v98 : IVec S_ 1) (main_v101 : IVec S64x256 1) (main_c_39 : IVec S_ 1) : IVec S_ 1 :=
  let main_v102 : IVec S_ 1 := (fun x v => Host.reduce IntOp.andi x v reducesTo_S64x256_S_d0_1 h_S_) main_v101 main_c_39
  let main_v103 : IVec S_ 1 := andi main_v98 main_v102
  let main_v104 : FVec F S256 .f32 := Host.absf main_arg28
  let main_cst_40 : FVec F S_ .f32 := constant S_ .f32 0x7F800000#32
  let main_v105 : FVec F S256 .f32 := broadcastInDim S256 ![] bcast_S_S256 main_cst_40
  let main_v106 : IVec S256 1 := cmpf .olt main_v104 main_v105
  let main_c_41 : IVec S_ 1 := constantI S_ 1 1#1
  let main_v107 : IVec S_ 1 := (fun x v => Host.reduce IntOp.andi x v reducesTo_S256_S_d0 h_S_) main_v106 main_c_41
  let main_v108 : IVec S_ 1 := andi main_v103 main_v107
  let main_v109 : FVec F S256x64 .f32 := Host.absf main_arg29
  let main_cst_42 : FVec F S_ .f32 := constant S_ .f32 0x7F800000#32
  let main_v110 : FVec F S256x64 .f32 := broadcastInDim S256x64 ![] bcast_S_S256x64 main_cst_42
  let main_v111 : IVec S256x64 1 := cmpf .olt main_v109 main_v110
  let main_c_43 : IVec S_ 1 := constantI S_ 1 1#1
  let main_v112 : IVec S_ 1 := (fun x v => Host.reduce IntOp.andi x v reducesTo_S256x64_S_d0_1 h_S_) main_v111 main_c_43
  let main_v113 : IVec S_ 1 := andi main_v108 main_v112
  let main_v114 : FVec F S64 .f32 := Host.absf main_arg30
  let main_cst_44 : FVec F S_ .f32 := constant S_ .f32 0x7F800000#32
  let main_v115 : FVec F S64 .f32 := broadcastInDim S64 ![] bcast_S_S64 main_cst_44
  let main_v116 : IVec S64 1 := cmpf .olt main_v114 main_v115
  let main_c_45 : IVec S_ 1 := constantI S_ 1 1#1
  let main_v117 : IVec S_ 1 := (fun x v => Host.reduce IntOp.andi x v reducesTo_S64_S_d0 h_S_) main_v116 main_c_45
  let main_v118 : IVec S_ 1 := andi main_v113 main_v117
  let main_v119 : FVec F S32x256 .f32 := Host.absf main_arg31
  fn_part7 (F := F) main_arg32 main_arg33 main_arg34 main_arg35 main_arg36 main_arg37 main_arg38 main_arg39 main_arg40 main_v118 main_v119

def fn_part5 {F : FTy → Type} [FloatOps F] (main_arg25 : FVec F S256x128 .f32) (main_arg26 : FVec F S128 .f32) (main_arg27 : FVec F S64x256 .f32) (main_arg28 : FVec F S256 .f32) (main_arg29 : FVec F S256x64 .f32) (main_arg30 : FVec F S64 .f32) (main_arg31 : FVec F S32x256 .f32) (main_arg32 : FVec F S256 .f32) (main_arg33 : FVec F S256x32 .f32) (main_arg34 : FVec F S32 .f32) (main_arg35 : FVec F S608x256 .f32) (main_arg36 : FVec F S256 .f32) (main_arg37 : FVec F S256x128 .f32) (main_arg38 : FVec F S128 .f32) (main_arg39 : FVec F S128x128 .f32) (main_arg40 : FVec F S128 .f32) (main_v83 : IVec S_ 1) (main_v84 : FVec F S256 .f32) (main_cst_32 : FVec F S_ .f32) : IVec S_ 1 :=
  let main_v85 : FVec F S256 .f32 := broadcastInDim S256 ![] bcast_S_S256 main_cst_32
  let main_v86 : IVec S256 1 := cmpf .olt main_v84 main_v85
  let main_c_33 : IVec S_ 1 := constantI S_ 1 1#1
  let main_v87 : IVec S_ 1 := (fun x v => Host.reduce IntOp.andi x v reducesTo_S256_S_d0 h_S_) main_v86 main_c_33
  let main_v88 : IVec S_ 1 := andi main_v83 main_v87
  let main_v89 : FVec F S256x128 .f32 := Host.absf main_arg25
  let main_cst_34 : FVec F S_ .f32 := constant S_ .f32 0x7F800000#32
  let main_v90 : FVec F S256x128 .f32 := broadcastInDim S256x128 ![] bcast_S_S256x128 main_cst_34
  let main_v91 : IVec S256x128 1 := cmpf .olt main_v89 main_v90
  let main_c_35 : IVec S_ 1 := constantI S_ 1 1#1
  let main_v92 : IVec S_ 1 := (fun x v => Host.reduce IntOp.andi x v reducesTo_S256x128_S_d0_1 h_S_) main_v91 main_c_35
  let main_v93 : IVec S_ 1 := andi main_v88 main_v92
  let main_v94 : FVec F S128 .f32 := Host.absf main_arg26
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : FVec F S64x256 .f32 := Host.absf main_arg27
  let main_cst_38 : FVec F S_ .f32 := constant S_ .f32 0x7F800000#32
  let main_v100 : FVec F S64x256 .f32 := broadcastInDim S64x256 ![] bcast_S_S64x256 main_cst_38
  let main_v101 : IVec S64x256 1 := cmpf .olt main_v99 main_v100
  let main_c_39 : IVec S_ 1 := constantI S_ 1 1#1
  fn_part6 (F := F) main_arg28 main_arg29 main_arg30 main_arg31 main_arg32 main_arg33 main_arg34 main_arg35 main_arg36 main_arg37 main_arg38 main_arg39 main_arg40 main_v98 main_v101 main_c_39

def fn_part4 {F : FTy → Type} [FloatOps F] (main_arg21 : FVec F S256x128 .f32) (main_arg22 : FVec F S128 .f32) (main_arg23 : FVec F S128x256 .f32) (main_arg24 : FVec F S256 .f32) (main_arg25 : FVec F S256x128 .f32) (main_arg26 : FVec F S128 .f32) (main_arg27 : FVec F S64x256 .f32) (main_arg28 : FVec F S256 .f32) (main_arg29 : FVec F S256x64 .f32) (main_arg30 : FVec F S64 .f32) (main_arg31 : FVec F S32x256 .f32) (main_arg32 : FVec F S256 .f32) (main_arg33 : FVec F S256x32 .f32) (main_arg34 : FVec F S32 .f32) (main_arg35 : FVec F S608x256 .f32) (main_arg36 : FVec F S256 .f32) (main_arg37 : FVec F S256x128 .f32) (main_arg38 : FVec F S128 .f32) (main_arg39 : FVec F S128x128 .f32) (main_arg40 : FVec F S128 .f32) (main_v63 : IVec S_ 1) (main_v67 : IVec S_ 1) : IVec S_ 1 :=
  let main_v68 : IVec S_ 1 := andi main_v63 main_v67
  let main_v69 : FVec F S256x128 .f32 := Host.absf main_arg21
  let main_cst_26 : FVec F S_ .f32 := constant S_ .f32 0x7F800000#32
  let main_v70 : FVec F S256x128 .f32 := broadcastInDim S256x128 ![] bcast_S_S256x128 main_cst_26
  let main_v71 : IVec S256x128 1 := cmpf .olt main_v69 main_v70
  let main_c_27 : IVec S_ 1 := constantI S_ 1 1#1
  let main_v72 : IVec S_ 1 := (fun x v => Host.reduce IntOp.andi x v reducesTo_S256x128_S_d0_1 h_S_) main_v71 main_c_27
  let main_v73 : IVec S_ 1 := andi main_v68 main_v72
  let main_v74 : FVec F S128 .f32 := Host.absf main_arg22
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x256 .f32 := Host.absf main_arg23
  let main_cst_30 : FVec F S_ .f32 := constant S_ .f32 0x7F800000#32
  let main_v80 : FVec F S128x256 .f32 := broadcastInDim S128x256 ![] bcast_S_S128x256 main_cst_30
  let main_v81 : IVec S128x256 1 := cmpf .olt main_v79 main_v80
  let main_c_31 : IVec S_ 1 := constantI S_ 1 1#1
  let main_v82 : IVec S_ 1 := (fun x v => Host.reduce IntOp.andi x v reducesTo_S128x256_S_d0_1 h_S_) main_v81 main_c_31
  let main_v83 : IVec S_ 1 := andi main_v78 main_v82
  let main_v84 : FVec F S256 .f32 := Host.absf main_arg24
  let main_cst_32 : FVec F S_ .f32 := constant S_ .f32 0x7F800000#32
  fn_part5 (F := F) main_arg25 main_arg26 main_arg27 main_arg28 main_arg29 main_arg30 main_arg31 main_arg32 main_arg33 main_arg34 main_arg35 main_arg36 main_arg37 main_arg38 main_arg39 main_arg40 main_v83 main_v84 main_cst_32

def fn_part3 {F : FTy → Type} [FloatOps F] (main_arg18 : FVec F S128 .f32) (main_arg19 : FVec F S128x256 .f32) (main_arg20 : FVec F S256 .f32) (main_arg21 : FVec F S256x128 .f32) (main_arg22 : FVec F S128 .f32) (main_arg23 : FVec F S128x256 .f32) (main_arg24 : FVec F S256 .f32) (main_arg25 : FVec F S256x128 .f32) (main_arg26 : FVec F S128 .f32) (main_arg27 : FVec F S64x256 .f32) (main_arg28 : FVec F S256 .f32) (main_arg29 : FVec F S256x64 .f32) (main_arg30 : FVec F S64 .f32) (main_arg31 : FVec F S32x256 .f32) (main_arg32 : FVec F S256 .f32) (main_arg33 : FVec F S256x32 .f32) (main_arg34 : FVec F S32 .f32) (main_arg35 : FVec F S608x256 .f32) (main_arg36 : FVec F S256 .f32) (main_arg37 : FVec F S256x128 .f32) (main_arg38 : FVec F S128 .f32) (main_arg39 : FVec F S128x128 .f32) (main_arg40 : FVec F S128 .f32) (main_v48 : IVec S_ 1) (main_v49 : FVec F S256x128 .f32) (main_v50 : FVec F S256x128 .f32) : IVec S_ 1 :=
  let main_v51 : IVec S256x128 1 := cmpf .olt main_v49 main_v50
  let main_c_19 : IVec S_ 1 := constantI S_ 1 1#1
  let main_v52 : IVec S_ 1 := (fun x v => Host.reduce IntOp.andi x v reducesTo_S256x128_S_d0_1 h_S_) main_v51 main_c_19
  let main_v53 : IVec S_ 1 := andi main_v48 main_v52
  let main_v54 : FVec F S128 .f32 := Host.absf main_arg18
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x256 .f32 := Host.absf main_arg19
  let main_cst_22 : FVec F S_ .f32 := constant S_ .f32 0x7F800000#32
  let main_v60 : FVec F S128x256 .f32 := broadcastInDim S128x256 ![] bcast_S_S128x256 main_cst_22
  let main_v61 : IVec S128x256 1 := cmpf .olt main_v59 main_v60
  let main_c_23 : IVec S_ 1 := constantI S_ 1 1#1
  let main_v62 : IVec S_ 1 := (fun x v => Host.reduce IntOp.andi x v reducesTo_S128x256_S_d0_1 h_S_) main_v61 main_c_23
  let main_v63 : IVec S_ 1 := andi main_v58 main_v62
  let main_v64 : FVec F S256 .f32 := Host.absf main_arg20
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg21 main_arg22 main_arg23 main_arg24 main_arg25 main_arg26 main_arg27 main_arg28 main_arg29 main_arg30 main_arg31 main_arg32 main_arg33 main_arg34 main_arg35 main_arg36 main_arg37 main_arg38 main_arg39 main_arg40 main_v63 main_v67

def fn_part2 {F : FTy → Type} [FloatOps F] (main_arg14 : FVec F S128 .f32) (main_arg15 : FVec F S128x256 .f32) (main_arg16 : FVec F S256 .f32) (main_arg17 : FVec F S256x128 .f32) (main_arg18 : FVec F S128 .f32) (main_arg19 : FVec F S128x256 .f32) (main_arg20 : FVec F S256 .f32) (main_arg21 : FVec F S256x128 .f32) (main_arg22 : FVec F S128 .f32) (main_arg23 : FVec F S128x256 .f32) (main_arg24 : FVec F S256 .f32) (main_arg25 : FVec F S256x128 .f32) (main_arg26 : FVec F S128 .f32) (main_arg27 : FVec F S64x256 .f32) (main_arg28 : FVec F S256 .f32) (main_arg29 : FVec F S256x64 .f32) (main_arg30 : FVec F S64 .f32) (main_arg31 : FVec F S32x256 .f32) (main_arg32 : FVec F S256 .f32) (main_arg33 : FVec F S256x32 .f32) (main_arg34 : FVec F S32 .f32) (main_arg35 : FVec F S608x256 .f32) (main_arg36 : FVec F S256 .f32) (main_arg37 : FVec F S256x128 .f32) (main_arg38 : FVec F S128 .f32) (main_arg39 : FVec F S128x128 .f32) (main_arg40 : FVec F S128 .f32) (main_v33 : IVec S_ 1) : IVec S_ 1 :=
  let main_v34 : FVec F S128 .f32 := Host.absf main_arg14
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x256 .f32 := Host.absf main_arg15
  let main_cst_14 : FVec F S_ .f32 := constant S_ .f32 0x7F800000#32
  let main_v40 : FVec F S128x256 .f32 := broadcastInDim S128x256 ![] bcast_S_S128x256 main_cst_14
  let main_v41 : IVec S128x256 1 := cmpf .olt main_v39 main_v40
  let main_c_15 : IVec S_ 1 := constantI S_ 1 1#1
  let main_v42 : IVec S_ 1 := (fun x v => Host.reduce IntOp.andi x v reducesTo_S128x256_S_d0_1 h_S_) main_v41 main_c_15
  let main_v43 : IVec S_ 1 := andi main_v38 main_v42
  let main_v44 : FVec F S256 .f32 := Host.absf main_arg16
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x128 .f32 := Host.absf main_arg17
  let main_cst_18 : FVec F S_ .f32 := constant S_ .f32 0x7F800000#32
  let main_v50 : FVec F S256x128 .f32 := broadcastInDim S256x128 ![] bcast_S_S256x128 main_cst_18
  fn_part3 (F := F) main_arg18 main_arg19 main_arg20 main_arg21 main_arg22 main_arg23 main_arg24 main_arg25 main_arg26 main_arg27 main_arg28 main_arg29 main_arg30 main_arg31 main_arg32 main_arg33 main_arg34 main_arg35 main_arg36 main_arg37 main_arg38 main_arg39 main_arg40 main_v48 main_v49 main_v50

def fn_part1 {F : FTy → Type} [FloatOps F] (main_arg11 : FVec F S128x256 .f32) (main_arg12 : FVec F S256 .f32) (main_arg13 : FVec F S256x128 .f32) (main_arg14 : FVec F S128 .f32) (main_arg15 : FVec F S128x256 .f32) (main_arg16 : FVec F S256 .f32) (main_arg17 : FVec F S256x128 .f32) (main_arg18 : FVec F S128 .f32) (main_arg19 : FVec F S128x256 .f32) (main_arg20 : FVec F S256 .f32) (main_arg21 : FVec F S256x128 .f32) (main_arg22 : FVec F S128 .f32) (main_arg23 : FVec F S128x256 .f32) (main_arg24 : FVec F S256 .f32) (main_arg25 : FVec F S256x128 .f32) (main_arg26 : FVec F S128 .f32) (main_arg27 : FVec F S64x256 .f32) (main_arg28 : FVec F S256 .f32) (main_arg29 : FVec F S256x64 .f32) (main_arg30 : FVec F S64 .f32) (main_arg31 : FVec F S32x256 .f32) (main_arg32 : FVec F S256 .f32) (main_arg33 : FVec F S256x32 .f32) (main_arg34 : FVec F S32 .f32) (main_arg35 : FVec F S608x256 .f32) (main_arg36 : FVec F S256 .f32) (main_arg37 : FVec F S256x128 .f32) (main_arg38 : FVec F S128 .f32) (main_arg39 : FVec F S128x128 .f32) (main_arg40 : FVec F S128 .f32) (main_v13 : IVec S_ 1) (main_v16 : IVec S1000x64 1) : IVec S_ 1 :=
  let main_c_5 : IVec S_ 1 := constantI S_ 1 1#1
  let main_v17 : IVec S_ 1 := (fun x v => Host.reduce IntOp.andi x v reducesTo_S1000x64_S_d0_1 h_S_) main_v16 main_c_5
  let main_v18 : IVec S_ 1 := andi main_v13 main_v17
  let main_v19 : FVec F S128x256 .f32 := Host.absf main_arg11
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S256 .f32 := Host.absf main_arg12
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x128 .f32 := Host.absf main_arg13
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_arg36 main_arg37 main_arg38 main_arg39 main_arg40 main_v33

def fn {F : FTy → Type} [FloatOps F] (main_arg0 : FVec F S50000x128 .f32) (main_arg1 : FVec F S20000x128 .f32) (main_arg2 : FVec F S500x32 .f32) (main_arg3 : FVec F S1000x64 .f32) (main_arg4 : IVec S50000 32) (main_arg5 : IVec S100000 32) (main_arg6 : IVec S100000 32) (main_arg7 : IVec S100000 32) (main_arg8 : IVec S100000 32) (main_arg9 : IVec S800000 32) (main_arg10 : IVec S800000 32) (main_arg11 : FVec F S128x256 .f32) (main_arg12 : FVec F S256 .f32) (main_arg13 : FVec F S256x128 .f32) (main_arg14 : FVec F S128 .f32) (main_arg15 : FVec F S128x256 .f32) (main_arg16 : FVec F S256 .f32) (main_arg17 : FVec F S256x128 .f32) (main_arg18 : FVec F S128 .f32) (main_arg19 : FVec F S128x256 .f32) (main_arg20 : FVec F S256 .f32) (main_arg21 : FVec F S256x128 .f32) (main_arg22 : FVec F S128 .f32) (main_arg23 : FVec F S128x256 .f32) (main_arg24 : FVec F S256 .f32) (main_arg25 : FVec F S256x128 .f32) (main_arg26 : FVec F S128 .f32) (main_arg27 : FVec F S64x256 .f32) (main_arg28 : FVec F S256 .f32) (main_arg29 : FVec F S256x64 .f32) (main_arg30 : FVec F S64 .f32) (main_arg31 : FVec F S32x256 .f32) (main_arg32 : FVec F S256 .f32) (main_arg33 : FVec F S256x32 .f32) (main_arg34 : FVec F S32 .f32) (main_arg35 : FVec F S608x256 .f32) (main_arg36 : FVec F S256 .f32) (main_arg37 : FVec F S256x128 .f32) (main_arg38 : FVec F S128 .f32) (main_arg39 : FVec F S128x128 .f32) (main_arg40 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S20000x128 .f32 := Host.absf main_arg1
  let main_cst_0 : FVec F S_ .f32 := constant S_ .f32 0x7F800000#32
  let main_v5 : FVec F S20000x128 .f32 := broadcastInDim S20000x128 ![] bcast_S_S20000x128 main_cst_0
  let main_v6 : IVec S20000x128 1 := cmpf .olt main_v4 main_v5
  let main_c_1 : IVec S_ 1 := constantI S_ 1 1#1
  let main_v7 : IVec S_ 1 := (fun x v => Host.reduce IntOp.andi x v reducesTo_S20000x128_S_d0_1 h_S_) main_v6 main_c_1
  let main_v8 : IVec S_ 1 := andi main_v3 main_v7
  let main_v9 : FVec F S500x32 .f32 := Host.absf main_arg2
  let main_cst_2 : FVec F S_ .f32 := constant S_ .f32 0x7F800000#32
  let main_v10 : FVec F S500x32 .f32 := broadcastInDim S500x32 ![] bcast_S_S500x32 main_cst_2
  let main_v11 : IVec S500x32 1 := cmpf .olt main_v9 main_v10
  let main_c_3 : IVec S_ 1 := constantI S_ 1 1#1
  let main_v12 : IVec S_ 1 := (fun x v => Host.reduce IntOp.andi x v reducesTo_S500x32_S_d0_1 h_S_) main_v11 main_c_3
  let main_v13 : IVec S_ 1 := andi main_v8 main_v12
  let main_v14 : FVec F S1000x64 .f32 := Host.absf main_arg3
  let main_cst_4 : FVec F S_ .f32 := constant S_ .f32 0x7F800000#32
  let main_v15 : FVec F S1000x64 .f32 := broadcastInDim S1000x64 ![] bcast_S_S1000x64 main_cst_4
  let main_v16 : IVec S1000x64 1 := cmpf .olt main_v14 main_v15
  fn_part1 (F := F) main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_arg36 main_arg37 main_arg38 main_arg39 main_arg40 main_v13 main_v16
-- ==== Kernel.lean ====
abbrev S50000x128 : Shape := ⟨2, ![50000, 128]⟩
abbrev S20000x128 : Shape := ⟨2, ![20000, 128]⟩
abbrev S500x32 : Shape := ⟨2, ![500, 32]⟩
abbrev S1000x64 : Shape := ⟨2, ![1000, 64]⟩
abbrev S50000 : Shape := ⟨1, ![50000]⟩
abbrev S100000 : Shape := ⟨1, ![100000]⟩
abbrev S800000 : Shape := ⟨1, ![800000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S64x256 : Shape := ⟨2, ![64, 256]⟩
abbrev S256x64 : Shape := ⟨2, ![256, 64]⟩
abbrev S64 : Shape := ⟨1, ![64]⟩
abbrev S32x256 : Shape := ⟨2, ![32, 256]⟩
abbrev S256x32 : Shape := ⟨2, ![256, 32]⟩
abbrev S32 : Shape := ⟨1, ![32]⟩
abbrev S608x256 : Shape := ⟨2, ![608, 256]⟩
abbrev S128x128 : Shape := ⟨2, ![128, 128]⟩
abbrev S_ : Shape := ⟨0, ![]⟩
abbrev S50000x1 : Shape := ⟨2, ![50000, 1]⟩
abbrev S100000x1 : Shape := ⟨2, ![100000, 1]⟩
abbrev S100000x32 : Shape := ⟨2, ![100000, 32]⟩
abbrev S50000x32 : Shape := ⟨2, ![50000, 32]⟩
abbrev S100000x64 : Shape := ⟨2, ![100000, 64]⟩
abbrev S50000x64 : Shape := ⟨2, ![50000, 64]⟩
abbrev S800000x1 : Shape := ⟨2, ![800000, 1]⟩
abbrev S800000x128 : Shape := ⟨2, ![800000, 128]⟩
abbrev S1000x128 : Shape := ⟨2, ![1000, 128]⟩
abbrev S1000x32 : Shape := ⟨2, ![1000, 32]⟩
abbrev S1000x256 : Shape := ⟨2, ![1000, 256]⟩
abbrev S1x256 : Shape := ⟨2, ![1, 256]⟩
abbrev S1x128 : Shape := ⟨2, ![1, 128]⟩
abbrev S1x32 : Shape := ⟨2, ![1, 32]⟩
abbrev S1x64 : Shape := ⟨2, ![1, 64]⟩

abbrev nBuf : Space → Nat
  | .hbm => 109
  | .vmem => 49
  | .smem => 0
  | _ => 0

abbrev bufTy : (tb : Table) → Fin (tcTables nBuf tb) → BufTy
  | .hbm, ⟨0, _⟩ => ⟨S50000x128, .f32⟩
  | .hbm, ⟨1, _⟩ => ⟨S20000x128, .f32⟩
  | .hbm, ⟨2, _⟩ => ⟨S500x32, .f32⟩
  | .hbm, ⟨3, _⟩ => ⟨S1000x64, .f32⟩
  | .hbm, ⟨4, _⟩ => ⟨S50000, .i32⟩
  | .hbm, ⟨5, _⟩ => ⟨S100000, .i32⟩
  | .hbm, ⟨6, _⟩ => ⟨S100000, .i32⟩
  | .hbm, ⟨7, _⟩ => ⟨S100000, .i32⟩
  | .hbm, ⟨8, _⟩ => ⟨S100000, .i32⟩
  | .hbm, ⟨9, _⟩ => ⟨S800000, .i32⟩
  | .hbm, ⟨10, _⟩ => ⟨S800000, .i32⟩
  | .hbm, ⟨11, _⟩ => ⟨S128x256, .f32⟩
  | .hbm, ⟨12, _⟩ => ⟨S256, .f32⟩
  | .hbm, ⟨13, _⟩ => ⟨S256x128, .f32⟩
  | .hbm, ⟨14, _⟩ => ⟨S128, .f32⟩
  | .hbm, ⟨15, _⟩ => ⟨S128x256, .f32⟩
  | .hbm, ⟨16, _⟩ => ⟨S256, .f32⟩
  | .hbm, ⟨17, _⟩ => ⟨S256x128, .f32⟩
  | .hbm, ⟨18, _⟩ => ⟨S128, .f32⟩
  | .hbm, ⟨19, _⟩ => ⟨S128x256, .f32⟩
  | .hbm, ⟨20, _⟩ => ⟨S256, .f32⟩
  | .hbm, ⟨21, _⟩ => ⟨S256x128, .f32⟩
  | .hbm, ⟨22, _⟩ => ⟨S128, .f32⟩
  | .hbm, ⟨23, _⟩ => ⟨S128x256, .f32⟩
  | .hbm, ⟨24, _⟩ => ⟨S256, .f32⟩
  | .hbm, ⟨25, _⟩ => ⟨S256x128, .f32⟩
  | .hbm, ⟨26, _⟩ => ⟨S128, .f32⟩
  | .hbm, ⟨27, _⟩ => ⟨S64x256, .f32⟩
  | .hbm, ⟨28, _⟩ => ⟨S256, .f32⟩
  | .hbm, ⟨29, _⟩ => ⟨S256x64, .f32⟩
  | .hbm, ⟨30, _⟩ => ⟨S64, .f32⟩
  | .hbm, ⟨31, _⟩ => ⟨S32x256, .f32⟩
  | .hbm, ⟨32, _⟩ => ⟨S256, .f32⟩
  | .hbm, ⟨33, _⟩ => ⟨S256x32, .f32⟩
  | .hbm, ⟨34, _⟩ => ⟨S32, .f32⟩
  | .hbm, ⟨35, _⟩ => ⟨S608x256, .f32⟩
  | .hbm, ⟨36, _⟩ => ⟨S256, .f32⟩
  | .hbm, ⟨37, _⟩ => ⟨S256x128, .f32⟩
  | .hbm, ⟨38, _⟩ => ⟨S128, .f32⟩
  | .hbm, ⟨39, _⟩ => ⟨S128x128, .f32⟩
  | .hbm, ⟨40, _⟩ => ⟨S128, .f32⟩
  | .hbm, ⟨41, _⟩ => ⟨S_, .i32⟩
  | .hbm, ⟨42, _⟩ => ⟨S50000, .i32⟩
  | .hbm, ⟨43, _⟩ => ⟨S50000, .i1⟩
  | .hbm, ⟨44, _⟩ => ⟨S_, .i32⟩
  | .hbm, ⟨45, _⟩ => ⟨S50000, .i32⟩
  | .hbm, ⟨46, _⟩ => ⟨S50000, .i32⟩
  | .hbm, ⟨47, _⟩ => ⟨S50000, .i32⟩
  | .hbm, ⟨48, _⟩ => ⟨S50000x1, .i32⟩
  | .hbm, ⟨49, _⟩ => ⟨S50000x128, .f32⟩
  | .hbm, ⟨50, _⟩ => ⟨S_, .i32⟩
  | .hbm, ⟨51, _⟩ => ⟨S100000, .i32⟩
  | .hbm, ⟨52, _⟩ => ⟨S100000, .i1⟩
  | .hbm, ⟨53, _⟩ => ⟨S_, .i32⟩
  | .hbm, ⟨54, _⟩ => ⟨S100000, .i32⟩
  | .hbm, ⟨55, _⟩ => ⟨S100000, .i32⟩
  | .hbm, ⟨56, _⟩ => ⟨S100000, .i32⟩
  | .hbm, ⟨57, _⟩ => ⟨S100000x1, .i32⟩
  | .hbm, ⟨58, _⟩ => ⟨S100000x32, .f32⟩
  | .hbm, ⟨59, _⟩ => ⟨S_, .f32⟩
  | .hbm, ⟨60, _⟩ => ⟨S50000x32, .f32⟩
  | .hbm, ⟨61, _⟩ => ⟨S100000x1, .i32⟩
  | .hbm, ⟨62, _⟩ => ⟨S50000x32, .f32⟩
  | .hbm, ⟨63, _⟩ => ⟨S_, .i32⟩
  | .hbm, ⟨64, _⟩ => ⟨S100000, .i32⟩
  | .hbm, ⟨65, _⟩ => ⟨S100000, .i1⟩
  | .hbm, ⟨66, _⟩ => ⟨S_, .i32⟩
  | .hbm, ⟨67, _⟩ => ⟨S100000, .i32⟩
  | .hbm, ⟨68, _⟩ => ⟨S100000, .i32⟩
  | .hbm, ⟨69, _⟩ => ⟨S100000, .i32⟩
  | .hbm, ⟨70, _⟩ => ⟨S100000x1, .i32⟩
  | .hbm, ⟨71, _⟩ => ⟨S100000x64, .f32⟩
  | .hbm, ⟨72, _⟩ => ⟨S_, .f32⟩
  | .hbm, ⟨73, _⟩ => ⟨S50000x64, .f32⟩
  | .hbm, ⟨74, _⟩ => ⟨S100000x1, .i32⟩
  | .hbm, ⟨75, _⟩ => ⟨S50000x64, .f32⟩
  | .hbm, ⟨76, _⟩ => ⟨S_, .i32⟩
  | .hbm, ⟨77, _⟩ => ⟨S800000, .i32⟩
  | .hbm, ⟨78, _⟩ => ⟨S800000, .i1⟩
  | .hbm, ⟨79, _⟩ => ⟨S_, .i32⟩
  | .hbm, ⟨80, _⟩ => ⟨S800000, .i32⟩
  | .hbm, ⟨81, _⟩ => ⟨S800000, .i32⟩
  | .hbm, ⟨82, _⟩ => ⟨S800000, .i32⟩
  | .hbm, ⟨83, _⟩ => ⟨S800000x1, .i32⟩
  | .hbm, ⟨84, _⟩ => ⟨S800000x128, .f32⟩
  | .hbm, ⟨85, _⟩ => ⟨S_, .f32⟩
  | .hbm, ⟨86, _⟩ => ⟨S50000x128, .f32⟩
  | .hbm, ⟨87, _⟩ => ⟨S800000x1, .i32⟩
  | .hbm, ⟨88, _⟩ => ⟨S50000x128, .f32⟩
  | .hbm, ⟨89, _⟩ => ⟨S_, .i32⟩
  | .hbm, ⟨90, _⟩ => ⟨S800000, .i32⟩
  | .hbm, ⟨91, _⟩ => ⟨S800000, .i1⟩
  | .hbm, ⟨92, _⟩ => ⟨S_, .i32⟩
  | .hbm, ⟨93, _⟩ => ⟨S800000, .i32⟩
  | .hbm, ⟨94, _⟩ => ⟨S800000, .i32⟩
  | .hbm, ⟨95, _⟩ => ⟨S800000, .i32⟩
  | .hbm, ⟨96, _⟩ => ⟨S800000x1, .i32⟩
  | .hbm, ⟨97, _⟩ => ⟨S800000x128, .f32⟩
  | .hbm, ⟨98, _⟩ => ⟨S_, .f32⟩
  | .hbm, ⟨99, _⟩ => ⟨S50000x128, .f32⟩
  | .hbm, ⟨100, _⟩ => ⟨S800000x1, .i32⟩
  | .hbm, ⟨101, _⟩ => ⟨S50000x128, .f32⟩
  | .hbm, ⟨102, _⟩ => ⟨S128x256, .f32⟩
  | .hbm, ⟨103, _⟩ => ⟨S128x256, .f32⟩
  | .hbm, ⟨104, _⟩ => ⟨S64x256, .f32⟩
  | .hbm, ⟨105, _⟩ => ⟨S32x256, .f32⟩
  | .hbm, ⟨106, _⟩ => ⟨S128x256, .f32⟩
  | .hbm, ⟨107, _⟩ => ⟨S128x256, .f32⟩
  | .hbm, ⟨108, _⟩ => ⟨S50000x128, .f32⟩
  | .local _ .vmem, ⟨0, _⟩ => ⟨S1000x128, .f32⟩
  | .local _ .vmem, ⟨1, _⟩ => ⟨S1000x128, .f32⟩
  | .local _ .vmem, ⟨2, _⟩ => ⟨S1000x128, .f32⟩
  | .local _ .vmem, ⟨3, _⟩ => ⟨S1000x128, .f32⟩
  | .local _ .vmem, ⟨4, _⟩ => ⟨S1000x32, .f32⟩
  | .local _ .vmem, ⟨5, _⟩ => ⟨S1000x32, .f32⟩
  | .local _ .vmem, ⟨6, _⟩ => ⟨S1000x64, .f32⟩
  | .local _ .vmem, ⟨7, _⟩ => ⟨S1000x64, .f32⟩
  | .local _ .vmem, ⟨8, _⟩ => ⟨S1000x128, .f32⟩
  | .local _ .vmem, ⟨9, _⟩ => ⟨S1000x128, .f32⟩
  | .local _ .vmem, ⟨10, _⟩ => ⟨S1000x128, .f32⟩
  | .local _ .vmem, ⟨11, _⟩ => ⟨S1000x128, .f32⟩
  | .local _ .vmem, ⟨12, _⟩ => ⟨S128x256, .f32⟩
  | .local _ .vmem, ⟨13, _⟩ => ⟨S256, .f32⟩
  | .local _ .vmem, ⟨14, _⟩ => ⟨S256x128, .f32⟩
  | .local _ .vmem, ⟨15, _⟩ => ⟨S128, .f32⟩
  | .local _ .vmem, ⟨16, _⟩ => ⟨S128x256, .f32⟩
  | .local _ .vmem, ⟨17, _⟩ => ⟨S256, .f32⟩
  | .local _ .vmem, ⟨18, _⟩ => ⟨S256x128, .f32⟩
  | .local _ .vmem, ⟨19, _⟩ => ⟨S128, .f32⟩
  | .local _ .vmem, ⟨20, _⟩ => ⟨S32x256, .f32⟩
  | .local _ .vmem, ⟨21, _⟩ => ⟨S256, .f32⟩
  | .local _ .vmem, ⟨22, _⟩ => ⟨S256x32, .f32⟩
  | .local _ .vmem, ⟨23, _⟩ => ⟨S32, .f32⟩
  | .local _ .vmem, ⟨24, _⟩ => ⟨S64x256, .f32⟩
  | .local _ .vmem, ⟨25, _⟩ => ⟨S256, .f32⟩
  | .local _ .vmem, ⟨26, _⟩ => ⟨S256x64, .f32⟩
  | .local _ .vmem, ⟨27, _⟩ => ⟨S64, .f32⟩
  | .local _ .vmem, ⟨28, _⟩ => ⟨S128x256, .f32⟩
  | .local _ .vmem, ⟨29, _⟩ => ⟨S256, .f32⟩
  | .local _ .vmem, ⟨30, _⟩ => ⟨S256x128, .f32⟩
  | .local _ .vmem, ⟨31, _⟩ => ⟨S128, .f32⟩
  | .local _ .vmem, ⟨32, _⟩ => ⟨S128x256, .f32⟩
  | .local _ .vmem, ⟨33, _⟩ => ⟨S256, .f32⟩
  | .local _ .vmem, ⟨34, _⟩ => ⟨S256x128, .f32⟩
  | .local _ .vmem, ⟨35, _⟩ => ⟨S128, .f32⟩
  | .local _ .vmem, ⟨36, _⟩ => ⟨S128x256, .f32⟩
  | .local _ .vmem, ⟨37, _⟩ => ⟨S128x256, .f32⟩
  | .local _ .vmem, ⟨38, _⟩ => ⟨S64x256, .f32⟩
  | .local _ .vmem, ⟨39, _⟩ => ⟨S32x256, .f32⟩
  | .local _ .vmem, ⟨40, _⟩ => ⟨S128x256, .f32⟩
  | .local _ .vmem, ⟨41, _⟩ => ⟨S128x256, .f32⟩
  | .local _ .vmem, ⟨42, _⟩ => ⟨S256, .f32⟩
  | .local _ .vmem, ⟨43, _⟩ => ⟨S256x128, .f32⟩
  | .local _ .vmem, ⟨44, _⟩ => ⟨S128, .f32⟩
  | .local _ .vmem, ⟨45, _⟩ => ⟨S128x128, .f32⟩
  | .local _ .vmem, ⟨46, _⟩ => ⟨S128, .f32⟩
  | .local _ .vmem, ⟨47, _⟩ => ⟨S1000x128, .f32⟩
  | .local _ .vmem, ⟨48, _⟩ => ⟨S1000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | _, _ => false

abbrev semScoped : Fin 0 → Bool
  | ⟨_, h⟩ => absurd h (Nat.not_lt_zero _)

abbrev dmaSemScoped : Fin 49 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | _ => false

abbrev sig : RefSig :=
  ofTc nBuf bufTy 0 49 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_c : Ref sig .tc := ⟨.hbm, 41, rfl⟩
abbrev main_v0 : Ref sig .tc := ⟨.hbm, 42, rfl⟩
abbrev main_v1 : Ref sig .tc := ⟨.hbm, 43, rfl⟩
abbrev main_c_0 : Ref sig .tc := ⟨.hbm, 44, rfl⟩
abbrev main_v2 : Ref sig .tc := ⟨.hbm, 45, rfl⟩
abbrev main_v3 : Ref sig .tc := ⟨.hbm, 46, rfl⟩
abbrev main_v4 : Ref sig .tc := ⟨.hbm, 47, rfl⟩
abbrev main_v5 : Ref sig .tc := ⟨.hbm, 48, rfl⟩
abbrev main_v6 : Ref sig .tc := ⟨.hbm, 49, rfl⟩
abbrev main_c_1 : Ref sig .tc := ⟨.hbm, 50, rfl⟩
abbrev main_v7 : Ref sig .tc := ⟨.hbm, 51, rfl⟩
abbrev main_v8 : Ref sig .tc := ⟨.hbm, 52, rfl⟩
abbrev main_c_2 : Ref sig .tc := ⟨.hbm, 53, rfl⟩
abbrev main_v9 : Ref sig .tc := ⟨.hbm, 54, rfl⟩
abbrev main_v10 : Ref sig .tc := ⟨.hbm, 55, rfl⟩
abbrev main_v11 : Ref sig .tc := ⟨.hbm, 56, rfl⟩
abbrev main_v12 : Ref sig .tc := ⟨.hbm, 57, rfl⟩
abbrev main_v13 : Ref sig .tc := ⟨.hbm, 58, rfl⟩
abbrev main_cst : Ref sig .tc := ⟨.hbm, 59, rfl⟩
abbrev main_v14 : Ref sig .tc := ⟨.hbm, 60, rfl⟩
abbrev main_v15 : Ref sig .tc := ⟨.hbm, 61, rfl⟩
abbrev main_v16 : Ref sig .tc := ⟨.hbm, 62, rfl⟩
abbrev main_c_3 : Ref sig .tc := ⟨.hbm, 63, rfl⟩
abbrev main_v17 : Ref sig .tc := ⟨.hbm, 64, rfl⟩
abbrev main_v18 : Ref sig .tc := ⟨.hbm, 65, rfl⟩
abbrev main_c_4 : Ref sig .tc := ⟨.hbm, 66, rfl⟩
abbrev main_v19 : Ref sig .tc := ⟨.hbm, 67, rfl⟩
abbrev main_v20 : Ref sig .tc := ⟨.hbm, 68, rfl⟩
abbrev main_v21 : Ref sig .tc := ⟨.hbm, 69, rfl⟩
abbrev main_v22 : Ref sig .tc := ⟨.hbm, 70, rfl⟩
abbrev main_v23 : Ref sig .tc := ⟨.hbm, 71, rfl⟩
abbrev main_cst_5 : Ref sig .tc := ⟨.hbm, 72, rfl⟩
abbrev main_v24 : Ref sig .tc := ⟨.hbm, 73, rfl⟩
abbrev main_v25 : Ref sig .tc := ⟨.hbm, 74, rfl⟩
abbrev main_v26 : Ref sig .tc := ⟨.hbm, 75, rfl⟩
abbrev main_c_6 : Ref sig .tc := ⟨.hbm, 76, rfl⟩
abbrev main_v27 : Ref sig .tc := ⟨.hbm, 77, rfl⟩
abbrev main_v28 : Ref sig .tc := ⟨.hbm, 78, rfl⟩
abbrev main_c_7 : Ref sig .tc := ⟨.hbm, 79, rfl⟩
abbrev main_v29 : Ref sig .tc := ⟨.hbm, 80, rfl⟩
abbrev main_v30 : Ref sig .tc := ⟨.hbm, 81, rfl⟩
abbrev main_v31 : Ref sig .tc := ⟨.hbm, 82, rfl⟩
abbrev main_v32 : Ref sig .tc := ⟨.hbm, 83, rfl⟩
abbrev main_v33 : Ref sig .tc := ⟨.hbm, 84, rfl⟩
abbrev main_cst_8 : Ref sig .tc := ⟨.hbm, 85, rfl⟩
abbrev main_v34 : Ref sig .tc := ⟨.hbm, 86, rfl⟩
abbrev main_v35 : Ref sig .tc := ⟨.hbm, 87, rfl⟩
abbrev main_v36 : Ref sig .tc := ⟨.hbm, 88, rfl⟩
abbrev main_c_9 : Ref sig .tc := ⟨.hbm, 89, rfl⟩
abbrev main_v37 : Ref sig .tc := ⟨.hbm, 90, rfl⟩
abbrev main_v38 : Ref sig .tc := ⟨.hbm, 91, rfl⟩
abbrev main_c_10 : Ref sig .tc := ⟨.hbm, 92, rfl⟩
abbrev main_v39 : Ref sig .tc := ⟨.hbm, 93, rfl⟩
abbrev main_v40 : Ref sig .tc := ⟨.hbm, 94, rfl⟩
abbrev main_v41 : Ref sig .tc := ⟨.hbm, 95, rfl⟩
abbrev main_v42 : Ref sig .tc := ⟨.hbm, 96, rfl⟩
abbrev main_v43 : Ref sig .tc := ⟨.hbm, 97, rfl⟩
abbrev main_cst_11 : Ref sig .tc := ⟨.hbm, 98, rfl⟩
abbrev main_v44 : Ref sig .tc := ⟨.hbm, 99, rfl⟩
abbrev main_v45 : Ref sig .tc := ⟨.hbm, 100, rfl⟩
abbrev main_v46 : Ref sig .tc := ⟨.hbm, 101, rfl⟩
abbrev main_v47 : Ref sig .tc := ⟨.hbm, 102, rfl⟩
abbrev main_v48 : Ref sig .tc := ⟨.hbm, 103, rfl⟩
abbrev main_v49 : Ref sig .tc := ⟨.hbm, 104, rfl⟩
abbrev main_v50 : Ref sig .tc := ⟨.hbm, 105, rfl⟩
abbrev main_v51 : Ref sig .tc := ⟨.hbm, 106, rfl⟩
abbrev main_v52 : Ref sig .tc := ⟨.hbm, 107, rfl⟩
abbrev main_v53 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg17_0 : Ref sig .tc := ⟨.vmem, 23, rfl⟩
abbrev cc0_stg18_0 : Ref sig .tc := ⟨.vmem, 24, rfl⟩
abbrev cc0_stg19_0 : Ref sig .tc := ⟨.vmem, 25, rfl⟩
abbrev cc0_stg20_0 : Ref sig .tc := ⟨.vmem, 26, rfl⟩
abbrev cc0_stg21_0 : Ref sig .tc := ⟨.vmem, 27, rfl⟩
abbrev cc0_stg22_0 : Ref sig .tc := ⟨.vmem, 28, rfl⟩
abbrev cc0_stg23_0 : Ref sig .tc := ⟨.vmem, 29, rfl⟩
abbrev cc0_stg24_0 : Ref sig .tc := ⟨.vmem, 30, rfl⟩
abbrev cc0_stg25_0 : Ref sig .tc := ⟨.vmem, 31, rfl⟩
abbrev cc0_stg26_0 : Ref sig .tc := ⟨.vmem, 32, rfl⟩
abbrev cc0_stg27_0 : Ref sig .tc := ⟨.vmem, 33, rfl⟩
abbrev cc0_stg28_0 : Ref sig .tc := ⟨.vmem, 34, rfl⟩
abbrev cc0_stg29_0 : Ref sig .tc := ⟨.vmem, 35, rfl⟩
abbrev cc0_stg30_0 : Ref sig .tc := ⟨.vmem, 36, rfl⟩
abbrev cc0_stg31_0 : Ref sig .tc := ⟨.vmem, 37, rfl⟩
abbrev cc0_stg32_0 : Ref sig .tc := ⟨.vmem, 38, rfl⟩
abbrev cc0_stg33_0 : Ref sig .tc := ⟨.vmem, 39, rfl⟩
abbrev cc0_stg34_0 : Ref sig .tc := ⟨.vmem, 40, rfl⟩
abbrev cc0_stg35_0 : Ref sig .tc := ⟨.vmem, 41, rfl⟩
abbrev cc0_stg36_0 : Ref sig .tc := ⟨.vmem, 42, rfl⟩
abbrev cc0_stg37_0 : Ref sig .tc := ⟨.vmem, 43, rfl⟩
abbrev cc0_stg38_0 : Ref sig .tc := ⟨.vmem, 44, rfl⟩
abbrev cc0_stg39_0 : Ref sig .tc := ⟨.vmem, 45, rfl⟩
abbrev cc0_stg40_0 : Ref sig .tc := ⟨.vmem, 46, rfl⟩
abbrev cc0_stg41_0 : Ref sig .tc := ⟨.vmem, 47, rfl⟩
abbrev cc0_stg41_1 : Ref sig .tc := ⟨.vmem, 48, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem16_0 : DmaSem sig := 22
abbrev cc0_sem17_0 : DmaSem sig := 23
abbrev cc0_sem18_0 : DmaSem sig := 24
abbrev cc0_sem19_0 : DmaSem sig := 25
abbrev cc0_sem20_0 : DmaSem sig := 26
abbrev cc0_sem21_0 : DmaSem sig := 27
abbrev cc0_sem22_0 : DmaSem sig := 28
abbrev cc0_sem23_0 : DmaSem sig := 29
abbrev cc0_sem24_0 : DmaSem sig := 30
abbrev cc0_sem25_0 : DmaSem sig := 31
abbrev cc0_sem26_0 : DmaSem sig := 32
abbrev cc0_sem27_0 : DmaSem sig := 33
abbrev cc0_sem28_0 : DmaSem sig := 34
abbrev cc0_sem29_0 : DmaSem sig := 35
abbrev cc0_sem30_0 : DmaSem sig := 36
abbrev cc0_sem31_0 : DmaSem sig := 37
abbrev cc0_sem32_0 : DmaSem sig := 38
abbrev cc0_sem33_0 : DmaSem sig := 39
abbrev cc0_sem34_0 : DmaSem sig := 40
abbrev cc0_sem35_0 : DmaSem sig := 41
abbrev cc0_sem36_0 : DmaSem sig := 42
abbrev cc0_sem37_0 : DmaSem sig := 43
abbrev cc0_sem38_0 : DmaSem sig := 44
abbrev cc0_sem39_0 : DmaSem sig := 45
abbrev cc0_sem40_0 : DmaSem sig := 46
abbrev cc0_sem41_0 : DmaSem sig := 47
abbrev cc0_sem41_1 : DmaSem sig := 48

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_28 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_29 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_30 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_31 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_32 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_33 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_34 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_35 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_36 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_37 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_38 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_39 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_40 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_41 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S32x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S256x32 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S32 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S64x256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S256 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S256x64 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S64 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S128x256 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S256 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S256x128 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S128 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S128x256 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 1 → Memref sig .tc .vmem S256 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]

abbrev stage0_28 : Fin 1 → Memref sig .tc .vmem S256x128 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false]

abbrev stage0_29 : Fin 1 → Memref sig .tc .vmem S128 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))
abbrev reads0_29 : Fin grid0.rank → Bool := ![false]

abbrev stage0_30 : Fin 1 → Memref sig .tc .vmem S128x256 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))
abbrev reads0_30 : Fin grid0.rank → Bool := ![false]

abbrev stage0_31 : Fin 1 → Memref sig .tc .vmem S128x256 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))
abbrev reads0_31 : Fin grid0.rank → Bool := ![false]

abbrev stage0_32 : Fin 1 → Memref sig .tc .vmem S64x256 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))
abbrev reads0_32 : Fin grid0.rank → Bool := ![false]

abbrev stage0_33 : Fin 1 → Memref sig .tc .vmem S32x256 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))
abbrev reads0_33 : Fin grid0.rank → Bool := ![false]

abbrev stage0_34 : Fin 1 → Memref sig .tc .vmem S128x256 .f32 := fun | 0 => Memref.whole cc0_stg34_0 | ⟨_ + 1, h⟩ => absurd h (Nat.not_lt.2 (Nat.le_add_left _ _))
abbrev sem0_34 : Fin 1 → DmaSem sig := fun | 0 => cc0_sem34_0 | ⟨_ + 1, h⟩ => absurd h (Nat.not_lt.2 (Nat.le_add_left _ _))
abbrev reads0_34 : Fin grid0.rank → Bool := ![false]

abbrev stage0_35 : Fin 1 → Memref sig .tc .vmem S128x256 .f32 := fun | 0 => Memref.whole cc0_stg35_0 | ⟨_ + 1, h⟩ => absurd h (Nat.not_lt.2 (Nat.le_add_left _ _))
abbrev sem0_35 : Fin 1 → DmaSem sig := fun | 0 => cc0_sem35_0 | ⟨_ + 1, h⟩ => absurd h (Nat.not_lt.2 (Nat.le_add_left _ _))
abbrev reads0_35 : Fin grid0.rank → Bool := ![false]

abbrev stage0_36 : Fin 1 → Memref sig .tc .vmem S256 .f32 := fun | 0 => Memref.whole cc0_stg36_0 | ⟨_ + 1, h⟩ => absurd h (Nat.not_lt.2 (Nat.le_add_left _ _))
abbrev sem0_36 : Fin 1 → DmaSem sig := fun | 0 => cc0_sem36_0 | ⟨_ + 1, h⟩ => absurd h (Nat.not_lt.2 (Nat.le_add_left _ _))
abbrev reads0_36 : Fin grid0.rank → Bool := ![false]

abbrev stage0_37 : Fin 1 → Memref sig .tc .vmem S256x128 .f32 := fun | 0 => Memref.whole cc0_stg37_0 | ⟨_ + 1, h⟩ => absurd h (Nat.not_lt.2 (Nat.le_add_left _ _))
abbrev sem0_37 : Fin 1 → DmaSem sig := fun | 0 => cc0_sem37_0 | ⟨_ + 1, h⟩ => absurd h (Nat.not_lt.2 (Nat.le_add_left _ _))
abbrev reads0_37 : Fin grid0.rank → Bool := ![false]

abbrev stage0_38 : Fin 1 → Memref sig .tc .vmem S128 .f32 := fun | 0 => Memref.whole cc0_stg38_0 | ⟨_ + 1, h⟩ => absurd h (Nat.not_lt.2 (Nat.le_add_left _ _))
abbrev sem0_38 : Fin 1 → DmaSem sig := fun | 0 => cc0_sem38_0 | ⟨_ + 1, h⟩ => absurd h (Nat.not_lt.2 (Nat.le_add_left _ _))
abbrev reads0_38 : Fin grid0.rank → Bool := ![false]

abbrev stage0_39 : Fin 1 → Memref sig .tc .vmem S128x128 .f32 := fun | 0 => Memref.whole cc0_stg39_0 | ⟨_ + 1, h⟩ => absurd h (Nat.not_lt.2 (Nat.le_add_left _ _))
abbrev sem0_39 : Fin 1 → DmaSem sig := fun | 0 => cc0_sem39_0 | ⟨_ + 1, h⟩ => absurd h (Nat.not_lt.2 (Nat.le_add_left _ _))
abbrev reads0_39 : Fin grid0.rank → Bool := ![false]

abbrev stage0_40 : Fin 1 → Memref sig .tc .vmem S128 .f32 := fun | 0 => Memref.whole cc0_stg40_0 | ⟨_ + 1, h⟩ => absurd h (Nat.not_lt.2 (Nat.le_add_left _ _))
abbrev sem0_40 : Fin 1 → DmaSem sig := fun | 0 => cc0_sem40_0 | ⟨_ + 1, h⟩ => absurd h (Nat.not_lt.2 (Nat.le_add_left _ _))
abbrev reads0_40 : Fin grid0.rank → Bool := ![false]

abbrev stage0_41 : Fin 2 → Memref sig .tc .vmem S1000x128 .f32 := fun | 0 => Memref.whole cc0_stg41_0 | 1 => Memref.whole cc0_stg41_1 | ⟨_ + 2, h⟩ => absurd h (Nat.not_lt.2 (Nat.le_add_left _ _))
abbrev sem0_41 : Fin 2 → DmaSem sig := fun | 0 => cc0_sem41_0 | 1 => cc0_sem41_1 | ⟨_ + 2, h⟩ => absurd h (Nat.not_lt.2 (Nat.le_add_left _ _))
abbrev reads0_41 : Fin grid0.rank → Bool := ![true]

class Facts₀ : Prop where
  bcast_S_S50000 : S_.BroadcastsInDim S50000 (![] : Fin 0 → Fin S50000.rank)
  bcast_S50000_S50000x1_0 : S50000.BroadcastsInDim S50000x1 (![0] : Fin 1 → Fin S50000x1.rank)
  bcast_S_S100000 : S_.BroadcastsInDim S100000 (![] : Fin 0 → Fin S100000.rank)
  bcast_S100000_S100000x1_0 : S100000.BroadcastsInDim S100000x1 (![0] : Fin 1 → Fin S100000x1.rank)
  bcast_S_S50000x32 : S_.BroadcastsInDim S50000x32 (![] : Fin 0 → Fin S50000x32.rank)
  bcast_S_S50000x64 : S_.BroadcastsInDim S50000x64 (![] : Fin 0 → Fin S50000x64.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  slices_S608x256_S128x256_0_0 : S608x256.Slices ![0, 0] S128x256
  slices_S608x256_S128x256_128_0 : S608x256.Slices ![128, 0] S128x256
  slices_S608x256_S64x256_256_0 : S608x256.Slices ![256, 0] S64x256
  slices_S608x256_S32x256_320_0 : S608x256.Slices ![320, 0] S32x256
  slices_S608x256_S128x256_352_0 : S608x256.Slices ![352, 0] S128x256
  slices_S608x256_S128x256_480_0 : S608x256.Slices ![480, 0] S128x256
  inb_S1000x128_S1000x128_0_0 : ∀ a, (![0, 0] : Fin 2 → Nat) a + S1000x128.size a ≤ S1000x128.size a
  h_S1000x128 : 0 < S1000x128.numel
  inb_S128x256_S128x256_0_0 : ∀ a, (![0, 0] : Fin 2 → Nat) a + S128x256.size a ≤ S128x256.size a
  h_S128x256 : 0 < S128x256.numel
  bitsLt_bf16_f32 : FTy.bits .bf16 < FTy.bits .f32
  inb_S256_S256_0 : ∀ a, (![0] : Fin 1 → Nat) a + S256.size a ≤ S256.size a
  h_S256 : 0 < S256.numel
  shapeCasts_S256_S1x256 : S256.ShapeCasts S1x256
  broadcasts_S1x256_S1000x256 : S1x256.Broadcasts S1000x256
  inb_S256x128_S256x128_0_0 : ∀ a, (![0, 0] : Fin 2 → Nat) a + S256x128.size a ≤ S256x128.size a
  h_S256x128 : 0 < S256x128.numel
  inb_S128_S128_0 : ∀ a, (![0] : Fin 1 → Nat) a + S128.size a ≤ S128.size a
  h_S128 : 0 < S128.numel
  shapeCasts_S128_S1x128 : S128.ShapeCasts S1x128
  broadcasts_S1x128_S1000x128 : S1x128.Broadcasts S1000x128
  shapeCasts_S1000x128_S1000x128 : S1000x128.ShapeCasts S1000x128
  inb_S1000x32_S1000x32_0_0 : ∀ a, (![0, 0] : Fin 2 → Nat) a + S1000x32.size a ≤ S1000x32.size a
  h_S1000x32 : 0 < S1000x32.numel
  shapeCasts_S1000x32_S1000x32 : S1000x32.ShapeCasts S1000x32
  inb_S32x256_S32x256_0_0 : ∀ a, (![0, 0] : Fin 2 → Nat) a + S32x256.size a ≤ S32x256.size a
  h_S32x256 : 0 < S32x256.numel
  inb_S256x32_S256x32_0_0 : ∀ a, (![0, 0] : Fin 2 → Nat) a + S256x32.size a ≤ S256x32.size a
  h_S256x32 : 0 < S256x32.numel
  inb_S32_S32_0 : ∀ a, (![0] : Fin 1 → Nat) a + S32.size a ≤ S32.size a
  h_S32 : 0 < S32.numel
  shapeCasts_S32_S1x32 : S32.ShapeCasts S1x32
  broadcasts_S1x32_S1000x32 : S1x32.Broadcasts S1000x32
  inb_S1000x64_S1000x64_0_0 : ∀ a, (![0, 0] : Fin 2 → Nat) a + S1000x64.size a ≤ S1000x64.size a
  h_S1000x64 : 0 < S1000x64.numel
  shapeCasts_S1000x64_S1000x64 : S1000x64.ShapeCasts S1000x64
  inb_S64x256_S64x256_0_0 : ∀ a, (![0, 0] : Fin 2 → Nat) a + S64x256.size a ≤ S64x256.size a
  h_S64x256 : 0 < S64x256.numel
  inb_S256x64_S256x64_0_0 : ∀ a, (![0, 0] : Fin 2 → Nat) a + S256x64.size a ≤ S256x64.size a
  h_S256x64 : 0 < S256x64.numel
  inb_S64_S64_0 : ∀ a, (![0] : Fin 1 → Nat) a + S64.size a ≤ S64.size a
  h_S64 : 0 < S64.numel
  shapeCasts_S64_S1x64 : S64.ShapeCasts S1x64
  broadcasts_S1x64_S1000x64 : S1x64.Broadcasts S1000x64
  shapeCasts_S128x256_S128x256 : S128x256.ShapeCasts S128x256
  shapeCasts_S64x256_S64x256 : S64x256.ShapeCasts S64x256
  shapeCasts_S32x256_S32x256 : S32x256.ShapeCasts S32x256
  inb_S128x128_S128x128_0_0 : ∀ a, (![0, 0] : Fin 2 → Nat) a + S128x128.size a ≤ S128x128.size a
  h_S128x128 : 0 < S128x128.numel
  gather_S20000x128_S50000x1_S50000x128_1_0_n_n_0_1_1128_wf : GatherDims.WF S20000x128 S50000x1 S50000x128 [1] [0] [] [0] [] 1 ![1, 128]
  gather_S500x32_S100000x1_S100000x32_1_0_n_n_0_1_132_wf : GatherDims.WF S500x32 S100000x1 S100000x32 [1] [0] [] [0] [] 1 ![1, 32]
  scatter_S50000x32_S100000x1_S100000x32_1_0_0_1_wf : ScatterDims.WF S50000x32 S100000x1 S100000x32 [1] [0] [0] 1
  gather_S1000x64_S100000x1_S100000x64_1_0_n_n_0_1_164_wf : GatherDims.WF S1000x64 S100000x1 S100000x64 [1] [0] [] [0] [] 1 ![1, 64]
  scatter_S50000x64_S100000x1_S100000x64_1_0_0_1_wf : ScatterDims.WF S50000x64 S100000x1 S100000x64 [1] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S1000x128_S128x256_S1000x256_1_0_0_1_n_n_wf : DotDims.WF S1000x128 S128x256 S1000x256 [1] [0] [0] [1] [] []
  dot_S1000x256_S256x128_S1000x128_1_0_0_1_n_n_wf : DotDims.WF S1000x256 S256x128 S1000x128 [1] [0] [0] [1] [] []
  dot_S1000x32_S32x256_S1000x256_1_0_0_1_n_n_wf : DotDims.WF S1000x32 S32x256 S1000x256 [1] [0] [0] [1] [] []
  dot_S1000x256_S256x32_S1000x32_1_0_0_1_n_n_wf : DotDims.WF S1000x256 S256x32 S1000x32 [1] [0] [0] [1] [] []
  dot_S1000x64_S64x256_S1000x256_1_0_0_1_n_n_wf : DotDims.WF S1000x64 S64x256 S1000x256 [1] [0] [0] [1] [] []
  dot_S1000x256_S256x64_S1000x64_1_0_0_1_n_n_wf : DotDims.WF S1000x256 S256x64 S1000x64 [1] [0] [0] [1] [] []
  dot_S1000x128_S128x128_S1000x128_1_0_0_1_n_n_wf : DotDims.WF S1000x128 S128x128 S1000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S50000x128.size a
  hwx0_0 : ∀ i : grid0.Coords, EltTy.bits .f32 = 32 ∨ (Rect.block (s := S50000x128) S1000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x128.size a ≤ S50000x128.size a
  hwx0_1 : ∀ i : grid0.Coords, EltTy.bits .f32 = 32 ∨ (Rect.block (s := S50000x128) S1000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x32.size a ≤ S50000x32.size a
  hwx0_2 : ∀ i : grid0.Coords, EltTy.bits .f32 = 32 ∨ (Rect.block (s := S50000x32) S1000x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x64.size a ≤ S50000x64.size a
  hwx0_3 : ∀ i : grid0.Coords, EltTy.bits .f32 = 32 ∨ (Rect.block (s := S50000x64) S1000x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1000x128.size a ≤ S50000x128.size a
  hwx0_4 : ∀ i : grid0.Coords, EltTy.bits .f32 = 32 ∨ (Rect.block (s := S50000x128) S1000x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1000x128.size a ≤ S50000x128.size a
  hwx0_5 : ∀ i : grid0.Coords, EltTy.bits .f32 = 32 ∨ (Rect.block (s := S50000x128) S1000x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x256.size a ≤ S128x256.size a
  hwx0_6 : ∀ i : grid0.Coords, EltTy.bits .f32 = 32 ∨ (Rect.block (s := S128x256) S128x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256.size a ≤ S256.size a
  hwx0_7 : ∀ i : grid0.Coords, EltTy.bits .f32 = 32 ∨ (Rect.block (s := S256) S256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x128.size a ≤ S256x128.size a
  hwx0_8 : ∀ i : grid0.Coords, EltTy.bits .f32 = 32 ∨ (Rect.block (s := S256x128) S256x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128.size a ≤ S128.size a
  hwx0_9 : ∀ i : grid0.Coords, EltTy.bits .f32 = 32 ∨ (Rect.block (s := S128) S128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128x256.size a ≤ S128x256.size a
  hwx0_10 : ∀ i : grid0.Coords, EltTy.bits .f32 = 32 ∨ (Rect.block (s := S128x256) S128x256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256.size a ≤ S256.size a
  hwx0_11 : ∀ i : grid0.Coords, EltTy.bits .f32 = 32 ∨ (Rect.block (s := S256) S256.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S256x128.size a ≤ S256x128.size a
  hwx0_12 : ∀ i : grid0.Coords, EltTy.bits .f32 = 32 ∨ (Rect.block (s := S256x128) S256x128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S128.size a ≤ S128.size a
  hwx0_13 : ∀ i : grid0.Coords, EltTy.bits .f32 = 32 ∨ (Rect.block (s := S128) S128.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S32x256.size a ≤ S32x256.size a
  hwx0_14 : ∀ i : grid0.Coords, EltTy.bits .f32 = 32 ∨ (Rect.block (s := S32x256) S32x256.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S256.size a ≤ S256.size a
  hwx0_15 : ∀ i : grid0.Coords, EltTy.bits .f32 = 32 ∨ (Rect.block (s := S256) S256.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S256x32.size a ≤ S256x32.size a
  hwx0_16 : ∀ i : grid0.Coords, EltTy.bits .f32 = 32 ∨ (Rect.block (s := S256x32) S256x32.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S32.size a ≤ S32.size a
  hwx0_17 : ∀ i : grid0.Coords, EltTy.bits .f32 = 32 ∨ (Rect.block (s := S32) S32.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S64x256.size a ≤ S64x256.size a
  hwx0_18 : ∀ i : grid0.Coords, EltTy.bits .f32 = 32 ∨ (Rect.block (s := S64x256) S64x256.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S256.size a ≤ S256.size a
  hwx0_19 : ∀ i : grid0.Coords, EltTy.bits .f32 = 32 ∨ (Rect.block (s := S256) S256.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S256x64.size a ≤ S256x64.size a
  hwx0_20 : ∀ i : grid0.Coords, EltTy.bits .f32 = 32 ∨ (Rect.block (s := S256x64) S256x64.size (cc0_transform_20 i) (hinb0_20 i)).WholeWords (EltTy.packing .f32)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S64.size a ≤ S64.size a
  hwx0_21 : ∀ i : grid0.Coords, EltTy.bits .f32 = 32 ∨ (Rect.block (s := S64) S64.size (cc0_transform_21 i) (hinb0_21 i)).WholeWords (EltTy.packing .f32)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S128x256.size a ≤ S128x256.size a
  hwx0_22 : ∀ i : grid0.Coords, EltTy.bits .f32 = 32 ∨ (Rect.block (s := S128x256) S128x256.size (cc0_transform_22 i) (hinb0_22 i)).WholeWords (EltTy.packing .f32)
  hstage0_23 : ∀ j, (stage0_23 j).IsWhole
  nbuf0_23 : grid0.bufCount reads0_23 true = 1
  hreads0_23 : ∀ i i' : grid0.Coords, (∀ a, reads0_23 a = true → i a = i' a) → cc0_transform_23 i = cc0_transform_23 i'
  hinb0_23 : ∀ (i : grid0.Coords) a, (cc0_transform_23 i a + 1) * S256.size a ≤ S256.size a
  hwx0_23 : ∀ i : grid0.Coords, EltTy.bits .f32 = 32 ∨ (Rect.block (s := S256) S256.size (cc0_transform_23 i) (hinb0_23 i)).WholeWords (EltTy.packing .f32)
  hstage0_24 : ∀ j, (stage0_24 j).IsWhole
  nbuf0_24 : grid0.bufCount reads0_24 true = 1
  hreads0_24 : ∀ i i' : grid0.Coords, (∀ a, reads0_24 a = true → i a = i' a) → cc0_transform_24 i = cc0_transform_24 i'
  hinb0_24 : ∀ (i : grid0.Coords) a, (cc0_transform_24 i a + 1) * S256x128.size a ≤ S256x128.size a
  hwx0_24 : ∀ i : grid0.Coords, EltTy.bits .f32 = 32 ∨ (Rect.block (s := S256x128) S256x128.size (cc0_transform_24 i) (hinb0_24 i)).WholeWords (EltTy.packing .f32)
  hstage0_25 : ∀ j, (stage0_25 j).IsWhole
  nbuf0_25 : grid0.bufCount reads0_25 true = 1
  hreads0_25 : ∀ i i' : grid0.Coords, (∀ a, reads0_25 a = true → i a = i' a) → cc0_transform_25 i = cc0_transform_25 i'
  hinb0_25 : ∀ (i : grid0.Coords) a, (cc0_transform_25 i a + 1) * S128.size a ≤ S128.size a
  hwx0_25 : ∀ i : grid0.Coords, EltTy.bits .f32 = 32 ∨ (Rect.block (s := S128) S128.size (cc0_transform_25 i) (hinb0_25 i)).WholeWords (EltTy.packing .f32)
  hstage0_26 : ∀ j, (stage0_26 j).IsWhole
  nbuf0_26 : grid0.bufCount reads0_26 true = 1
  hreads0_26 : ∀ i i' : grid0.Coords, (∀ a, reads0_26 a = true → i a = i' a) → cc0_transform_26 i = cc0_transform_26 i'
  hinb0_26 : ∀ (i : grid0.Coords) a, (cc0_transform_26 i a + 1) * S128x256.size a ≤ S128x256.size a
  hwx0_26 : ∀ i : grid0.Coords, EltTy.bits .f32 = 32 ∨ (Rect.block (s := S128x256) S128x256.size (cc0_transform_26 i) (hinb0_26 i)).WholeWords (EltTy.packing .f32)
  hstage0_27 : ∀ j, (stage0_27 j).IsWhole
  nbuf0_27 : grid0.bufCount reads0_27 true = 1
  hreads0_27 : ∀ i i' : grid0.Coords, (∀ a, reads0_27 a = true → i a = i' a) → cc0_transform_27 i = cc0_transform_27 i'
  hinb0_27 : ∀ (i : grid0.Coords) a, (cc0_transform_27 i a + 1) * S256.size a ≤ S256.size a
  hwx0_27 : ∀ i : grid0.Coords, EltTy.bits .f32 = 32 ∨ (Rect.block (s := S256) S256.size (cc0_transform_27 i) (hinb0_27 i)).WholeWords (EltTy.packing .f32)
  hstage0_28 : ∀ j, (stage0_28 j).IsWhole
  nbuf0_28 : grid0.bufCount reads0_28 true = 1
  hreads0_28 : ∀ i i' : grid0.Coords, (∀ a, reads0_28 a = true → i a = i' a) → cc0_transform_28 i = cc0_transform_28 i'
  hinb0_28 : ∀ (i : grid0.Coords) a, (cc0_transform_28 i a + 1) * S256x128.size a ≤ S256x128.size a
  hwx0_28 : ∀ i : grid0.Coords, EltTy.bits .f32 = 32 ∨ (Rect.block (s := S256x128) S256x128.size (cc0_transform_28 i) (hinb0_28 i)).WholeWords (EltTy.packing .f32)
  hstage0_29 : ∀ j, (stage0_29 j).IsWhole
  nbuf0_29 : grid0.bufCount reads0_29 true = 1
  hreads0_29 : ∀ i i' : grid0.Coords, (∀ a, reads0_29 a = true → i a = i' a) → cc0_transform_29 i = cc0_transform_29 i'
  hinb0_29 : ∀ (i : grid0.Coords) a, (cc0_transform_29 i a + 1) * S128.size a ≤ S128.size a
  hwx0_29 : ∀ i : grid0.Coords, EltTy.bits .f32 = 32 ∨ (Rect.block (s := S128) S128.size (cc0_transform_29 i) (hinb0_29 i)).WholeWords (EltTy.packing .f32)
  hstage0_30 : ∀ j, (stage0_30 j).IsWhole
  nbuf0_30 : grid0.bufCount reads0_30 true = 1
  hreads0_30 : ∀ i i' : grid0.Coords, (∀ a, reads0_30 a = true → i a = i' a) → cc0_transform_30 i = cc0_transform_30 i'
  hinb0_30 : ∀ (i : grid0.Coords) a, (cc0_transform_30 i a + 1) * S128x256.size a ≤ S128x256.size a
  hwx0_30 : ∀ i : grid0.Coords, EltTy.bits .f32 = 32 ∨ (Rect.block (s := S128x256) S128x256.size (cc0_transform_30 i) (hinb0_30 i)).WholeWords (EltTy.packing .f32)
  hstage0_31 : ∀ j, (stage0_31 j).IsWhole
  nbuf0_31 : grid0.bufCount reads0_31 true = 1
  hreads0_31 : ∀ i i' : grid0.Coords, (∀ a, reads0_31 a = true → i a = i' a) → cc0_transform_31 i = cc0_transform_31 i'
  hinb0_31 : ∀ (i : grid0.Coords) a, (cc0_transform_31 i a + 1) * S128x256.size a ≤ S128x256.size a
  hwx0_31 : ∀ i : grid0.Coords, EltTy.bits .f32 = 32 ∨ (Rect.block (s := S128x256) S128x256.size (cc0_transform_31 i) (hinb0_31 i)).WholeWords (EltTy.packing .f32)
  hstage0_32 : ∀ j, (stage0_32 j).IsWhole
  nbuf0_32 : grid0.bufCount reads0_32 true = 1
  hreads0_32 : ∀ i i' : grid0.Coords, (∀ a, reads0_32 a = true → i a = i' a) → cc0_transform_32 i = cc0_transform_32 i'
  hinb0_32 : ∀ (i : grid0.Coords) a, (cc0_transform_32 i a + 1) * S64x256.size a ≤ S64x256.size a
  hwx0_32 : ∀ i : grid0.Coords, EltTy.bits .f32 = 32 ∨ (Rect.block (s := S64x256) S64x256.size (cc0_transform_32 i) (hinb0_32 i)).WholeWords (EltTy.packing .f32)
  hstage0_33 : ∀ j, (stage0_33 j).IsWhole
  nbuf0_33 : grid0.bufCount reads0_33 true = 1
  hreads0_33 : ∀ i i' : grid0.Coords, (∀ a, reads0_33 a = true → i a = i' a) → cc0_transform_33 i = cc0_transform_33 i'
  hinb0_33 : ∀ (i : grid0.Coords) a, (cc0_transform_33 i a + 1) * S32x256.size a ≤ S32x256.size a
  hwx0_33 : ∀ i : grid0.Coords, EltTy.bits .f32 = 32 ∨ (Rect.block (s := S32x256) S32x256.size (cc0_transform_33 i) (hinb0_33 i)).WholeWords (EltTy.packing .f32)
  hstage0_34 : ∀ j, (stage0_34 j).IsWhole
  nbuf0_34 : grid0.bufCount reads0_34 true = 1
  hreads0_34 : ∀ i i' : grid0.Coords, (∀ a, reads0_34 a = true → i a = i' a) → cc0_transform_34 i = cc0_transform_34 i'
  hinb0_34 : ∀ (i : grid0.Coords) a, (cc0_transform_34 i a + 1) * S128x256.size a ≤ S128x256.size a
  hwx0_34 : ∀ i : grid0.Coords, EltTy.bits .f32 = 32 ∨ (Rect.block (s := S128x256) S128x256.size (cc0_transform_34 i) (hinb0_34 i)).WholeWords (EltTy.packing .f32)
  hstage0_35 : ∀ j, (stage0_35 j).IsWhole
  nbuf0_35 : grid0.bufCount reads0_35 true = 1
  hreads0_35 : ∀ i i' : grid0.Coords, (∀ a, reads0_35 a = true → i a = i' a) → cc0_transform_35 i = cc0_transform_35 i'
  hinb0_35 : ∀ (i : grid0.Coords) a, (cc0_transform_35 i a + 1) * S128x256.size a ≤ S128x256.size a
  hwx0_35 : ∀ i : grid0.Coords, EltTy.bits .f32 = 32 ∨ (Rect.block (s := S128x256) S128x256.size (cc0_transform_35 i) (hinb0_35 i)).WholeWords (EltTy.packing .f32)
  hstage0_36 : ∀ j, (stage0_36 j).IsWhole
  nbuf0_36 : grid0.bufCount reads0_36 true = 1
  hreads0_36 : ∀ i i' : grid0.Coords, (∀ a, reads0_36 a = true → i a = i' a) → cc0_transform_36 i = cc0_transform_36 i'
  hinb0_36 : ∀ (i : grid0.Coords) a, (cc0_transform_36 i a + 1) * S256.size a ≤ S256.size a
  hwx0_36 : ∀ i : grid0.Coords, EltTy.bits .f32 = 32 ∨ (Rect.block (s := S256) S256.size (cc0_transform_36 i) (hinb0_36 i)).WholeWords (EltTy.packing .f32)
  hstage0_37 : ∀ j, (stage0_37 j).IsWhole
  nbuf0_37 : grid0.bufCount reads0_37 true = 1
  hreads0_37 : ∀ i i' : grid0.Coords, (∀ a, reads0_37 a = true → i a = i' a) → cc0_transform_37 i = cc0_transform_37 i'
  hinb0_37 : ∀ (i : grid0.Coords) a, (cc0_transform_37 i a + 1) * S256x128.size a ≤ S256x128.size a
  hwx0_37 : ∀ i : grid0.Coords, EltTy.bits .f32 = 32 ∨ (Rect.block (s := S256x128) S256x128.size (cc0_transform_37 i) (hinb0_37 i)).WholeWords (EltTy.packing .f32)
  hstage0_38 : ∀ j, (stage0_38 j).IsWhole
  nbuf0_38 : grid0.bufCount reads0_38 true = 1
  hreads0_38 : ∀ i i' : grid0.Coords, (∀ a, reads0_38 a = true → i a = i' a) → cc0_transform_38 i = cc0_transform_38 i'
  hinb0_38 : ∀ (i : grid0.Coords) a, (cc0_transform_38 i a + 1) * S128.size a ≤ S128.size a
  hwx0_38 : ∀ i : grid0.Coords, EltTy.bits .f32 = 32 ∨ (Rect.block (s := S128) S128.size (cc0_transform_38 i) (hinb0_38 i)).WholeWords (EltTy.packing .f32)
  hstage0_39 : ∀ j, (stage0_39 j).IsWhole
  nbuf0_39 : grid0.bufCount reads0_39 true = 1
  hreads0_39 : ∀ i i' : grid0.Coords, (∀ a, reads0_39 a = true → i a = i' a) → cc0_transform_39 i = cc0_transform_39 i'
  hinb0_39 : ∀ (i : grid0.Coords) a, (cc0_transform_39 i a + 1) * S128x128.size a ≤ S128x128.size a
  hwx0_39 : ∀ i : grid0.Coords, EltTy.bits .f32 = 32 ∨ (Rect.block (s := S128x128) S128x128.size (cc0_transform_39 i) (hinb0_39 i)).WholeWords (EltTy.packing .f32)
  hstage0_40 : ∀ j, (stage0_40 j).IsWhole
  nbuf0_40 : grid0.bufCount reads0_40 true = 1
  hreads0_40 : ∀ i i' : grid0.Coords, (∀ a, reads0_40 a = true → i a = i' a) → cc0_transform_40 i = cc0_transform_40 i'
  hinb0_40 : ∀ (i : grid0.Coords) a, (cc0_transform_40 i a + 1) * S128.size a ≤ S128.size a
  hwx0_40 : ∀ i : grid0.Coords, EltTy.bits .f32 = 32 ∨ (Rect.block (s := S128) S128.size (cc0_transform_40 i) (hinb0_40 i)).WholeWords (EltTy.packing .f32)
  hstage0_41 : ∀ j, (stage0_41 j).IsWhole
  nbuf0_41 : grid0.bufCount reads0_41 false = 2
  hreads0_41 : ∀ i i' : grid0.Coords, (∀ a, reads0_41 a = true → i a = i' a) → cc0_transform_41 i = cc0_transform_41 i'
  hinb0_41 : ∀ (i : grid0.Coords) a, (cc0_transform_41 i a + 1) * S1000x128.size a ≤ S50000x128.size a
  hwx0_41 : ∀ i : grid0.Coords, EltTy.bits .f32 = 32 ∨ (Rect.block (s := S50000x128) S1000x128.size (cc0_transform_41 i) (hinb0_41 i)).WholeWords (EltTy.packing .f32)

variable [Facts₀]

def gather_S20000x128_S50000x1_S50000x128_1_0_n_n_0_1_1128 : GatherDims S20000x128 S50000x1 S50000x128 where
  offsetDims := [1]
  collapsedSliceDims := [0]
  operandBatchingDims := []
  startIndicesBatchingDims := []
  startIndexMap := [0]
  indexVectorDim := 1
  sliceSizes := ![1, 128]
  wf := gather_S20000x128_S50000x1_S50000x128_1_0_n_n_0_1_1128_wf
def gather_S500x32_S100000x1_S100000x32_1_0_n_n_0_1_132 : GatherDims S500x32 S100000x1 S100000x32 where
  offsetDims := [1]
  collapsedSliceDims := [0]
  operandBatchingDims := []
  startIndicesBatchingDims := []
  startIndexMap := [0]
  indexVectorDim := 1
  sliceSizes := ![1, 32]
  wf := gather_S500x32_S100000x1_S100000x32_1_0_n_n_0_1_132_wf
def scatter_S50000x32_S100000x1_S100000x32_1_0_0_1 : ScatterDims S50000x32 S100000x1 S100000x32 where
  updateWindowDims := [1]
  insertedWindowDims := [0]
  scatterDimsToOperandDims := [0]
  indexVectorDim := 1
  wf := scatter_S50000x32_S100000x1_S100000x32_1_0_0_1_wf
def gather_S1000x64_S100000x1_S100000x64_1_0_n_n_0_1_164 : GatherDims S1000x64 S100000x1 S100000x64 where
  offsetDims := [1]
  collapsedSliceDims := [0]
  operandBatchingDims := []
  startIndicesBatchingDims := []
  startIndexMap := [0]
  indexVectorDim := 1
  sliceSizes := ![1, 64]
  wf := gather_S1000x64_S100000x1_S100000x64_1_0_n_n_0_1_164_wf
def scatter_S50000x64_S100000x1_S100000x64_1_0_0_1 : ScatterDims S50000x64 S100000x1 S100000x64 where
  updateWindowDims := [1]
  insertedWindowDims := [0]
  scatterDimsToOperandDims := [0]
  indexVectorDim := 1
  wf := scatter_S50000x64_S100000x1_S100000x64_1_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S1000x128_S128x256_S1000x256_1_0_0_1_n_n : DotDims S1000x128 S128x256 S1000x256 where
  lhsContracting := [1]
  rhsContracting := [0]
  lhsNonContracting := [0]
  rhsNonContracting := [1]
  lhsBatch := []
  rhsBatch := []
  wf := dot_S1000x128_S128x256_S1000x256_1_0_0_1_n_n_wf
def dot_S1000x256_S256x128_S1000x128_1_0_0_1_n_n : DotDims S1000x256 S256x128 S1000x128 where
  lhsContracting := [1]
  rhsContracting := [0]
  lhsNonContracting := [0]
  rhsNonContracting := [1]
  lhsBatch := []
  rhsBatch := []
  wf := dot_S1000x256_S256x128_S1000x128_1_0_0_1_n_n_wf
def dot_S1000x32_S32x256_S1000x256_1_0_0_1_n_n : DotDims S1000x32 S32x256 S1000x256 where
  lhsContracting := [1]
  rhsContracting := [0]
  lhsNonContracting := [0]
  rhsNonContracting := [1]
  lhsBatch := []
  rhsBatch := []
  wf := dot_S1000x32_S32x256_S1000x256_1_0_0_1_n_n_wf
def dot_S1000x256_S256x32_S1000x32_1_0_0_1_n_n : DotDims S1000x256 S256x32 S1000x32 where
  lhsContracting := [1]
  rhsContracting := [0]
  lhsNonContracting := [0]
  rhsNonContracting := [1]
  lhsBatch := []
  rhsBatch := []
  wf := dot_S1000x256_S256x32_S1000x32_1_0_0_1_n_n_wf
def dot_S1000x64_S64x256_S1000x256_1_0_0_1_n_n : DotDims S1000x64 S64x256 S1000x256 where
  lhsContracting := [1]
  rhsContracting := [0]
  lhsNonContracting := [0]
  rhsNonContracting := [1]
  lhsBatch := []
  rhsBatch := []
  wf := dot_S1000x64_S64x256_S1000x256_1_0_0_1_n_n_wf
def dot_S1000x256_S256x64_S1000x64_1_0_0_1_n_n : DotDims S1000x256 S256x64 S1000x64 where
  lhsContracting := [1]
  rhsContracting := [0]
  lhsNonContracting := [0]
  rhsNonContracting := [1]
  lhsBatch := []
  rhsBatch := []
  wf := dot_S1000x256_S256x64_S1000x64_1_0_0_1_n_n_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf

abbrev win0_0 : Pipeline.Window sig grid0 :=
  Pipeline.Window.ofSpec (Memref.whole main_arg0) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S1000x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v26) S1000x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v36) S1000x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v46) S1000x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg11) S128x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg12) S256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg13) S256x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg14) S128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg15) S128x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg16) S256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg17) S256x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg18) S128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg31) S32x256.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg32) S256.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg33) S256x32.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg34) S32.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_arg27) S64x256.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_arg28) S256.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_arg29) S256x64.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_arg30) S64.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_arg19) S128x256.size cc0_transform_22 reads0_22 false true 1 stage0_22 sem0_22
    hrank0 hreads0_22 hinb0_22 nbuf0_22 (Memref.isWhole_whole _) hwx0_22 hstage0_22

abbrev win0_23 : Pipeline.Window sig grid0 :=
  Pipeline.Window.ofSpec (Memref.whole main_arg20) S256.size cc0_transform_23 reads0_23 false true 1 stage0_23 sem0_23
    hrank0 hreads0_23 hinb0_23 nbuf0_23 (Memref.isWhole_whole _) hwx0_23 hstage0_23

abbrev win0_24 : Pipeline.Window sig grid0 :=
  Pipeline.Window.ofSpec (Memref.whole main_arg21) S256x128.size cc0_transform_24 reads0_24 false true 1 stage0_24 sem0_24
    hrank0 hreads0_24 hinb0_24 nbuf0_24 (Memref.isWhole_whole _) hwx0_24 hstage0_24

abbrev win0_25 : Pipeline.Window sig grid0 :=
  Pipeline.Window.ofSpec (Memref.whole main_arg22) S128.size cc0_transform_25 reads0_25 false true 1 stage0_25 sem0_25
    hrank0 hreads0_25 hinb0_25 nbuf0_25 (Memref.isWhole_whole _) hwx0_25 hstage0_25

abbrev win0_26 : Pipeline.Window sig grid0 :=
  Pipeline.Window.ofSpec (Memref.whole main_arg23) S128x256.size cc0_transform_26 reads0_26 false true 1 stage0_26 sem0_26
    hrank0 hreads0_26 hinb0_26 nbuf0_26 (Memref.isWhole_whole _) hwx0_26 hstage0_26

abbrev win0_27 : Pipeline.Window sig grid0 :=
  Pipeline.Window.ofSpec (Memref.whole main_arg24) S256.size cc0_transform_27 reads0_27 false true 1 stage0_27 sem0_27
    hrank0 hreads0_27 hinb0_27 nbuf0_27 (Memref.isWhole_whole _) hwx0_27 hstage0_27

abbrev win0_28 : Pipeline.Window sig grid0 :=
  Pipeline.Window.ofSpec (Memref.whole main_arg25) S256x128.size cc0_transform_28 reads0_28 false true 1 stage0_28 sem0_28
    hrank0 hreads0_28 hinb0_28 nbuf0_28 (Memref.isWhole_whole _) hwx0_28 hstage0_28

abbrev win0_29 : Pipeline.Window sig grid0 :=
  Pipeline.Window.ofSpec (Memref.whole main_arg26) S128.size cc0_transform_29 reads0_29 false true 1 stage0_29 sem0_29
    hrank0 hreads0_29 hinb0_29 nbuf0_29 (Memref.isWhole_whole _) hwx0_29 hstage0_29

abbrev win0_30 : Pipeline.Window sig grid0 :=
  Pipeline.Window.ofSpec (Memref.whole main_v47) S128x256.size cc0_transform_30 reads0_30 false true 1 stage0_30 sem0_30
    hrank0 hreads0_30 hinb0_30 nbuf0_30 (Memref.isWhole_whole _) hwx0_30 hstage0_30

abbrev win0_31 : Pipeline.Window sig grid0 :=
  Pipeline.Window.ofSpec (Memref.whole main_v48) S128x256.size cc0_transform_31 reads0_31 false true 1 stage0_31 sem0_31
    hrank0 hreads0_31 hinb0_31 nbuf0_31 (Memref.isWhole_whole _) hwx0_31 hstage0_31

abbrev win0_32 : Pipeline.Window sig grid0 :=
  Pipeline.Window.ofSpec (Memref.whole main_v49) S64x256.size cc0_transform_32 reads0_32 false true 1 stage0_32 sem0_32
    hrank0 hreads0_32 hinb0_32 nbuf0_32 (Memref.isWhole_whole _) hwx0_32 hstage0_32

abbrev win0_33 : Pipeline.Window sig grid0 :=
  Pipeline.Window.ofSpec (Memref.whole main_v50) S32x256.size cc0_transform_33 reads0_33 false true 1 stage0_33 sem0_33
    hrank0 hreads0_33 hinb0_33 nbuf0_33 (Memref.isWhole_whole _) hwx0_33 hstage0_33

abbrev win0_34 : Pipeline.Window sig grid0 :=
  Pipeline.Window.ofSpec (Memref.whole main_v51) S128x256.size cc0_transform_34 reads0_34 false true 1 stage0_34 sem0_34
    hrank0 hreads0_34 hinb0_34 nbuf0_34 (Memref.isWhole_whole _) hwx0_34 hstage0_34

abbrev win0_35 : Pipeline.Window sig grid0 :=
  Pipeline.Window.ofSpec (Memref.whole main_v52) S128x256.size cc0_transform_35 reads0_35 false true 1 stage0_35 sem0_35
    hrank0 hreads0_35 hinb0_35 nbuf0_35 (Memref.isWhole_whole _) hwx0_35 hstage0_35

abbrev win0_36 : Pipeline.Window sig grid0 :=
  Pipeline.Window.ofSpec (Memref.whole main_arg36) S256.size cc0_transform_36 reads0_36 false true 1 stage0_36 sem0_36
    hrank0 hreads0_36 hinb0_36 nbuf0_36 (Memref.isWhole_whole _) hwx0_36 hstage0_36

abbrev win0_37 : Pipeline.Window sig grid0 :=
  Pipeline.Window.ofSpec (Memref.whole main_arg37) S256x128.size cc0_transform_37 reads0_37 false true 1 stage0_37 sem0_37
    hrank0 hreads0_37 hinb0_37 nbuf0_37 (Memref.isWhole_whole _) hwx0_37 hstage0_37

abbrev win0_38 : Pipeline.Window sig grid0 :=
  Pipeline.Window.ofSpec (Memref.whole main_arg38) S128.size cc0_transform_38 reads0_38 false true 1 stage0_38 sem0_38
    hrank0 hreads0_38 hinb0_38 nbuf0_38 (Memref.isWhole_whole _) hwx0_38 hstage0_38

abbrev win0_39 : Pipeline.Window sig grid0 :=
  Pipeline.Window.ofSpec (Memref.whole main_arg39) S128x128.size cc0_transform_39 reads0_39 false true 1 stage0_39 sem0_39
    hrank0 hreads0_39 hinb0_39 nbuf0_39 (Memref.isWhole_whole _) hwx0_39 hstage0_39

abbrev win0_40 : Pipeline.Window sig grid0 :=
  Pipeline.Window.ofSpec (Memref.whole main_arg40) S128.size cc0_transform_40 reads0_40 false true 1 stage0_40 sem0_40
    hrank0 hreads0_40 hinb0_40 nbuf0_40 (Memref.isWhole_whole _) hwx0_40 hstage0_40

abbrev win0_41 : Pipeline.Window sig grid0 :=
  Pipeline.Window.ofSpec (Memref.whole main_v53) S1000x128.size cc0_transform_41 reads0_41 true false 2 stage0_41 sem0_41
    hrank0 hreads0_41 hinb0_41 nbuf0_41 (Memref.isWhole_whole _) hwx0_41 hstage0_41

abbrev win0 : Fin 42 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | 25 => win0_25 | 26 => win0_26 | 27 => win0_27 | 28 => win0_28 | 29 => win0_29 | 30 => win0_30 | 31 => win0_31 | 32 => win0_32 | 33 => win0_33 | 34 => win0_34 | 35 => win0_35 | 36 => win0_36 | 37 => win0_37 | 38 => win0_38 | 39 => win0_39 | 40 => win0_40 | 41 => win0_41 | ⟨_ + 42, h⟩ => absurd h (Nat.not_lt.2 (Nat.le_add_left _ _))
abbrev spec0 : Fin 42 → Pipeline.WinSpec sig grid0.rank := fun w => (win0 w).toWinSpec

class Facts : Prop extends Facts₀ where

variable [Facts]
-- ==== ReferenceIdeal.lean ====
abbrev S50000x128 : Shape := ⟨2, ![50000, 128]⟩
abbrev S20000x128 : Shape := ⟨2, ![20000, 128]⟩
abbrev S500x32 : Shape := ⟨2, ![500, 32]⟩
abbrev S1000x64 : Shape := ⟨2, ![1000, 64]⟩
abbrev S50000 : Shape := ⟨1, ![50000]⟩
abbrev S100000 : Shape := ⟨1, ![100000]⟩
abbrev S800000 : Shape := ⟨1, ![800000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S64x256 : Shape := ⟨2, ![64, 256]⟩
abbrev S256x64 : Shape := ⟨2, ![256, 64]⟩
abbrev S64 : Shape := ⟨1, ![64]⟩
abbrev S32x256 : Shape := ⟨2, ![32, 256]⟩
abbrev S256x32 : Shape := ⟨2, ![256, 32]⟩
abbrev S32 : Shape := ⟨1, ![32]⟩
abbrev S608x256 : Shape := ⟨2, ![608, 256]⟩
abbrev S128x128 : Shape := ⟨2, ![128, 128]⟩
abbrev S50000x256 : Shape := ⟨2, ![50000, 256]⟩
abbrev S1x256 : Shape := ⟨2, ![1, 256]⟩
abbrev S_ : Shape := ⟨0, ![]⟩
abbrev S1x128 : Shape := ⟨2, ![1, 128]⟩
abbrev S50000x1 : Shape := ⟨2, ![50000, 1]⟩
abbrev S100000x1 : Shape := ⟨2, ![100000, 1]⟩
abbrev S100000x32 : Shape := ⟨2, ![100000, 32]⟩
abbrev S50000x32 : Shape := ⟨2, ![50000, 32]⟩
abbrev S1x32 : Shape := ⟨2, ![1, 32]⟩
abbrev S100000x64 : Shape := ⟨2, ![100000, 64]⟩
abbrev S50000x64 : Shape := ⟨2, ![50000, 64]⟩
abbrev S1x64 : Shape := ⟨2, ![1, 64]⟩
abbrev S800000x1 : Shape := ⟨2, ![800000, 1]⟩
abbrev S800000x128 : Shape := ⟨2, ![800000, 128]⟩
abbrev S50000x608 : Shape := ⟨2, ![50000, 608]⟩

abbrev nBuf : Space → Nat
  | .hbm => 187
  | .vmem => 0
  | .smem => 0
  | _ => 0

abbrev hbmTy0_0 (i : Nat) : BufTy := match i % 128 with
  | 0 => ⟨S50000x128, .f32⟩
  | 1 => ⟨S20000x128, .f32⟩
  | 2 => ⟨S500x32, .f32⟩
  | 3 => ⟨S1000x64, .f32⟩
  | 4 => ⟨S50000, .i32⟩
  | 5 => ⟨S100000, .i32⟩
  | 6 => ⟨S100000, .i32⟩
  | 7 => ⟨S100000, .i32⟩
  | 8 => ⟨S100000, .i32⟩
  | 9 => ⟨S800000, .i32⟩
  | 10 => ⟨S800000, .i32⟩
  | 11 => ⟨S128x256, .f32⟩
  | 12 => ⟨S256, .f32⟩
  | 13 => ⟨S256x128, .f32⟩
  | 14 => ⟨S128, .f32⟩
  | 15 => ⟨S128x256, .f32⟩
  | 16 => ⟨S256, .f32⟩
  | 17 => ⟨S256x128, .f32⟩
  | 18 => ⟨S128, .f32⟩
  | 19 => ⟨S128x256, .f32⟩
  | 20 => ⟨S256, .f32⟩
  | 21 => ⟨S256x128, .f32⟩
  | 22 => ⟨S128, .f32⟩
  | 23 => ⟨S128x256, .f32⟩
  | 24 => ⟨S256, .f32⟩
  | 25 => ⟨S256x128, .f32⟩
  | 26 => ⟨S128, .f32⟩
  | 27 => ⟨S64x256, .f32⟩
  | 28 => ⟨S256, .f32⟩
  | 29 => ⟨S256x64, .f32⟩
  | 30 => ⟨S64, .f32⟩
  | 31 => ⟨S32x256, .f32⟩
  | 32 => ⟨S256, .f32⟩
  | 33 => ⟨S256x32, .f32⟩
  | 34 => ⟨S32, .f32⟩
  | 35 => ⟨S608x256, .f32⟩
  | 36 => ⟨S256, .f32⟩
  | 37 => ⟨S256x128, .f32⟩
  | 38 => ⟨S128, .f32⟩
  | 39 => ⟨S128x128, .f32⟩
  | 40 => ⟨S128, .f32⟩
  | 41 => ⟨S50000x256, .f32⟩
  | 42 => ⟨S1x256, .f32⟩
  | 43 => ⟨S50000x256, .f32⟩
  | 44 => ⟨S50000x256, .f32⟩
  | 45 => ⟨S_, .f32⟩
  | 46 => ⟨S50000x256, .f32⟩
  | 47 => ⟨S50000x256, .f32⟩
  | 48 => ⟨S50000x128, .f32⟩
  | 49 => ⟨S1x128, .f32⟩
  | 50 => ⟨S50000x128, .f32⟩
  | 51 => ⟨S50000x128, .f32⟩
  | 52 => ⟨S_, .i32⟩
  | 53 => ⟨S50000, .i32⟩
  | 54 => ⟨S50000, .i1⟩
  | 55 => ⟨S_, .i32⟩
  | 56 => ⟨S50000, .i32⟩
  | 57 => ⟨S50000, .i32⟩
  | 58 => ⟨S50000, .i32⟩
  | 59 => ⟨S50000x1, .i32⟩
  | 60 => ⟨S50000x128, .f32⟩
  | 61 => ⟨S50000x256, .f32⟩
  | 62 => ⟨S1x256, .f32⟩
  | 63 => ⟨S50000x256, .f32⟩
  | 64 => ⟨S50000x256, .f32⟩
  | 65 => ⟨S_, .f32⟩
  | 66 => ⟨S50000x256, .f32⟩
  | 67 => ⟨S50000x256, .f32⟩
  | 68 => ⟨S50000x128, .f32⟩
  | 69 => ⟨S1x128, .f32⟩
  | 70 => ⟨S50000x128, .f32⟩
  | 71 => ⟨S50000x128, .f32⟩
  | 72 => ⟨S_, .i32⟩
  | 73 => ⟨S100000, .i32⟩
  | 74 => ⟨S100000, .i1⟩
  | 75 => ⟨S_, .i32⟩
  | 76 => ⟨S100000, .i32⟩
  | 77 => ⟨S100000, .i32⟩
  | 78 => ⟨S100000, .i32⟩
  | 79 => ⟨S100000x1, .i32⟩
  | 80 => ⟨S100000x32, .f32⟩
  | 81 => ⟨S_, .f32⟩
  | 82 => ⟨S50000x32, .f32⟩
  | 83 => ⟨S100000x1, .i32⟩
  | 84 => ⟨S50000x32, .f32⟩
  | 85 => ⟨S50000x256, .f32⟩
  | 86 => ⟨S1x256, .f32⟩
  | 87 => ⟨S50000x256, .f32⟩
  | 88 => ⟨S50000x256, .f32⟩
  | 89 => ⟨S_, .f32⟩
  | 90 => ⟨S50000x256, .f32⟩
  | 91 => ⟨S50000x256, .f32⟩
  | 92 => ⟨S50000x32, .f32⟩
  | 93 => ⟨S1x32, .f32⟩
  | 94 => ⟨S50000x32, .f32⟩
  | 95 => ⟨S50000x32, .f32⟩
  | 96 => ⟨S_, .i32⟩
  | 97 => ⟨S100000, .i32⟩
  | 98 => ⟨S100000, .i1⟩
  | 99 => ⟨S_, .i32⟩
  | 100 => ⟨S100000, .i32⟩
  | 101 => ⟨S100000, .i32⟩
  | 102 => ⟨S100000, .i32⟩
  | 103 => ⟨S100000x1, .i32⟩
  | 104 => ⟨S100000x64, .f32⟩
  | 105 => ⟨S_, .f32⟩
  | 106 => ⟨S50000x64, .f32⟩
  | 107 => ⟨S100000x1, .i32⟩
  | 108 => ⟨S50000x64, .f32⟩
  | 109 => ⟨S50000x256, .f32⟩
  | 110 => ⟨S1x256, .f32⟩
  | 111 => ⟨S50000x256, .f32⟩
  | 112 => ⟨S50000x256, .f32⟩
  | 113 => ⟨S_, .f32⟩
  | 114 => ⟨S50000x256, .f32⟩
  | 115 => ⟨S50000x256, .f32⟩
  | 116 => ⟨S50000x64, .f32⟩
  | 117 => ⟨S1x64, .f32⟩
  | 118 => ⟨S50000x64, .f32⟩
  | 119 => ⟨S50000x64, .f32⟩
  | 120 => ⟨S_, .i32⟩
  | 121 => ⟨S800000, .i32⟩
  | 122 => ⟨S800000, .i1⟩
  | 123 => ⟨S_, .i32⟩
  | 124 => ⟨S800000, .i32⟩
  | 125 => ⟨S800000, .i32⟩
  | 126 => ⟨S800000, .i32⟩
  | 127 => ⟨S800000x1, .i32⟩
  | _ => ⟨S50000x128, .f32⟩

abbrev hbmTy0_1 (i : Nat) : BufTy := match i % 128 with
  | 0 => ⟨S800000x128, .f32⟩
  | 1 => ⟨S_, .f32⟩
  | 2 => ⟨S50000x128, .f32⟩
  | 3 => ⟨S800000x1, .i32⟩
  | 4 => ⟨S50000x128, .f32⟩
  | 5 => ⟨S50000x256, .f32⟩
  | 6 => ⟨S1x256, .f32⟩
  | 7 => ⟨S50000x256, .f32⟩
  | 8 => ⟨S50000x256, .f32⟩
  | 9 => ⟨S_, .f32⟩
  | 10 => ⟨S50000x256, .f32⟩
  | 11 => ⟨S50000x256, .f32⟩
  | 12 => ⟨S50000x128, .f32⟩
  | 13 => ⟨S1x128, .f32⟩
  | 14 => ⟨S50000x128, .f32⟩
  | 15 => ⟨S50000x128, .f32⟩
  | 16 => ⟨S_, .i32⟩
  | 17 => ⟨S800000, .i32⟩
  | 18 => ⟨S800000, .i1⟩
  | 19 => ⟨S_, .i32⟩
  | 20 => ⟨S800000, .i32⟩
  | 21 => ⟨S800000, .i32⟩
  | 22 => ⟨S800000, .i32⟩
  | 23 => ⟨S800000x1, .i32⟩
  | 24 => ⟨S800000x128, .f32⟩
  | 25 => ⟨S_, .f32⟩
  | 26 => ⟨S50000x128, .f32⟩
  | 27 => ⟨S800000x1, .i32⟩
  | 28 => ⟨S50000x128, .f32⟩
  | 29 => ⟨S50000x256, .f32⟩
  | 30 => ⟨S1x256, .f32⟩
  | 31 => ⟨S50000x256, .f32⟩
  | 32 => ⟨S50000x256, .f32⟩
  | 33 => ⟨S_, .f32⟩
  | 34 => ⟨S50000x256, .f32⟩
  | 35 => ⟨S50000x256, .f32⟩
  | 36 => ⟨S50000x128, .f32⟩
  | 37 => ⟨S1x128, .f32⟩
  | 38 => ⟨S50000x128, .f32⟩
  | 39 => ⟨S50000x128, .f32⟩
  | 40 => ⟨S50000x608, .f32⟩
  | 41 => ⟨S50000x256, .f32⟩
  | 42 => ⟨S1x256, .f32⟩
  | 43 => ⟨S50000x256, .f32⟩
  | 44 => ⟨S50000x256, .f32⟩
  | 45 => ⟨S_, .f32⟩
  | 46 => ⟨S50000x256, .f32⟩
  | 47 => ⟨S50000x256, .f32⟩
  | 48 => ⟨S50000x128, .f32⟩
  | 49 => ⟨S1x128, .f32⟩
  | 50 => ⟨S50000x128, .f32⟩
  | 51 => ⟨S50000x128, .f32⟩
  | 52 => ⟨S_, .f32⟩
  | 53 => ⟨S50000x128, .f32⟩
  | 54 => ⟨S50000x128, .f32⟩
  | 55 => ⟨S50000x128, .f32⟩
  | 56 => ⟨S1x128, .f32⟩
  | 57 => ⟨S50000x128, .f32⟩
  | 58 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_v0 : Ref sig .tc := ⟨.hbm, 41, rfl⟩
abbrev main_v1 : Ref sig .tc := ⟨.hbm, 42, rfl⟩
abbrev main_v2 : Ref sig .tc := ⟨.hbm, 43, rfl⟩
abbrev main_v3 : Ref sig .tc := ⟨.hbm, 44, rfl⟩
abbrev main_call0_cst : Ref sig .tc := ⟨.hbm, 45, rfl⟩
abbrev main_call0_v0 : Ref sig .tc := ⟨.hbm, 46, rfl⟩
abbrev main_v4 : Ref sig .tc := ⟨.hbm, 47, rfl⟩
abbrev main_v5 : Ref sig .tc := ⟨.hbm, 48, rfl⟩
abbrev main_v6 : Ref sig .tc := ⟨.hbm, 49, rfl⟩
abbrev main_v7 : Ref sig .tc := ⟨.hbm, 50, rfl⟩
abbrev main_v8 : Ref sig .tc := ⟨.hbm, 51, rfl⟩
abbrev main_c : Ref sig .tc := ⟨.hbm, 52, rfl⟩
abbrev main_v9 : Ref sig .tc := ⟨.hbm, 53, rfl⟩
abbrev main_v10 : Ref sig .tc := ⟨.hbm, 54, rfl⟩
abbrev main_c_0 : Ref sig .tc := ⟨.hbm, 55, rfl⟩
abbrev main_v11 : Ref sig .tc := ⟨.hbm, 56, rfl⟩
abbrev main_v12 : Ref sig .tc := ⟨.hbm, 57, rfl⟩
abbrev main_v13 : Ref sig .tc := ⟨.hbm, 58, rfl⟩
abbrev main_v14 : Ref sig .tc := ⟨.hbm, 59, rfl⟩
abbrev main_v15 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_call1_cst : Ref sig .tc := ⟨.hbm, 65, rfl⟩
abbrev main_call1_v0 : Ref sig .tc := ⟨.hbm, 66, rfl⟩
abbrev main_v20 : Ref sig .tc := ⟨.hbm, 67, rfl⟩
abbrev main_v21 : Ref sig .tc := ⟨.hbm, 68, rfl⟩
abbrev main_v22 : Ref sig .tc := ⟨.hbm, 69, rfl⟩
abbrev main_v23 : Ref sig .tc := ⟨.hbm, 70, rfl⟩
abbrev main_v24 : Ref sig .tc := ⟨.hbm, 71, rfl⟩
abbrev main_c_1 : Ref sig .tc := ⟨.hbm, 72, rfl⟩
abbrev main_v25 : Ref sig .tc := ⟨.hbm, 73, rfl⟩
abbrev main_v26 : Ref sig .tc := ⟨.hbm, 74, rfl⟩
abbrev main_c_2 : Ref sig .tc := ⟨.hbm, 75, rfl⟩
abbrev main_v27 : Ref sig .tc := ⟨.hbm, 76, rfl⟩
abbrev main_v28 : Ref sig .tc := ⟨.hbm, 77, rfl⟩
abbrev main_v29 : Ref sig .tc := ⟨.hbm, 78, rfl⟩
abbrev main_v30 : Ref sig .tc := ⟨.hbm, 79, rfl⟩
abbrev main_v31 : Ref sig .tc := ⟨.hbm, 80, rfl⟩
abbrev main_cst : Ref sig .tc := ⟨.hbm, 81, rfl⟩
abbrev main_v32 : Ref sig .tc := ⟨.hbm, 82, rfl⟩
abbrev main_v33 : Ref sig .tc := ⟨.hbm, 83, rfl⟩
abbrev main_v34 : Ref sig .tc := ⟨.hbm, 84, rfl⟩
abbrev main_v35 : Ref sig .tc := ⟨.hbm, 85, rfl⟩
abbrev main_v36 : Ref sig .tc := ⟨.hbm, 86, rfl⟩
abbrev main_v37 : Ref sig .tc := ⟨.hbm, 87, rfl⟩
abbrev main_v38 : Ref sig .tc := ⟨.hbm, 88, rfl⟩
abbrev main_call2_cst : Ref sig .tc := ⟨.hbm, 89, rfl⟩
abbrev main_call2_v0 : Ref sig .tc := ⟨.hbm, 90, rfl⟩
abbrev main_v39 : Ref sig .tc := ⟨.hbm, 91, rfl⟩
abbrev main_v40 : Ref sig .tc := ⟨.hbm, 92, rfl⟩
abbrev main_v41 : Ref sig .tc := ⟨.hbm, 93, rfl⟩
abbrev main_v42 : Ref sig .tc := ⟨.hbm, 94, rfl⟩
abbrev main_v43 : Ref sig .tc := ⟨.hbm, 95, rfl⟩
abbrev main_c_3 : Ref sig .tc := ⟨.hbm, 96, rfl⟩
abbrev main_v44 : Ref sig .tc := ⟨.hbm, 97, rfl⟩
abbrev main_v45 : Ref sig .tc := ⟨.hbm, 98, rfl⟩
abbrev main_c_4 : Ref sig .tc := ⟨.hbm, 99, rfl⟩
abbrev main_v46 : Ref sig .tc := ⟨.hbm, 100, rfl⟩
abbrev main_v47 : Ref sig .tc := ⟨.hbm, 101, rfl⟩
abbrev main_v48 : Ref sig .tc := ⟨.hbm, 102, rfl⟩
abbrev main_v49 : Ref sig .tc := ⟨.hbm, 103, rfl⟩
abbrev main_v50 : Ref sig .tc := ⟨.hbm, 104, rfl⟩
abbrev main_cst_5 : Ref sig .tc := ⟨.hbm, 105, rfl⟩
abbrev main_v51 : Ref sig .tc := ⟨.hbm, 106, rfl⟩
abbrev main_v52 : Ref sig .tc := ⟨.hbm, 107, rfl⟩
abbrev main_v53 : Ref sig .tc := ⟨.hbm, 108, rfl⟩
abbrev main_v54 : Ref sig .tc := ⟨.hbm, 109, rfl⟩
abbrev main_v55 : Ref sig .tc := ⟨.hbm, 110, rfl⟩
abbrev main_v56 : Ref sig .tc := ⟨.hbm, 111, rfl⟩
abbrev main_v57 : Ref sig .tc := ⟨.hbm, 112, rfl⟩
abbrev main_call3_cst : Ref sig .tc := ⟨.hbm, 113, rfl⟩
abbrev main_call3_v0 : Ref sig .tc := ⟨.hbm, 114, rfl⟩
abbrev main_v58 : Ref sig .tc := ⟨.hbm, 115, rfl⟩
abbrev main_v59 : Ref sig .tc := ⟨.hbm, 116, rfl⟩
abbrev main_v60 : Ref sig .tc := ⟨.hbm, 117, rfl⟩
abbrev main_v61 : Ref sig .tc := ⟨.hbm, 118, rfl⟩
abbrev main_v62 : Ref sig .tc := ⟨.hbm, 119, rfl⟩
abbrev main_c_6 : Ref sig .tc := ⟨.hbm, 120, rfl⟩
abbrev main_v63 : Ref sig .tc := ⟨.hbm, 121, rfl⟩
abbrev main_v64 : Ref sig .tc := ⟨.hbm, 122, rfl⟩
abbrev main_c_7 : Ref sig .tc := ⟨.hbm, 123, rfl⟩
abbrev main_v65 : Ref sig .tc := ⟨.hbm, 124, rfl⟩
abbrev main_v66 : Ref sig .tc := ⟨.hbm, 125, rfl⟩
abbrev main_v67 : Ref sig .tc := ⟨.hbm, 126, rfl⟩
abbrev main_v68 : Ref sig .tc := ⟨.hbm, 127, rfl⟩
abbrev main_v69 : Ref sig .tc := ⟨.hbm, 128, rfl⟩
abbrev main_cst_8 : Ref sig .tc := ⟨.hbm, 129, rfl⟩
abbrev main_v70 : Ref sig .tc := ⟨.hbm, 130, rfl⟩
abbrev main_v71 : Ref sig .tc := ⟨.hbm, 131, rfl⟩
abbrev main_v72 : Ref sig .tc := ⟨.hbm, 132, rfl⟩
abbrev main_v73 : Ref sig .tc := ⟨.hbm, 133, rfl⟩
abbrev main_v74 : Ref sig .tc := ⟨.hbm, 134, rfl⟩
abbrev main_v75 : Ref sig .tc := ⟨.hbm, 135, rfl⟩
abbrev main_v76 : Ref sig .tc := ⟨.hbm, 136, rfl⟩
abbrev main_call4_cst : Ref sig .tc := ⟨.hbm, 137, rfl⟩
abbrev main_call4_v0 : Ref sig .tc := ⟨.hbm, 138, rfl⟩
abbrev main_v77 : Ref sig .tc := ⟨.hbm, 139, rfl⟩
abbrev main_v78 : Ref sig .tc := ⟨.hbm, 140, rfl⟩
abbrev main_v79 : Ref sig .tc := ⟨.hbm, 141, rfl⟩
abbrev main_v80 : Ref sig .tc := ⟨.hbm, 142, rfl⟩
abbrev main_v81 : Ref sig .tc := ⟨.hbm, 143, rfl⟩
abbrev main_c_9 : Ref sig .tc := ⟨.hbm, 144, rfl⟩
abbrev main_v82 : Ref sig .tc := ⟨.hbm, 145, rfl⟩
abbrev main_v83 : Ref sig .tc := ⟨.hbm, 146, rfl⟩
abbrev main_c_10 : Ref sig .tc := ⟨.hbm, 147, rfl⟩
abbrev main_v84 : Ref sig .tc := ⟨.hbm, 148, rfl⟩
abbrev main_v85 : Ref sig .tc := ⟨.hbm, 149, rfl⟩
abbrev main_v86 : Ref sig .tc := ⟨.hbm, 150, rfl⟩
abbrev main_v87 : Ref sig .tc := ⟨.hbm, 151, rfl⟩
abbrev main_v88 : Ref sig .tc := ⟨.hbm, 152, rfl⟩
abbrev main_cst_11 : Ref sig .tc := ⟨.hbm, 153, rfl⟩
abbrev main_v89 : Ref sig .tc := ⟨.hbm, 154, rfl⟩
abbrev main_v90 : Ref sig .tc := ⟨.hbm, 155, rfl⟩
abbrev main_v91 : Ref sig .tc := ⟨.hbm, 156, rfl⟩
abbrev main_v92 : Ref sig .tc := ⟨.hbm, 157, rfl⟩
abbrev main_v93 : Ref sig .tc := ⟨.hbm, 158, rfl⟩
abbrev main_v94 : Ref sig .tc := ⟨.hbm, 159, rfl⟩
abbrev main_v95 : Ref sig .tc := ⟨.hbm, 160, rfl⟩
abbrev main_call5_cst : Ref sig .tc := ⟨.hbm, 161, rfl⟩
abbrev main_call5_v0 : Ref sig .tc := ⟨.hbm, 162, rfl⟩
abbrev main_v96 : Ref sig .tc := ⟨.hbm, 163, rfl⟩
abbrev main_v97 : Ref sig .tc := ⟨.hbm, 164, rfl⟩
abbrev main_v98 : Ref sig .tc := ⟨.hbm, 165, rfl⟩
abbrev main_v99 : Ref sig .tc := ⟨.hbm, 166, rfl⟩
abbrev main_v100 : Ref sig .tc := ⟨.hbm, 167, rfl⟩
abbrev main_v101 : Ref sig .tc := ⟨.hbm, 168, rfl⟩
abbrev main_v102 : Ref sig .tc := ⟨.hbm, 169, rfl⟩
abbrev main_v103 : Ref sig .tc := ⟨.hbm, 170, rfl⟩
abbrev main_v104 : Ref sig .tc := ⟨.hbm, 171, rfl⟩
abbrev main_v105 : Ref sig .tc := ⟨.hbm, 172, rfl⟩
abbrev main_call6_cst : Ref sig .tc := ⟨.hbm, 173, rfl⟩
abbrev main_call6_v0 : Ref sig .tc := ⟨.hbm, 174, rfl⟩
abbrev main_v106 : Ref sig .tc := ⟨.hbm, 175, rfl⟩
abbrev main_v107 : Ref sig .tc := ⟨.hbm, 176, rfl⟩
abbrev main_v108 : Ref sig .tc := ⟨.hbm, 177, rfl⟩
abbrev main_v109 : Ref sig .tc := ⟨.hbm, 178, rfl⟩
abbrev main_v110 : Ref sig .tc := ⟨.hbm, 179, rfl⟩
abbrev main_call7_cst : Ref sig .tc := ⟨.hbm, 180, rfl⟩
abbrev main_call7_v0 : Ref sig .tc := ⟨.hbm, 181, rfl⟩
abbrev main_v111 : Ref sig .tc := ⟨.hbm, 182, rfl⟩
abbrev main_v112 : Ref sig .tc := ⟨.hbm, 183, rfl⟩
abbrev main_v113 : Ref sig .tc := ⟨.hbm, 184, rfl⟩
abbrev main_v114 : Ref sig .tc := ⟨.hbm, 185, rfl⟩
abbrev main_v115 : Ref sig .tc := ⟨.hbm, 186, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S_S100000 : S_.BroadcastsInDim S100000 (![] : Fin 0 → Fin S100000.rank)
  bcast_S100000_S100000x1_0 : S100000.BroadcastsInDim S100000x1 (![0] : Fin 1 → Fin S100000x1.rank)
  bcast_S_S50000x32 : S_.BroadcastsInDim S50000x32 (![] : Fin 0 → Fin S50000x32.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  concatenates_S50000x128_S50000x128_S50000x64_S50000x32_S50000x128_S50000x128_S50000x608_d1 : Shape.Concatenates [S50000x128, S50000x128, S50000x64, S50000x32, S50000x128, S50000x128] S50000x608 1
  dot_S50000x128_S128x256_S50000x256_1_0_0_1_n_n_wf : DotDims.WF S50000x128 S128x256 S50000x256 [1] [0] [0] [1] [] []
  dot_S50000x256_S256x128_S50000x128_1_0_0_1_n_n_wf : DotDims.WF S50000x256 S256x128 S50000x128 [1] [0] [0] [1] [] []
  gather_S20000x128_S50000x1_S50000x128_1_0_n_n_0_1_1128_wf : GatherDims.WF S20000x128 S50000x1 S50000x128 [1] [0] [] [0] [] 1 ![1, 128]
  gather_S500x32_S100000x1_S100000x32_1_0_n_n_0_1_132_wf : GatherDims.WF S500x32 S100000x1 S100000x32 [1] [0] [] [0] [] 1 ![1, 32]
  scatter_S50000x32_S100000x1_S100000x32_1_0_0_1_wf : ScatterDims.WF S50000x32 S100000x1 S100000x32 [1] [0] [0] 1
  dot_S50000x32_S32x256_S50000x256_1_0_0_1_n_n_wf : DotDims.WF S50000x32 S32x256 S50000x256 [1] [0] [0] [1] [] []
  dot_S50000x256_S256x32_S50000x32_1_0_0_1_n_n_wf : DotDims.WF S50000x256 S256x32 S50000x32 [1] [0] [0] [1] [] []
  gather_S1000x64_S100000x1_S100000x64_1_0_n_n_0_1_164_wf : GatherDims.WF S1000x64 S100000x1 S100000x64 [1] [0] [] [0] [] 1 ![1, 64]
  scatter_S50000x64_S100000x1_S100000x64_1_0_0_1_wf : ScatterDims.WF S50000x64 S100000x1 S100000x64 [1] [0] [0] 1
  dot_S50000x64_S64x256_S50000x256_1_0_0_1_n_n_wf : DotDims.WF S50000x64 S64x256 S50000x256 [1] [0] [0] [1] [] []
  dot_S50000x256_S256x64_S50000x64_1_0_0_1_n_n_wf : DotDims.WF S50000x256 S256x64 S50000x64 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x608_S608x256_S50000x256_1_0_0_1_n_n_wf : DotDims.WF S50000x608 S608x256 S50000x256 [1] [0] [0] [1] [] []
  dot_S50000x128_S128x128_S50000x128_1_0_0_1_n_n_wf : DotDims.WF S50000x128 S128x128 S50000x128 [1] [0] [0] [1] [] []

variable [Facts₀]

def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S20000x128_S50000x1_S50000x128_1_0_n_n_0_1_1128 : GatherDims S20000x128 S50000x1 S50000x128 where
  offsetDims := [1]
  collapsedSliceDims := [0]
  operandBatchingDims := []
  startIndicesBatchingDims := []
  startIndexMap := [0]
  indexVectorDim := 1
  sliceSizes := ![1, 128]
  wf := gather_S20000x128_S50000x1_S50000x128_1_0_n_n_0_1_1128_wf
def gather_S500x32_S100000x1_S100000x32_1_0_n_n_0_1_132 : GatherDims S500x32 S100000x1 S100000x32 where
  offsetDims := [1]
  collapsedSliceDims := [0]
  operandBatchingDims := []
  startIndicesBatchingDims := []
  startIndexMap := [0]
  indexVectorDim := 1
  sliceSizes := ![1, 32]
  wf := gather_S500x32_S100000x1_S100000x32_1_0_n_n_0_1_132_wf
def scatter_S50000x32_S100000x1_S100000x32_1_0_0_1 : ScatterDims S50000x32 S100000x1 S100000x32 where
  updateWindowDims := [1]
  insertedWindowDims := [0]
  scatterDimsToOperandDims := [0]
  indexVectorDim := 1
  wf := scatter_S50000x32_S100000x1_S100000x32_1_0_0_1_wf
def dot_S50000x32_S32x256_S50000x256_1_0_0_1_n_n : DotDims S50000x32 S32x256 S50000x256 where
  lhsContracting := [1]
  rhsContracting := [0]
  lhsNonContracting := [0]
  rhsNonContracting := [1]
  lhsBatch := []
  rhsBatch := []
  wf := dot_S50000x32_S32x256_S50000x256_1_0_0_1_n_n_wf
def dot_S50000x256_S256x32_S50000x32_1_0_0_1_n_n : DotDims S50000x256 S256x32 S50000x32 where
  lhsContracting := [1]
  rhsContracting := [0]
  lhsNonContracting := [0]
  rhsNonContracting := [1]
  lhsBatch := []
  rhsBatch := []
  wf := dot_S50000x256_S256x32_S50000x32_1_0_0_1_n_n_wf
def gather_S1000x64_S100000x1_S100000x64_1_0_n_n_0_1_164 : GatherDims S1000x64 S100000x1 S100000x64 where
  offsetDims := [1]
  collapsedSliceDims := [0]
  operandBatchingDims := []
  startIndicesBatchingDims := []
  startIndexMap := [0]
  indexVectorDim := 1
  sliceSizes := ![1, 64]
  wf := gather_S1000x64_S100000x1_S100000x64_1_0_n_n_0_1_164_wf
def scatter_S50000x64_S100000x1_S100000x64_1_0_0_1 : ScatterDims S50000x64 S100000x1 S100000x64 where
  updateWindowDims := [1]
  insertedWindowDims := [0]
  scatterDimsToOperandDims := [0]
  indexVectorDim := 1
  wf := scatter_S50000x64_S100000x1_S100000x64_1_0_0_1_wf
def dot_S50000x64_S64x256_S50000x256_1_0_0_1_n_n : DotDims S50000x64 S64x256 S50000x256 where
  lhsContracting := [1]
  rhsContracting := [0]
  lhsNonContracting := [0]
  rhsNonContracting := [1]
  lhsBatch := []
  rhsBatch := []
  wf := dot_S50000x64_S64x256_S50000x256_1_0_0_1_n_n_wf
def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x608_S608x256_S50000x256_1_0_0_1_n_n : DotDims S50000x608 S608x256 S50000x256 where
  lhsContracting := [1]
  rhsContracting := [0]
  lhsNonContracting := [0]
  rhsNonContracting := [1]
  lhsBatch := []
  rhsBatch := []
  wf := dot_S50000x608_S608x256_S50000x256_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KernelRun.lean ====
/-
  The program's run, with the output array named.

  Every weakly fair execution of the program from a memory with zero counters terminates; at the end the output array
  holds what the region's write-backs left in it, block by block, and every argument array holds what it held at the
  start: an argument the region stages is read only, and an argument the region does not touch is written by nothing.
-/
import proofs.«112616_j74217034875541_2_alg».proof.Proof.PatchedFrameKernelIdeal
import Idealize.ShloMosaic.Lib.Pipeline.Value

set_option maxRecDepth 16384

noncomputable section

namespace Cert.KernelRun

open Cert.KernelIdeal Cert.KernelIdeal.Gen Cert.KernelIdeal.GenP

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 4000000 in
/-- The run: the output array is the array of the last window after every write-back, and the 41 arguments are unchanged. -/
theorem run_blocks (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v53) = (GenP.dats m 0 c).arrAt 41 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)
      ∧ r.2.mem ((c.tc : Thread nD τ).loc main_arg36) = m ((c.tc : Thread nD τ).loc main_arg36)
      ∧ r.2.mem ((c.tc : Thread nD τ).loc main_arg37) = m ((c.tc : Thread nD τ).loc main_arg37)
      ∧ r.2.mem ((c.tc : Thread nD τ).loc main_arg38) = m ((c.tc : Thread nD τ).loc main_arg38)
      ∧ r.2.mem ((c.tc : Thread nD τ).loc main_arg39) = m ((c.tc : Thread nD τ).loc main_arg39)
      ∧ r.2.mem ((c.tc : Thread nD τ).loc main_arg40) = m ((c.tc : Thread nD τ).loc main_arg40) :=
  (θ_run defs _ _).mono (fun r h c => ⟨(h c).1 41,
      ((h c).1 0).trans (((GenP.dats m 0 c).arrAt_in 0 rfl _).trans ((GenP.A_eq m c 0).trans (GenP.V_main_arg0 m c))),
      ((h c).2 main_arg1 (Pipeline.mem_restRefs_of main_arg1 (by decide) (by decide))).trans (GenP.V_main_arg1 m c),
      ((h c).2 main_arg2 (Pipeline.mem_restRefs_of main_arg2 (by decide) (by decide))).trans (GenP.V_main_arg2 m c),
      ((h c).2 main_arg3 (Pipeline.mem_restRefs_of main_arg3 (by decide) (by decide))).trans (GenP.V_main_arg3 m c),
      ((h c).2 main_arg4 (Pipeline.mem_restRefs_of main_arg4 (by decide) (by decide))).trans (GenP.V_main_arg4 m c),
      ((h c).2 main_arg5 (Pipeline.mem_restRefs_of main_arg5 (by decide) (by decide))).trans (GenP.V_main_arg5 m c),
      ((h c).2 main_arg6 (Pipeline.mem_restRefs_of main_arg6 (by decide) (by decide))).trans (GenP.V_main_arg6 m c),
      ((h c).2 main_arg7 (Pipeline.mem_restRefs_of main_arg7 (by decide) (by decide))).trans (GenP.V_main_arg7 m c),
      ((h c).2 main_arg8 (Pipeline.mem_restRefs_of main_arg8 (by decide) (by decide))).trans (GenP.V_main_arg8 m c),
      ((h c).2 main_arg9 (Pipeline.mem_restRefs_of main_arg9 (by decide) (by decide))).trans (GenP.V_main_arg9 m c),
      ((h c).2 main_arg10 (Pipeline.mem_restRefs_of main_arg10 (by decide) (by decide))).trans (GenP.V_main_arg10 m c),
      ((h c).1 6).trans (((GenP.dats m 0 c).arrAt_in 6 rfl _).trans ((GenP.A_eq m c 6).trans (GenP.V_main_arg11 m c))),
      ((h c).1 7).trans (((GenP.dats m 0 c).arrAt_in 7 rfl _).trans ((GenP.A_eq m c 7).trans (GenP.V_main_arg12 m c))),
      ((h c).1 8).trans (((GenP.dats m 0 c).arrAt_in 8 rfl _).trans ((GenP.A_eq m c 8).trans (GenP.V_main_arg13 m c))),
      ((h c).1 9).trans (((GenP.dats m 0 c).arrAt_in 9 rfl _).trans ((GenP.A_eq m c 9).trans (GenP.V_main_arg14 m c))),
      ((h c).1 10).trans (((GenP.dats m 0 c).arrAt_in 10 rfl _).trans ((GenP.A_eq m c 10).trans (GenP.V_main_arg15 m c))),
      ((h c).1 11).trans (((GenP.dats m 0 c).arrAt_in 11 rfl _).trans ((GenP.A_eq m c 11).trans (GenP.V_main_arg16 m c))),
      ((h c).1 12).trans (((GenP.dats m 0 c).arrAt_in 12 rfl _).trans ((GenP.A_eq m c 12).trans (GenP.V_main_arg17 m c))),
      ((h c).1 13).trans (((GenP.dats m 0 c).arrAt_in 13 rfl _).trans ((GenP.A_eq m c 13).trans (GenP.V_main_arg18 m c))),
      ((h c).1 22).trans (((GenP.dats m 0 c).arrAt_in 22 rfl _).trans ((GenP.A_eq m c 22).trans (GenP.V_main_arg19 m c))),
      ((h c).1 23).trans (((GenP.dats m 0 c).arrAt_in 23 rfl _).trans ((GenP.A_eq m c 23).trans (GenP.V_main_arg20 m c))),
      ((h c).1 24).trans (((GenP.dats m 0 c).arrAt_in 24 rfl _).trans ((GenP.A_eq m c 24).trans (GenP.V_main_arg21 m c))),
      ((h c).1 25).trans (((GenP.dats m 0 c).arrAt_in 25 rfl _).trans ((GenP.A_eq m c 25).trans (GenP.V_main_arg22 m c))),
      ((h c).1 26).trans (((GenP.dats m 0 c).arrAt_in 26 rfl _).trans ((GenP.A_eq m c 26).trans (GenP.V_main_arg23 m c))),
      ((h c).1 27).trans (((GenP.dats m 0 c).arrAt_in 27 rfl _).trans ((GenP.A_eq m c 27).trans (GenP.V_main_arg24 m c))),
      ((h c).1 28).trans (((GenP.dats m 0 c).arrAt_in 28 rfl _).trans ((GenP.A_eq m c 28).trans (GenP.V_main_arg25 m c))),
      ((h c).1 29).trans (((GenP.dats m 0 c).arrAt_in 29 rfl _).trans ((GenP.A_eq m c 29).trans (GenP.V_main_arg26 m c))),
      ((h c).1 18).trans (((GenP.dats m 0 c).arrAt_in 18 rfl _).trans ((GenP.A_eq m c 18).trans (GenP.V_main_arg27 m c))),
      ((h c).1 19).trans (((GenP.dats m 0 c).arrAt_in 19 rfl _).trans ((GenP.A_eq m c 19).trans (GenP.V_main_arg28 m c))),
      ((h c).1 20).trans (((GenP.dats m 0 c).arrAt_in 20 rfl _).trans ((GenP.A_eq m c 20).trans (GenP.V_main_arg29 m c))),
      ((h c).1 21).trans (((GenP.dats m 0 c).arrAt_in 21 rfl _).trans ((GenP.A_eq m c 21).trans (GenP.V_main_arg30 m c))),
      ((h c).1 14).trans (((GenP.dats m 0 c).arrAt_in 14 rfl _).trans ((GenP.A_eq m c 14).trans (GenP.V_main_arg31 m c))),
      ((h c).1 15).trans (((GenP.dats m 0 c).arrAt_in 15 rfl _).trans ((GenP.A_eq m c 15).trans (GenP.V_main_arg32 m c))),
      ((h c).1 16).trans (((GenP.dats m 0 c).arrAt_in 16 rfl _).trans ((GenP.A_eq m c 16).trans (GenP.V_main_arg33 m c))),
      ((h c).1 17).trans (((GenP.dats m 0 c).arrAt_in 17 rfl _).trans ((GenP.A_eq m c 17).trans (GenP.V_main_arg34 m c))),
      ((h c).2 main_arg35 (Pipeline.mem_restRefs_of main_arg35 (by decide) (by decide))).trans (GenP.V_main_arg35 m c),
      ((h c).1 36).trans (((GenP.dats m 0 c).arrAt_in 36 rfl _).trans ((GenP.A_eq m c 36).trans (GenP.V_main_arg36 m c))),
      ((h c).1 37).trans (((GenP.dats m 0 c).arrAt_in 37 rfl _).trans ((GenP.A_eq m c 37).trans (GenP.V_main_arg37 m c))),
      ((h c).1 38).trans (((GenP.dats m 0 c).arrAt_in 38 rfl _).trans ((GenP.A_eq m c 38).trans (GenP.V_main_arg38 m c))),
      ((h c).1 39).trans (((GenP.dats m 0 c).arrAt_in 39 rfl _).trans ((GenP.A_eq m c 39).trans (GenP.V_main_arg39 m c))),
      ((h c).1 40).trans (((GenP.dats m 0 c).arrAt_in 40 rfl _).trans ((GenP.A_eq m c 40).trans (GenP.V_main_arg40 m c)))⟩) (GenP.run_main m ρ)

end Cert.KernelRun

end
-- ==== Proof.RowNet.lean ====
/-
  One row of the network, over the reals.

  Every output row depends on one row of each of six inputs (the operation's own features, its item's features, and the
  sums of material, resource, predecessor and successor features gathered onto it) and on the weights. A two-layer
  perceptron sends a row x to relu(x·W₁ + b₁)·W₂ + b₂. The six embeddings meet in a layer whose weight matrix is cut
  into six horizontal bands, one per embedding: the product of the concatenated embeddings with the whole matrix is the
  sum of each embedding's product with its band. Two more layers follow.

  The function is stated with the six bands as separate matrices; "bandOf" is the band of a taller matrix that
  starts at a given row.
-/
import Idealize.ShloMosaic.PureOps.Ideal.Laws
import Idealize.ShloMosaic.Lib.ValueIdx

noncomputable section

namespace Cert.RowNet

open Idealize.ShloMosaic Idealize.ShloMosaic.ValueIdx

/-- A real matrix with K rows and N columns, indexed as the arrays are. -/
abbrev Mat (K N : ℕ) : Type := (⟨2, ![K, N]⟩ : Shape).Idx → ℝ
/-- A real vector of length N, indexed as the arrays are. -/
abbrev Vec1 (N : ℕ) : Type := (⟨1, ![N]⟩ : Shape).Idx → ℝ

/-- An array of extended reals every entry of which is a real number. -/
def IsReal {s : Shape} (v : s.Idx → EReal) : Prop := ∃ V : s.Idx → ℝ, v = fun i => ((V i : ℝ) : EReal)

/-- A real array read as an array of extended reals. -/
def cv {s : Shape} (V : s.Idx → ℝ) : s.Idx → EReal := fun i => ((V i : ℝ) : EReal)

theorem isReal_cv {s : Shape} (V : s.Idx → ℝ) : IsReal (cv V) := ⟨V, rfl⟩

/-- Row p of a matrix. -/
def rowOf {M K : ℕ} (A : Mat M K) (p : Fin M) : Fin K → ℝ := fun k => A (ix2 p k)

/-- The band of K rows of a taller matrix that starts at row "off". -/
def bandOf {T N : ℕ} (off K : ℕ) (h : off + K ≤ T) (W : Mat T N) : Mat K N :=
  fun i => W (ix2 ⟨off + (i 0).val, by have := (i 0).isLt; simp only [Matrix.cons_val_zero] at this; omega⟩ (i 1))

/-- The row vector x times the matrix W. -/
def dot {K N : ℕ} (x : Fin K → ℝ) (W : Mat K N) : Fin N → ℝ := fun j => ∑ k : Fin K, x k * W (ix2 k j)

/-- x·W + b. -/
def lin {K N : ℕ} (x : Fin K → ℝ) (W : Mat K N) (b : Vec1 N) : Fin N → ℝ := fun j => dot x W j + b (ix1 j)

/-- The positive part, entry by entry. -/
def relu {N : ℕ} (v : Fin N → ℝ) : Fin N → ℝ := fun j => max (v j) 0

/-- relu(x·W₁ + b₁)·W₂ + b₂. -/
def mlp2 {K H N : ℕ} (x : Fin K → ℝ) (W1 : Mat K H) (b1 : Vec1 H) (W2 : Mat H N) (b2 : Vec1 N) : Fin N → ℝ :=
  lin (relu (lin x W1 b1)) W2 b2

/-- One output row, from one row of each of the six inputs and the weights; the six bands of the joining layer's matrix
    are given in the order predecessor, successor, resource, material, item, self. -/
def rowOut (ops item : Fin 128 → ℝ) (mat : Fin 32 → ℝ) (res : Fin 64 → ℝ) (pred succ : Fin 128 → ℝ)
    (Wself1 : Mat 128 256) (bself1 : Vec1 256) (Wself2 : Mat 256 128) (bself2 : Vec1 128)
    (Witem1 : Mat 128 256) (bitem1 : Vec1 256) (Witem2 : Mat 256 128) (bitem2 : Vec1 128)
    (Wmat1 : Mat 32 256) (bmat1 : Vec1 256) (Wmat2 : Mat 256 32) (bmat2 : Vec1 32)
    (Wres1 : Mat 64 256) (bres1 : Vec1 256) (Wres2 : Mat 256 64) (bres2 : Vec1 64)
    (Wpred1 : Mat 128 256) (bpred1 : Vec1 256) (Wpred2 : Mat 256 128) (bpred2 : Vec1 128)
    (Wsucc1 : Mat 128 256) (bsucc1 : Vec1 256) (Wsucc2 : Mat 256 128) (bsucc2 : Vec1 128)
    (Cpred Csucc : Mat 128 256) (Cres : Mat 64 256) (Cmat : Mat 32 256) (Citem Cself : Mat 128 256) (bc1 : Vec1 256)
    (Wc2 : Mat 256 128) (bc2 : Vec1 128) (Wc3 : Mat 128 128) (bc3 : Vec1 128) : Fin 128 → ℝ :=
  lin (relu (lin (relu (fun j =>
      dot (mlp2 pred Wpred1 bpred1 Wpred2 bpred2) Cpred j + dot (mlp2 succ Wsucc1 bsucc1 Wsucc2 bsucc2) Csucc j
        + dot (mlp2 res Wres1 bres1 Wres2 bres2) Cres j + dot (mlp2 mat Wmat1 bmat1 Wmat2 bmat2) Cmat j
        + dot (mlp2 item Witem1 bitem1 Witem2 bitem2) Citem j + dot (mlp2 ops Wself1 bself1 Wself2 bself2) Cself j
        + bc1 (ix1 j))) Wc2 bc2)) Wc3 bc3

end Cert.RowNet

end
-- ==== Proof.LibPlainDot.lean ====
/-
  A plain matrix product read at an entry, on the extended reals.

  For an `m × k` matrix `A` and a `k × n` matrix `B` the product contracted over the shared axis has, at `(a, b)`, the
  value `∑ c, A (a, c) · B (c, b)`. On the extended reals a kernel's matrix unit accumulating into a zero tile and the
  host's product are this same sum: there is no rounding and no order of accumulation to tell them apart.
-/
import Idealize.ShloMosaic.PureOps.Ideal.Laws
import Idealize.ShloMosaic.Lib.ValueIdx
import Idealize.ShloMosaic.Lib.StackMember
import Idealize.ShloMosaic.Lib.ValueLayout

namespace Cert.LibPlainDot

open Idealize.ShloMosaic Idealize.ShloMosaic.ValueIdx

/-- A matrix unit's product into the zero tile is the host's product of the same operands, entry by entry. -/
theorem matmul_zero_eq_dotGeneral {sl sr so : Shape} {φ₁ φ₂ : FTy} (d : DotDims sl sr so) (prec : Option ContractPrecision)
    (A : FVec Ideal sl φ₁) (B : FVec Ideal sr φ₂) (j : so.Idx) :
    FloatOps.matmul d prec A B (constant (F := Ideal) so .f32 0x00000000#32) j = Host.dotGeneral (F := Ideal) d none A B j :=
  (Ideal.matmul_constant_zero_apply d prec A B j).trans (Ideal.dotGeneral_apply d none .single A B j).symm

/-- The plain product into the zero tile, at `(a, b)`, is `∑ c, A (a, c) · B (c, b)`. -/
theorem matmul_plain_zero_apply {m k n : ℕ} {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant (F := Ideal) ⟨2, ![m, n]⟩ .f32 0x00000000#32) (ix2 a b)
      = ∑ c : Fin k, A (ix2 a c) * B (ix2 c b) :=
  (matmul_zero_eq_dotGeneral (DotDims.plain m k n) prec A B (ix2 a b)).trans
    (StackMember.dotGeneral_plain_apply none A B a b)

/-- The plain product with the right operand given transposed: at `(a, b)` it is `∑ c, A (a, c) · B (b, c)`. -/
theorem matmul_plain_transposed_apply {m k n : ℕ} {φ₁ φ₂ : FTy} (prec : Option ContractPrecision)
    (A : FVec Ideal ⟨2, ![m, k]⟩ φ₁) (B : FVec Ideal ⟨2, ![n, k]⟩ φ₂)
    (h : (⟨2, ![n, k]⟩ : Shape).Transposes [1, 0] ⟨2, ![k, n]⟩) (a : Fin m) (b : Fin n) :
    FloatOps.matmul (DotDims.plain m k n) prec A (transpose ⟨2, ![k, n]⟩ [1, 0] B h)
        (constant (F := Ideal) ⟨2, ![m, n]⟩ .f32 0x00000000#32) (ix2 a b)
      = ∑ c : Fin k, A (ix2 a c) * B (ix2 b c) :=
  (matmul_plain_zero_apply prec A _ a b).trans
    (Finset.sum_congr rfl fun c _ => congrArg (A (ix2 a c) * ·) (transpose_ix2_apply B h c b))

/-- The host's plain product with the right operand given transposed: at `(a, b)` it is `∑ c, A (a, c) · B (b, c)`. -/
theorem dotGeneral_plain_transposed_apply {m k n : ℕ} {φ₁ φ₂ : FTy} (prec : Option ContractPrecision)
    (A : FVec Ideal ⟨2, ![m, k]⟩ φ₁) (B : FVec Ideal ⟨2, ![n, k]⟩ φ₂)
    (h : (⟨2, ![n, k]⟩ : Shape).Transposes [1, 0] ⟨2, ![k, n]⟩) (a : Fin m) (b : Fin n) :
    Host.dotGeneral (F := Ideal) (DotDims.plain m k n) prec A (transpose ⟨2, ![k, n]⟩ [1, 0] B h) (ix2 a b)
      = ∑ c : Fin k, A (ix2 a c) * B (ix2 b c) :=
  (StackMember.dotGeneral_plain_apply prec A _ a b).trans
    (Finset.sum_congr rfl fun c _ => congrArg (A (ix2 a c) * ·) (transpose_ix2_apply B h c b))

end Cert.LibPlainDot
-- ==== Proof.Lift.lean ====
/-
  Arrays of real numbers inside the extended reals: the operations of the network on them.

  When every entry of its operands is a real number, each operation of the network gives an array of real numbers, the
  one the same operation gives over the reals: a sum, a difference, a maximum with zero, a change of float format (the
  identity on extended reals), a matrix product onto the zero matrix, and a length-N vector laid as one row and repeated
  down M rows. In particular the difference of such an array with itself is the zero array, and a matrix product with a
  zero factor is the zero matrix: this is what makes a product computed as x·W + x·(W − W) + (x − x)·W equal to x·W.
-/
import proofs.«112616_j74217034875541_2_alg».proof.Proof.RowNet
import proofs.«112616_j74217034875541_2_alg».proof.Proof.LibPlainDot
import Idealize.ShloMosaic.Lib.Pipeline.Value
import Idealize.ShloMosaic.Lib.ValueLayout

noncomputable section

namespace Cert.Lift

open Idealize.ShloMosaic Idealize.ShloMosaic.ValueIdx Cert.RowNet

/-- The matrix product over the reals, indexed as the arrays are. -/
def rdot {m k n : ℕ} (A : Mat m k) (B : Mat k n) : Mat m n :=
  fun j => ∑ c : Fin k, A (ix2 (j 0) c) * B (ix2 c (j 1))

theorem rdot_zero_right {m k n : ℕ} (A : Mat m k) : rdot A (0 : Mat k n) = 0 := by
  funext j; simp [rdot]

theorem rdot_zero_left {m k n : ℕ} (B : Mat k n) : rdot (0 : Mat m k) B = 0 := by
  funext j; simp [rdot]

/-- The coercion of a finite sum of reals is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

variable {s : Shape} {φ : FTy}

theorem truncf_cv (A : s.Idx → ℝ) (h : FTy.bf16.bits < FTy.f32.bits) :
    @truncf Ideal _ s .f32 .bf16 (cv A) h = cv A := rfl

theorem addf_cv (A B : s.Idx → ℝ) :
    @addf Ideal _ s φ (cv A) (cv B) = cv (A + B) := by
  funext i; show (A i : EReal) + (B i : EReal) = ((A i + B i : ℝ) : EReal); rw [EReal.coe_add]

theorem subf_cv (A B : s.Idx → ℝ) :
    @subf Ideal _ s φ (cv A) (cv B) = cv (A - B) := by
  funext i; show (A i : EReal) - (B i : EReal) = ((A i - B i : ℝ) : EReal); rw [EReal.coe_sub]

/-- The maximum with the zero array: the positive part. -/
theorem maximumf_cv_zero (A : s.Idx → ℝ) :
    @maximumf Ideal _ s .f32 (cv A) (broadcast s (Scalar.ofBits (F := Ideal) .f32 0x00000000#32))
      = cv (fun i => max (A i) 0) := by
  funext i
  show max (A i : EReal) (Ideal.ofBits .f32 0x00000000#32) = ((max (A i) 0 : ℝ) : EReal)
  rw [Ideal.ofBits_zero_f32, EReal.coe_strictMono.monotone.map_max, EReal.coe_zero]

/-- A matrix product of real matrices onto the zero matrix is the real product. -/
theorem matmul_cv {m k n : ℕ} {φ₁ φ₂ : FTy} (d : DotDims ⟨2, ![m, k]⟩ ⟨2, ![k, n]⟩ ⟨2, ![m, n]⟩) (hd : d = DotDims.plain m k n)
    (A : Mat m k) (B : Mat k n) :
    @matmul Ideal _ ⟨2, ![m, k]⟩ ⟨2, ![k, n]⟩ ⟨2, ![m, n]⟩ φ₁ φ₂ d none (cv A) (cv B)
        (constant (F := Ideal) ⟨2, ![m, n]⟩ .f32 0x00000000#32) = cv (rdot A B) := by
  subst hd
  funext j
  obtain ⟨p, q, rfl⟩ : ∃ (p : Fin m) (q : Fin n), j = ix2 p q := ⟨j 0, j 1, eq_ix2 j⟩
  refine (Cert.LibPlainDot.matmul_plain_zero_apply (φ₁ := φ₁) (φ₂ := φ₂) none (cv A) (cv B) p q).trans ?_
  show ∑ c : Fin k, ((A (ix2 p c) : ℝ) : EReal) * ((B (ix2 c q) : ℝ) : EReal)
    = ((∑ c : Fin k, A (ix2 p c) * B (ix2 c q) : ℝ) : EReal)
  rw [coe_sum]
  exact Finset.sum_congr rfl fun c _ => (EReal.coe_mul _ _).symm

/-- A length-N real vector laid as one row and repeated down M rows. -/
theorem bias_cv {M N : ℕ} (b : Vec1 N) (h1 : (⟨1, ![N]⟩ : Shape).ShapeCasts ⟨2, ![1, N]⟩)
    (h2 : (⟨2, ![1, N]⟩ : Shape).Broadcasts ⟨2, ![M, N]⟩) :
    broadcastTo ⟨2, ![M, N]⟩ (shapeCast ⟨2, ![1, N]⟩ (cv b : FVec Ideal ⟨1, ![N]⟩ .f32) h1) h2
      = cv (fun j : (⟨2, ![M, N]⟩ : Shape).Idx => b (ix1 (j 1))) := by
  funext j
  obtain ⟨p, q, rfl⟩ : ∃ (p : Fin M) (q : Fin N), j = ix2 p q := ⟨j 0, j 1, eq_ix2 j⟩
  rw [broadcastTo_1b_ab_apply, shapeCast_a_1a_apply]
  rfl

end Cert.Lift

end
-- ==== Proof.KernelBlock.lean ====
/-
  The kernel's stored block, as a function of the blocks it loads, over real numbers.

  The body computes each matrix product x·W as x·W + x·(W − W) + (x − x)·W. When every loaded entry is a real number
  the two differences are zero arrays, the two extra products are zero matrices, and each product is x·W: by induction
  through the layers every intermediate array is an array of real numbers, and the stored block is, row by row, the
  network's row function of the loaded rows and the weights.
-/
import proofs.«112616_j74217034875541_2_alg».proof.Proof.RowNet
import proofs.«112616_j74217034875541_2_alg».proof.Proof.Lift
import proofs.«112616_j74217034875541_2_alg».proof.Proof.Gen.KernelIdeal.Skeleton

noncomputable section

namespace Cert.KernelBlock

open Idealize.ShloMosaic Idealize.ShloMosaic.ValueIdx Cert.RowNet Cert.Lift Cert.KernelIdeal Cert.KernelIdeal.Gen

/-! ## The seven product shapes of the body are plain row-by-column products -/

theorem d_128_256 : dot_S1000x128_S128x256_S1000x256_1_0_0_1_n_n = DotDims.plain 1000 128 256 := rfl
theorem d_256_128 : dot_S1000x256_S256x128_S1000x128_1_0_0_1_n_n = DotDims.plain 1000 256 128 := rfl
theorem d_32_256 : dot_S1000x32_S32x256_S1000x256_1_0_0_1_n_n = DotDims.plain 1000 32 256 := rfl
theorem d_256_32 : dot_S1000x256_S256x32_S1000x32_1_0_0_1_n_n = DotDims.plain 1000 256 32 := rfl
theorem d_64_256 : dot_S1000x64_S64x256_S1000x256_1_0_0_1_n_n = DotDims.plain 1000 64 256 := rfl
theorem d_256_64 : dot_S1000x256_S256x64_S1000x64_1_0_0_1_n_n = DotDims.plain 1000 256 64 := rfl
theorem d_128_128 : dot_S1000x128_S128x128_S1000x128_1_0_0_1_n_n = DotDims.plain 1000 128 128 := rfl

/-! ## The network on whole blocks of rows, over the reals -/

/-- X·W + b on a block of rows. -/
def linV {M K N : ℕ} (X : Mat M K) (W : Mat K N) (b : Vec1 N) : Mat M N := rdot X W + fun j => b (ix1 (j 1))
/-- The positive part of a block. -/
def reluV {M N : ℕ} (A : Mat M N) : Mat M N := fun i => max (A i) 0
/-- relu(X·W₁ + b₁)·W₂ + b₂ on a block of rows. -/
def mlp2V {M K H N : ℕ} (X : Mat M K) (W1 : Mat K H) (b1 : Vec1 H) (W2 : Mat H N) (b2 : Vec1 N) : Mat M N :=
  linV (reluV (linV X W1 b1)) W2 b2

/-- The whole network on a block of rows: the arguments are the body's loads in the order of its windows. -/
def netV (X0 : Mat 1000 128) (X1 : Mat 1000 128) (X2 : Mat 1000 32) (X3 : Mat 1000 64) (X4 : Mat 1000 128) (X5 : Mat 1000 128) (X6 : Mat 128 256) (X7 : Vec1 256) (X8 : Mat 256 128) (X9 : Vec1 128) (X10 : Mat 128 256) (X11 : Vec1 256) (X12 : Mat 256 128) (X13 : Vec1 128) (X14 : Mat 32 256) (X15 : Vec1 256) (X16 : Mat 256 32) (X17 : Vec1 32) (X18 : Mat 64 256) (X19 : Vec1 256) (X20 : Mat 256 64) (X21 : Vec1 64) (X22 : Mat 128 256) (X23 : Vec1 256) (X24 : Mat 256 128) (X25 : Vec1 128) (X26 : Mat 128 256) (X27 : Vec1 256) (X28 : Mat 256 128) (X29 : Vec1 128) (X30 : Mat 128 256) (X31 : Mat 128 256) (X32 : Mat 64 256) (X33 : Mat 32 256) (X34 : Mat 128 256) (X35 : Mat 128 256) (X36 : Vec1 256) (X37 : Mat 256 128) (X38 : Vec1 128) (X39 : Mat 128 128) (X40 : Vec1 128) : Mat 1000 128 :=
  linV (reluV (linV (reluV (rdot (mlp2V X4 X22 X23 X24 X25) X30 + rdot (mlp2V X5 X26 X27 X28 X29) X31
      + rdot (mlp2V X3 X18 X19 X20 X21) X32 + rdot (mlp2V X2 X14 X15 X16 X17) X33
      + rdot (mlp2V X1 X10 X11 X12 X13) X34 + rdot (mlp2V X0 X6 X7 X8 X9) X35
      + fun j => X36 (ix1 (j 1)))) X37 X38)) X39 X40

/-- Row p of the network on a block is the row function of row p of each input block. -/
theorem netV_apply (X0 : Mat 1000 128) (X1 : Mat 1000 128) (X2 : Mat 1000 32) (X3 : Mat 1000 64) (X4 : Mat 1000 128) (X5 : Mat 1000 128) (X6 : Mat 128 256) (X7 : Vec1 256) (X8 : Mat 256 128) (X9 : Vec1 128) (X10 : Mat 128 256) (X11 : Vec1 256) (X12 : Mat 256 128) (X13 : Vec1 128) (X14 : Mat 32 256) (X15 : Vec1 256) (X16 : Mat 256 32) (X17 : Vec1 32) (X18 : Mat 64 256) (X19 : Vec1 256) (X20 : Mat 256 64) (X21 : Vec1 64) (X22 : Mat 128 256) (X23 : Vec1 256) (X24 : Mat 256 128) (X25 : Vec1 128) (X26 : Mat 128 256) (X27 : Vec1 256) (X28 : Mat 256 128) (X29 : Vec1 128) (X30 : Mat 128 256) (X31 : Mat 128 256) (X32 : Mat 64 256) (X33 : Mat 32 256) (X34 : Mat 128 256) (X35 : Mat 128 256) (X36 : Vec1 256) (X37 : Mat 256 128) (X38 : Vec1 128) (X39 : Mat 128 128) (X40 : Vec1 128) (p : Fin 1000) (q : Fin 128) :
    netV X0 X1 X2 X3 X4 X5 X6 X7 X8 X9 X10 X11 X12 X13 X14 X15 X16 X17 X18 X19 X20 X21 X22 X23 X24 X25 X26 X27 X28 X29 X30 X31 X32 X33 X34 X35 X36 X37 X38 X39 X40 (ix2 p q)
      = rowOut (rowOf X0 p) (rowOf X1 p) (rowOf X2 p) (rowOf X3 p) (rowOf X4 p) (rowOf X5 p)
          X6 X7 X8 X9 X10 X11 X12 X13 X14 X15 X16 X17 X18 X19 X20 X21 X22 X23 X24 X25 X26 X27 X28 X29
          X30 X31 X32 X33 X34 X35 X36 X37 X38 X39 X40 q := rfl

/-! ## The body's stored value -/

/-- The value the body stores, as a function of what it loads (the body's pieces composed). -/
def payload (x0 : Vec Ideal S1000x128 .f32) (x1 : Vec Ideal S1000x128 .f32) (x2 : Vec Ideal S1000x32 .f32) (x3 : Vec Ideal S1000x64 .f32) (x4 : Vec Ideal S1000x128 .f32) (x5 : Vec Ideal S1000x128 .f32) (x6 : Vec Ideal S128x256 .f32) (x7 : Vec Ideal S256 .f32) (x8 : Vec Ideal S256x128 .f32) (x9 : Vec Ideal S128 .f32) (x10 : Vec Ideal S128x256 .f32) (x11 : Vec Ideal S256 .f32) (x12 : Vec Ideal S256x128 .f32) (x13 : Vec Ideal S128 .f32) (x14 : Vec Ideal S32x256 .f32) (x15 : Vec Ideal S256 .f32) (x16 : Vec Ideal S256x32 .f32) (x17 : Vec Ideal S32 .f32) (x18 : Vec Ideal S64x256 .f32) (x19 : Vec Ideal S256 .f32) (x20 : Vec Ideal S256x64 .f32) (x21 : Vec Ideal S64 .f32) (x22 : Vec Ideal S128x256 .f32) (x23 : Vec Ideal S256 .f32) (x24 : Vec Ideal S256x128 .f32) (x25 : Vec Ideal S128 .f32) (x26 : Vec Ideal S128x256 .f32) (x27 : Vec Ideal S256 .f32) (x28 : Vec Ideal S256x128 .f32) (x29 : Vec Ideal S128 .f32) (x30 : Vec Ideal S128x256 .f32) (x31 : Vec Ideal S128x256 .f32) (x32 : Vec Ideal S64x256 .f32) (x33 : Vec Ideal S32x256 .f32) (x34 : Vec Ideal S128x256 .f32) (x35 : Vec Ideal S128x256 .f32) (x36 : Vec Ideal S256 .f32) (x37 : Vec Ideal S256x128 .f32) (x38 : Vec Ideal S128 .f32) (x39 : Vec Ideal S128x128 .f32) (x40 : Vec Ideal S128 .f32) : FVec Ideal S1000x128 .f32 :=
  k0_pay1 (k0_pay33 (k0_pay2 x0 x6 x7 x8 x9) (k0_pay28 (k0_pay8 x14 (k0_pay6 x2) (k0_pay7 x2) x15 x16 x17) (k0_pay14 (k0_pay10 x3) (k0_pay11 x3) (k0_pay12 x18) (k0_pay13 x18) x19 x20 x21) (k0_pay22 (k0_pay19 (k0_pay16 x4) (k0_pay17 x22) (k0_pay18 x4 x22) x23 x24 x25) x30) (k0_pay23 x31) (k0_pay24 (k0_pay20 x5 x26) x27 x28 x29) (k0_pay25 (k0_pay20 x5 x26) x27 x28 x29) (k0_pay26 x31) (k0_pay27 x31) x32 x33) (k0_pay29 x34) (k0_pay30 (k0_pay4 (k0_pay3 x1) x10 x11 x12 x13)) (k0_pay31 (k0_pay4 (k0_pay3 x1) x10 x11 x12 x13)) x35 x36) (k0_pay34 x37) (k0_pay35 (k0_pay2 x0 x6 x7 x8 x9) (k0_pay28 (k0_pay8 x14 (k0_pay6 x2) (k0_pay7 x2) x15 x16 x17) (k0_pay14 (k0_pay10 x3) (k0_pay11 x3) (k0_pay12 x18) (k0_pay13 x18) x19 x20 x21) (k0_pay22 (k0_pay19 (k0_pay16 x4) (k0_pay17 x22) (k0_pay18 x4 x22) x23 x24 x25) x30) (k0_pay23 x31) (k0_pay24 (k0_pay20 x5 x26) x27 x28 x29) (k0_pay25 (k0_pay20 x5 x26) x27 x28 x29) (k0_pay26 x31) (k0_pay27 x31) x32 x33) (k0_pay29 x34) (k0_pay30 (k0_pay4 (k0_pay3 x1) x10 x11 x12 x13)) (k0_pay31 (k0_pay4 (k0_pay3 x1) x10 x11 x12 x13)) x35 x36 x37) (constant S1000x128 .f32 0x00000000#32) x38 x39 x40

/-- On blocks of real numbers the stored value is the network on the block. -/
theorem payload_cv (X0 : Mat 1000 128) (X1 : Mat 1000 128) (X2 : Mat 1000 32) (X3 : Mat 1000 64) (X4 : Mat 1000 128) (X5 : Mat 1000 128) (X6 : Mat 128 256) (X7 : Vec1 256) (X8 : Mat 256 128) (X9 : Vec1 128) (X10 : Mat 128 256) (X11 : Vec1 256) (X12 : Mat 256 128) (X13 : Vec1 128) (X14 : Mat 32 256) (X15 : Vec1 256) (X16 : Mat 256 32) (X17 : Vec1 32) (X18 : Mat 64 256) (X19 : Vec1 256) (X20 : Mat 256 64) (X21 : Vec1 64) (X22 : Mat 128 256) (X23 : Vec1 256) (X24 : Mat 256 128) (X25 : Vec1 128) (X26 : Mat 128 256) (X27 : Vec1 256) (X28 : Mat 256 128) (X29 : Vec1 128) (X30 : Mat 128 256) (X31 : Mat 128 256) (X32 : Mat 64 256) (X33 : Mat 32 256) (X34 : Mat 128 256) (X35 : Mat 128 256) (X36 : Vec1 256) (X37 : Mat 256 128) (X38 : Vec1 128) (X39 : Mat 128 128) (X40 : Vec1 128) :
    payload (cv X0) (cv X1) (cv X2) (cv X3) (cv X4) (cv X5) (cv X6) (cv X7) (cv X8) (cv X9) (cv X10) (cv X11) (cv X12) (cv X13) (cv X14) (cv X15) (cv X16) (cv X17) (cv X18) (cv X19) (cv X20) (cv X21) (cv X22) (cv X23) (cv X24) (cv X25) (cv X26) (cv X27) (cv X28) (cv X29) (cv X30) (cv X31) (cv X32) (cv X33) (cv X34) (cv X35) (cv X36) (cv X37) (cv X38) (cv X39) (cv X40) = cv (netV X0 X1 X2 X3 X4 X5 X6 X7 X8 X9 X10 X11 X12 X13 X14 X15 X16 X17 X18 X19 X20 X21 X22 X23 X24 X25 X26 X27 X28 X29 X30 X31 X32 X33 X34 X35 X36 X37 X38 X39 X40) := by
  unfold payload
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35,
    shapeCast_self, truncf_cv, subf_cv, sub_self, addf_cv, maximumf_cv_zero, matmul_cv _ d_128_256, matmul_cv _ d_256_128,
    matmul_cv _ d_32_256, matmul_cv _ d_256_32, matmul_cv _ d_64_256, matmul_cv _ d_256_64, matmul_cv _ d_128_128, bias_cv,
    rdot_zero_left, rdot_zero_right, add_zero]
  rfl

end Cert.KernelBlock

end
-- ==== Proof.KernelWin.lean ====
/-
  The block each window of the kernel holds at a grid point.

  The grid has 50 points. At point t each of the six row windows (and the output window) holds rows 1000·t … 1000·t + 999
  of its array; every weight window holds its whole array at every point. When a window's array is an array of real
  numbers, so is its block: the same rows, or the same array.
-/
import proofs.«112616_j74217034875541_2_alg».proof.Proof.PatchedFrameKernelIdeal
import proofs.«112616_j74217034875541_2_alg».proof.Proof.KernelBlock
import Idealize.ShloMosaic.Lib.Pipeline.Value

noncomputable section

namespace Cert.KernelWin

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.GenP Cert.RowNet Cert.Lift Cert.KernelBlock

variable (m : (ℓ : Loc nD τ sig) → Buf (Elt Ideal) ℓ)

theorem hz2 : (![0, 0] : Fin 2 → Nat) = fun _ => 0 := funext fun a => by fin_cases a <;> rfl
theorem hz1 : (![0] : Fin 1 → Nat) = fun _ => 0 := funext fun a => by fin_cases a <;> rfl

/-- Rows 1000·t … 1000·t + 999 of a matrix of 50000 rows. -/
def blockOf {D : ℕ} (t : ℕ) (ht : t < 50) (A : Mat 50000 D) : Mat 1000 D :=
  fun y => A (ix2 ⟨1000 * t + (y 0).val, by have := (y 0).isLt; simp only [Matrix.cons_val_zero] at this; omega⟩ (y 1))

theorem lt50 (t : Fin cfg0.N) : t.val < 50 := Nat.lt_of_lt_of_eq t.isLt N_0

end Cert.KernelWin

end
-- ==== Proof.KernelWinR0.lean ====
/-
  The block row window 0 of the kernel holds at grid point t: rows 1000·t … 1000·t + 999 of its array (the index map is
  decided over the 50 points).
-/
import proofs.«112616_j74217034875541_2_alg».proof.Proof.PatchedFrameKernelIdeal
import proofs.«112616_j74217034875541_2_alg».proof.Proof.KernelBlock
import Idealize.ShloMosaic.Lib.Pipeline.Value

import proofs.«112616_j74217034875541_2_alg».proof.Proof.KernelWin

noncomputable section

namespace Cert.KernelWin

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.GenP Cert.RowNet Cert.Lift Cert.KernelBlock

variable (m : (ℓ : Loc nD τ sig) → Buf (Elt Ideal) ℓ)

theorem idx_w0 : ∀ t : Fin cfg0.N, win0_0.index t (0 : Fin 2) = t.val ∧ win0_0.index t (1 : Fin 2) = 0 :=
  (by decide +kernel : ∀ t : Fin grid0.N, _)

theorem iblk_w0 (c : Dev nD) (t : Fin cfg0.N) (A : Mat 50000 128)
    (h : (V m c main_arg0 : S50000x128.Idx → EReal) = cv A) :
    (iblk m c 0 t : S1000x128.Idx → EReal) = cv (blockOf t.val (lt50 t) A) := by
  funext y
  unfold iblk
  rw [View.read_apply]
  show (V m c main_arg0 : S50000x128.Idx → EReal) _ = _
  rw [h]
  refine congrArg (fun k => ((A k : ℝ) : EReal)) ?_
  funext a
  apply Fin.ext
  match a with
  | ⟨0, _⟩ => show win0_0.index t (0 : Fin 2) * 1000 + 1 * (y 0).val = 1000 * t.val + (y 0).val; rw [(idx_w0 t).1]; omega
  | ⟨1, _⟩ => show win0_0.index t (1 : Fin 2) * 128 + 1 * (y 1).val = (y 1).val; rw [(idx_w0 t).2]; omega

end Cert.KernelWin

end
-- ==== Proof.KernelWinR1.lean ====
/-
  The block row window 1 of the kernel holds at grid point t: rows 1000·t … 1000·t + 999 of its array (the index map is
  decided over the 50 points).
-/
import proofs.«112616_j74217034875541_2_alg».proof.Proof.PatchedFrameKernelIdeal
import proofs.«112616_j74217034875541_2_alg».proof.Proof.KernelBlock
import Idealize.ShloMosaic.Lib.Pipeline.Value

import proofs.«112616_j74217034875541_2_alg».proof.Proof.KernelWinR0

noncomputable section

namespace Cert.KernelWin

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.GenP Cert.RowNet Cert.Lift Cert.KernelBlock

variable (m : (ℓ : Loc nD τ sig) → Buf (Elt Ideal) ℓ)

theorem idx_w1 : ∀ t : Fin cfg0.N, win0_1.index t (0 : Fin 2) = t.val ∧ win0_1.index t (1 : Fin 2) = 0 :=
  (by decide +kernel : ∀ t : Fin grid0.N, _)

theorem iblk_w1 (c : Dev nD) (t : Fin cfg0.N) (A : Mat 50000 128)
    (h : (V m c main_v6 : S50000x128.Idx → EReal) = cv A) :
    (iblk m c 1 t : S1000x128.Idx → EReal) = cv (blockOf t.val (lt50 t) A) := by
  funext y
  unfold iblk
  rw [View.read_apply]
  show (V m c main_v6 : S50000x128.Idx → EReal) _ = _
  rw [h]
  refine congrArg (fun k => ((A k : ℝ) : EReal)) ?_
  funext a
  apply Fin.ext
  match a with
  | ⟨0, _⟩ => show win0_1.index t (0 : Fin 2) * 1000 + 1 * (y 0).val = 1000 * t.val + (y 0).val; rw [(idx_w1 t).1]; omega
  | ⟨1, _⟩ => show win0_1.index t (1 : Fin 2) * 128 + 1 * (y 1).val = (y 1).val; rw [(idx_w1 t).2]; omega

end Cert.KernelWin

end
-- ==== Proof.KernelWinR2.lean ====
/-
  The block row window 2 of the kernel holds at grid point t: rows 1000·t … 1000·t + 999 of its array (the index map is
  decided over the 50 points).
-/
import proofs.«112616_j74217034875541_2_alg».proof.Proof.PatchedFrameKernelIdeal
import proofs.«112616_j74217034875541_2_alg».proof.Proof.KernelBlock
import Idealize.ShloMosaic.Lib.Pipeline.Value

import proofs.«112616_j74217034875541_2_alg».proof.Proof.KernelWinR1

noncomputable section

namespace Cert.KernelWin

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.GenP Cert.RowNet Cert.Lift Cert.KernelBlock

variable (m : (ℓ : Loc nD τ sig) → Buf (Elt Ideal) ℓ)

theorem idx_w2 : ∀ t : Fin cfg0.N, win0_2.index t (0 : Fin 2) = t.val ∧ win0_2.index t (1 : Fin 2) = 0 :=
  (by decide +kernel : ∀ t : Fin grid0.N, _)

theorem iblk_w2 (c : Dev nD) (t : Fin cfg0.N) (A : Mat 50000 32)
    (h : V m c (Pipeline.arrRef spec0 2) = (cv A : S50000x32.Idx → EReal)) :
    (iblk m c 2 t : S1000x32.Idx → EReal) = cv (blockOf t.val (lt50 t) A) := by
  funext y
  unfold iblk
  rw [h, View.read_apply]
  refine congrArg (fun k => ((A k : ℝ) : EReal)) ?_
  funext a
  apply Fin.ext
  match a with
  | ⟨0, _⟩ => show win0_2.index t (0 : Fin 2) * 1000 + 1 * (y 0).val = 1000 * t.val + (y 0).val; rw [(idx_w2 t).1]; omega
  | ⟨1, _⟩ => show win0_2.index t (1 : Fin 2) * 32 + 1 * (y 1).val = (y 1).val; rw [(idx_w2 t).2]; omega

end Cert.KernelWin

end
-- ==== Proof.KernelWinR3.lean ====
/-
  The block row window 3 of the kernel holds at grid point t: rows 1000·t … 1000·t + 999 of its array (the index map is
  decided over the 50 points).
-/
import proofs.«112616_j74217034875541_2_alg».proof.Proof.PatchedFrameKernelIdeal
import proofs.«112616_j74217034875541_2_alg».proof.Proof.KernelBlock
import Idealize.ShloMosaic.Lib.Pipeline.Value

import proofs.«112616_j74217034875541_2_alg».proof.Proof.KernelWinR2

noncomputable section

namespace Cert.KernelWin

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.GenP Cert.RowNet Cert.Lift Cert.KernelBlock

variable (m : (ℓ : Loc nD τ sig) → Buf (Elt Ideal) ℓ)

theorem idx_w3 : ∀ t : Fin cfg0.N, win0_3.index t (0 : Fin 2) = t.val ∧ win0_3.index t (1 : Fin 2) = 0 :=
  (by decide +kernel : ∀ t : Fin grid0.N, _)

theorem iblk_w3 (c : Dev nD) (t : Fin cfg0.N) (A : Mat 50000 64)
    (h : V m c (Pipeline.arrRef spec0 3) = (cv A : S50000x64.Idx → EReal)) :
    (iblk m c 3 t : S1000x64.Idx → EReal) = cv (blockOf t.val (lt50 t) A) := by
  funext y
  unfold iblk
  rw [h, View.read_apply]
  refine congrArg (fun k => ((A k : ℝ) : EReal)) ?_
  funext a
  apply Fin.ext
  match a with
  | ⟨0, _⟩ => show win0_3.index t (0 : Fin 2) * 1000 + 1 * (y 0).val = 1000 * t.val + (y 0).val; rw [(idx_w3 t).1]; omega
  | ⟨1, _⟩ => show win0_3.index t (1 : Fin 2) * 64 + 1 * (y 1).val = (y 1).val; rw [(idx_w3 t).2]; omega

end Cert.KernelWin

end
-- ==== Proof.KernelWinR4.lean ====
/-
  The block row window 4 of the kernel holds at grid point t: rows 1000·t … 1000·t + 999 of its array (the index map is
  decided over the 50 points).
-/
import proofs.«112616_j74217034875541_2_alg».proof.Proof.PatchedFrameKernelIdeal
import proofs.«112616_j74217034875541_2_alg».proof.Proof.KernelBlock
import Idealize.ShloMosaic.Lib.Pipeline.Value

import proofs.«112616_j74217034875541_2_alg».proof.Proof.KernelWinR3

noncomputable section

namespace Cert.KernelWin

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.GenP Cert.RowNet Cert.Lift Cert.KernelBlock

variable (m : (ℓ : Loc nD τ sig) → Buf (Elt Ideal) ℓ)

theorem idx_w4 : ∀ t : Fin cfg0.N, win0_4.index t (0 : Fin 2) = t.val ∧ win0_4.index t (1 : Fin 2) = 0 :=
  (by decide +kernel : ∀ t : Fin grid0.N, _)

theorem iblk_w4 (c : Dev nD) (t : Fin cfg0.N) (A : Mat 50000 128)
    (h : V m c (Pipeline.arrRef spec0 4) = (cv A : S50000x128.Idx → EReal)) :
    (iblk m c 4 t : S1000x128.Idx → EReal) = cv (blockOf t.val (lt50 t) A) := by
  funext y
  unfold iblk
  rw [h, View.read_apply]
  refine congrArg (fun k => ((A k : ℝ) : EReal)) ?_
  funext a
  apply Fin.ext
  match a with
  | ⟨0, _⟩ => show win0_4.index t (0 : Fin 2) * 1000 + 1 * (y 0).val = 1000 * t.val + (y 0).val; rw [(idx_w4 t).1]; omega
  | ⟨1, _⟩ => show win0_4.index t (1 : Fin 2) * 128 + 1 * (y 1).val = (y 1).val; rw [(idx_w4 t).2]; omega

end Cert.KernelWin

end
-- ==== Proof.KernelWinR5.lean ====
/-
  The block row window 5 of the kernel holds at grid point t: rows 1000·t … 1000·t + 999 of its array (the index map is
  decided over the 50 points).
-/
import proofs.«112616_j74217034875541_2_alg».proof.Proof.PatchedFrameKernelIdeal
import proofs.«112616_j74217034875541_2_alg».proof.Proof.KernelBlock
import Idealize.ShloMosaic.Lib.Pipeline.Value

import proofs.«112616_j74217034875541_2_alg».proof.Proof.KernelWinR4

noncomputable section

namespace Cert.KernelWin

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.GenP Cert.RowNet Cert.Lift Cert.KernelBlock

variable (m : (ℓ : Loc nD τ sig) → Buf (Elt Ideal) ℓ)

theorem idx_w5 : ∀ t : Fin cfg0.N, win0_5.index t (0 : Fin 2) = t.val ∧ win0_5.index t (1 : Fin 2) = 0 :=
  (by decide +kernel : ∀ t : Fin grid0.N, _)

theorem iblk_w5 (c : Dev nD) (t : Fin cfg0.N) (A : Mat 50000 128)
    (h : V m c (Pipeline.arrRef spec0 5) = (cv A : S50000x128.Idx → EReal)) :
    (iblk m c 5 t : S1000x128.Idx → EReal) = cv (blockOf t.val (lt50 t) A) := by
  funext y
  unfold iblk
  rw [h, View.read_apply]
  refine congrArg (fun k => ((A k : ℝ) : EReal)) ?_
  funext a
  apply Fin.ext
  match a with
  | ⟨0, _⟩ => show win0_5.index t (0 : Fin 2) * 1000 + 1 * (y 0).val = 1000 * t.val + (y 0).val; rw [(idx_w5 t).1]; omega
  | ⟨1, _⟩ => show win0_5.index t (1 : Fin 2) * 128 + 1 * (y 1).val = (y 1).val; rw [(idx_w5 t).2]; omega

end Cert.KernelWin

end
-- ==== Proof.KernelWin0.lean ====
/-
  The block window 6 of the kernel holds at a grid point: its whole array (the index map is decided over the 50 points).
-/
import proofs.«112616_j74217034875541_2_alg».proof.Proof.PatchedFrameKernelIdeal
import proofs.«112616_j74217034875541_2_alg».proof.Proof.KernelBlock
import Idealize.ShloMosaic.Lib.Pipeline.Value

import proofs.«112616_j74217034875541_2_alg».proof.Proof.KernelWinR5

noncomputable section

namespace Cert.KernelWin

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.GenP Cert.RowNet Cert.Lift Cert.KernelBlock

variable (m : (ℓ : Loc nD τ sig) → Buf (Elt Ideal) ℓ)

theorem idx_w6 : ∀ t : Fin cfg0.N, win0_6.index t (0 : Fin 2) = 0 ∧ win0_6.index t (1 : Fin 2) = 0 :=
  (by decide +kernel : ∀ t : Fin grid0.N, _)

theorem iblk_w6 (c : Dev nD) (t : Fin cfg0.N) (A : Mat 128 256)
    (h : (V m c main_arg11 : S128x256.Idx → EReal) = cv A) :
    (iblk m c 6 t : S128x256.Idx → EReal) = cv (A) := by
  funext y
  unfold iblk
  rw [View.read_apply]
  show (V m c main_arg11 : S128x256.Idx → EReal) _ = _
  rw [h]
  refine congrArg (fun k => ((A k : ℝ) : EReal)) ?_
  funext a
  apply Fin.ext
  match a with
  | ⟨0, _⟩ => show win0_6.index t (0 : Fin 2) * 128 + 1 * (y 0).val = (y 0).val; rw [(idx_w6 t).1]; omega
  | ⟨1, _⟩ => show win0_6.index t (1 : Fin 2) * 256 + 1 * (y 1).val = (y 1).val; rw [(idx_w6 t).2]; omega

end Cert.KernelWin

end
-- ==== Proof.KernelWin1.lean ====
/-
  The block windows 7 … 13 of the kernel hold at a grid point: for a row window, rows 1000·t … 1000·t + 999 of its
  array; for a weight window, its whole array (the index map is decided over the 50 points).
-/
import proofs.«112616_j74217034875541_2_alg».proof.Proof.PatchedFrameKernelIdeal
import proofs.«112616_j74217034875541_2_alg».proof.Proof.KernelBlock
import Idealize.ShloMosaic.Lib.Pipeline.Value

import proofs.«112616_j74217034875541_2_alg».proof.Proof.KernelWin0

noncomputable section

namespace Cert.KernelWin

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.GenP Cert.RowNet Cert.Lift Cert.KernelBlock

variable (m : (ℓ : Loc nD τ sig) → Buf (Elt Ideal) ℓ)

theorem idx_w7 : ∀ t : Fin cfg0.N, win0_7.index t (0 : Fin 1) = 0 :=
  (by decide +kernel : ∀ t : Fin grid0.N, _)

theorem iblk_w7 (c : Dev nD) (t : Fin cfg0.N) (A : Vec1 256)
    (h : (V m c main_arg12 : S256.Idx → EReal) = cv A) :
    (iblk m c 7 t : S256.Idx → EReal) = cv (A) := by
  funext y
  unfold iblk
  rw [View.read_apply]
  show (V m c main_arg12 : S256.Idx → EReal) _ = _
  rw [h]
  refine congrArg (fun k => ((A k : ℝ) : EReal)) ?_
  funext a
  apply Fin.ext
  match a with
  | ⟨0, _⟩ => show win0_7.index t (0 : Fin 1) * 256 + 1 * (y 0).val = (y 0).val; rw [idx_w7 t]; omega

theorem idx_w8 : ∀ t : Fin cfg0.N, win0_8.index t (0 : Fin 2) = 0 ∧ win0_8.index t (1 : Fin 2) = 0 :=
  (by decide +kernel : ∀ t : Fin grid0.N, _)

theorem iblk_w8 (c : Dev nD) (t : Fin cfg0.N) (A : Mat 256 128)
    (h : (V m c main_arg13 : S256x128.Idx → EReal) = cv A) :
    (iblk m c 8 t : S256x128.Idx → EReal) = cv (A) := by
  funext y
  unfold iblk
  rw [View.read_apply]
  show (V m c main_arg13 : S256x128.Idx → EReal) _ = _
  rw [h]
  refine congrArg (fun k => ((A k : ℝ) : EReal)) ?_
  funext a
  apply Fin.ext
  match a with
  | ⟨0, _⟩ => show win0_8.index t (0 : Fin 2) * 256 + 1 * (y 0).val = (y 0).val; rw [(idx_w8 t).1]; omega
  | ⟨1, _⟩ => show win0_8.index t (1 : Fin 2) * 128 + 1 * (y 1).val = (y 1).val; rw [(idx_w8 t).2]; omega

theorem idx_w9 : ∀ t : Fin cfg0.N, win0_9.index t (0 : Fin 1) = 0 :=
  (by decide +kernel : ∀ t : Fin grid0.N, _)

theorem iblk_w9 (c : Dev nD) (t : Fin cfg0.N) (A : Vec1 128)
    (h : (V m c main_arg14 : S128.Idx → EReal) = cv A) :
    (iblk m c 9 t : S128.Idx → EReal) = cv (A) := by
  funext y
  unfold iblk
  rw [View.read_apply]
  show (V m c main_arg14 : S128.Idx → EReal) _ = _
  rw [h]
  refine congrArg (fun k => ((A k : ℝ) : EReal)) ?_
  funext a
  apply Fin.ext
  match a with
  | ⟨0, _⟩ => show win0_9.index t (0 : Fin 1) * 128 + 1 * (y 0).val = (y 0).val; rw [idx_w9 t]; omega

theorem idx_w10 : ∀ t : Fin cfg0.N, win0_10.index t (0 : Fin 2) = 0 ∧ win0_10.index t (1 : Fin 2) = 0 :=
  (by decide +kernel : ∀ t : Fin grid0.N, _)

theorem iblk_w10 (c : Dev nD) (t : Fin cfg0.N) (A : Mat 128 256)
    (h : (V m c main_arg15 : S128x256.Idx → EReal) = cv A) :
    (iblk m c 10 t : S128x256.Idx → EReal) = cv (A) := by
  funext y
  unfold iblk
  rw [View.read_apply]
  show (V m c main_arg15 : S128x256.Idx → EReal) _ = _
  rw [h]
  refine congrArg (fun k => ((A k : ℝ) : EReal)) ?_
  funext a
  apply Fin.ext
  match a with
  | ⟨0, _⟩ => show win0_10.index t (0 : Fin 2) * 128 + 1 * (y 0).val = (y 0).val; rw [(idx_w10 t).1]; omega
  | ⟨1, _⟩ => show win0_10.index t (1 : Fin 2) * 256 + 1 * (y 1).val = (y 1).val; rw [(idx_w10 t).2]; omega

theorem idx_w11 : ∀ t : Fin cfg0.N, win0_11.index t (0 : Fin 1) = 0 :=
  (by decide +kernel : ∀ t : Fin grid0.N, _)

theorem iblk_w11 (c : Dev nD) (t : Fin cfg0.N) (A : Vec1 256)
    (h : (V m c main_arg16 : S256.Idx → EReal) = cv A) :
    (iblk m c 11 t : S256.Idx → EReal) = cv (A) := by
  funext y
  unfold iblk
  rw [View.read_apply]
  show (V m c main_arg16 : S256.Idx → EReal) _ = _
  rw [h]
  refine congrArg (fun k => ((A k : ℝ) : EReal)) ?_
  funext a
  apply Fin.ext
  match a with
  | ⟨0, _⟩ => show win0_11.index t (0 : Fin 1) * 256 + 1 * (y 0).val = (y 0).val; rw [idx_w11 t]; omega

theorem idx_w12 : ∀ t : Fin cfg0.N, win0_12.index t (0 : Fin 2) = 0 ∧ win0_12.index t (1 : Fin 2) = 0 :=
  (by decide +kernel : ∀ t : Fin grid0.N, _)

theorem iblk_w12 (c : Dev nD) (t : Fin cfg0.N) (A : Mat 256 128)
    (h : (V m c main_arg17 : S256x128.Idx → EReal) = cv A) :
    (iblk m c 12 t : S256x128.Idx → EReal) = cv (A) := by
  funext y
  unfold iblk
  rw [View.read_apply]
  show (V m c main_arg17 : S256x128.Idx → EReal) _ = _
  rw [h]
  refine congrArg (fun k => ((A k : ℝ) : EReal)) ?_
  funext a
  apply Fin.ext
  match a with
  | ⟨0, _⟩ => show win0_12.index t (0 : Fin 2) * 256 + 1 * (y 0).val = (y 0).val; rw [(idx_w12 t).1]; omega
  | ⟨1, _⟩ => show win0_12.index t (1 : Fin 2) * 128 + 1 * (y 1).val = (y 1).val; rw [(idx_w12 t).2]; omega

theorem idx_w13 : ∀ t : Fin cfg0.N, win0_13.index t (0 : Fin 1) = 0 :=
  (by decide +kernel : ∀ t : Fin grid0.N, _)

theorem iblk_w13 (c : Dev nD) (t : Fin cfg0.N) (A : Vec1 128)
    (h : (V m c main_arg18 : S128.Idx → EReal) = cv A) :
    (iblk m c 13 t : S128.Idx → EReal) = cv (A) := by
  funext y
  unfold iblk
  rw [View.read_apply]
  show (V m c main_arg18 : S128.Idx → EReal) _ = _
  rw [h]
  refine congrArg (fun k => ((A k : ℝ) : EReal)) ?_
  funext a
  apply Fin.ext
  match a with
  | ⟨0, _⟩ => show win0_13.index t (0 : Fin 1) * 128 + 1 * (y 0).val = (y 0).val; rw [idx_w13 t]; omega

end Cert.KernelWin

end
-- ==== Proof.KernelWin2.lean ====
/-
  The block windows 14 … 20 of the kernel hold at a grid point: for a row window, rows 1000·t … 1000·t + 999 of its
  array; for a weight window, its whole array (the index map is decided over the 50 points).
-/
import proofs.«112616_j74217034875541_2_alg».proof.Proof.PatchedFrameKernelIdeal
import proofs.«112616_j74217034875541_2_alg».proof.Proof.KernelBlock
import Idealize.ShloMosaic.Lib.Pipeline.Value

import proofs.«112616_j74217034875541_2_alg».proof.Proof.KernelWin1

noncomputable section

namespace Cert.KernelWin

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.GenP Cert.RowNet Cert.Lift Cert.KernelBlock

variable (m : (ℓ : Loc nD τ sig) → Buf (Elt Ideal) ℓ)

theorem idx_w14 : ∀ t : Fin cfg0.N, win0_14.index t (0 : Fin 2) = 0 ∧ win0_14.index t (1 : Fin 2) = 0 :=
  (by decide +kernel : ∀ t : Fin grid0.N, _)

theorem iblk_w14 (c : Dev nD) (t : Fin cfg0.N) (A : Mat 32 256)
    (h : (V m c main_arg31 : S32x256.Idx → EReal) = cv A) :
    (iblk m c 14 t : S32x256.Idx → EReal) = cv (A) := by
  funext y
  unfold iblk
  rw [View.read_apply]
  show (V m c main_arg31 : S32x256.Idx → EReal) _ = _
  rw [h]
  refine congrArg (fun k => ((A k : ℝ) : EReal)) ?_
  funext a
  apply Fin.ext
  match a with
  | ⟨0, _⟩ => show win0_14.index t (0 : Fin 2) * 32 + 1 * (y 0).val = (y 0).val; rw [(idx_w14 t).1]; omega
  | ⟨1, _⟩ => show win0_14.index t (1 : Fin 2) * 256 + 1 * (y 1).val = (y 1).val; rw [(idx_w14 t).2]; omega

theorem idx_w15 : ∀ t : Fin cfg0.N, win0_15.index t (0 : Fin 1) = 0 :=
  (by decide +kernel : ∀ t : Fin grid0.N, _)

theorem iblk_w15 (c : Dev nD) (t : Fin cfg0.N) (A : Vec1 256)
    (h : (V m c main_arg32 : S256.Idx → EReal) = cv A) :
    (iblk m c 15 t : S256.Idx → EReal) = cv (A) := by
  funext y
  unfold iblk
  rw [View.read_apply]
  show (V m c main_arg32 : S256.Idx → EReal) _ = _
  rw [h]
  refine congrArg (fun k => ((A k : ℝ) : EReal)) ?_
  funext a
  apply Fin.ext
  match a with
  | ⟨0, _⟩ => show win0_15.index t (0 : Fin 1) * 256 + 1 * (y 0).val = (y 0).val; rw [idx_w15 t]; omega

theorem idx_w16 : ∀ t : Fin cfg0.N, win0_16.index t (0 : Fin 2) = 0 ∧ win0_16.index t (1 : Fin 2) = 0 :=
  (by decide +kernel : ∀ t : Fin grid0.N, _)

theorem iblk_w16 (c : Dev nD) (t : Fin cfg0.N) (A : Mat 256 32)
    (h : (V m c main_arg33 : S256x32.Idx → EReal) = cv A) :
    (iblk m c 16 t : S256x32.Idx → EReal) = cv (A) := by
  funext y
  unfold iblk
  rw [View.read_apply]
  show (V m c main_arg33 : S256x32.Idx → EReal) _ = _
  rw [h]
  refine congrArg (fun k => ((A k : ℝ) : EReal)) ?_
  funext a
  apply Fin.ext
  match a with
  | ⟨0, _⟩ => show win0_16.index t (0 : Fin 2) * 256 + 1 * (y 0).val = (y 0).val; rw [(idx_w16 t).1]; omega
  | ⟨1, _⟩ => show win0_16.index t (1 : Fin 2) * 32 + 1 * (y 1).val = (y 1).val; rw [(idx_w16 t).2]; omega

theorem idx_w17 : ∀ t : Fin cfg0.N, win0_17.index t (0 : Fin 1) = 0 :=
  (by decide +kernel : ∀ t : Fin grid0.N, _)

theorem iblk_w17 (c : Dev nD) (t : Fin cfg0.N) (A : Vec1 32)
    (h : (V m c main_arg34 : S32.Idx → EReal) = cv A) :
    (iblk m c 17 t : S32.Idx → EReal) = cv (A) := by
  funext y
  unfold iblk
  rw [View.read_apply]
  show (V m c main_arg34 : S32.Idx → EReal) _ = _
  rw [h]
  refine congrArg (fun k => ((A k : ℝ) : EReal)) ?_
  funext a
  apply Fin.ext
  match a with
  | ⟨0, _⟩ => show win0_17.index t (0 : Fin 1) * 32 + 1 * (y 0).val = (y 0).val; rw [idx_w17 t]; omega

theorem idx_w18 : ∀ t : Fin cfg0.N, win0_18.index t (0 : Fin 2) = 0 ∧ win0_18.index t (1 : Fin 2) = 0 :=
  (by decide +kernel : ∀ t : Fin grid0.N, _)

theorem iblk_w18 (c : Dev nD) (t : Fin cfg0.N) (A : Mat 64 256)
    (h : (V m c main_arg27 : S64x256.Idx → EReal) = cv A) :
    (iblk m c 18 t : S64x256.Idx → EReal) = cv (A) := by
  funext y
  unfold iblk
  rw [View.read_apply]
  show (V m c main_arg27 : S64x256.Idx → EReal) _ = _
  rw [h]
  refine congrArg (fun k => ((A k : ℝ) : EReal)) ?_
  funext a
  apply Fin.ext
  match a with
  | ⟨0, _⟩ => show win0_18.index t (0 : Fin 2) * 64 + 1 * (y 0).val = (y 0).val; rw [(idx_w18 t).1]; omega
  | ⟨1, _⟩ => show win0_18.index t (1 : Fin 2) * 256 + 1 * (y 1).val = (y 1).val; rw [(idx_w18 t).2]; omega

theorem idx_w19 : ∀ t : Fin cfg0.N, win0_19.index t (0 : Fin 1) = 0 :=
  (by decide +kernel : ∀ t : Fin grid0.N, _)

theorem iblk_w19 (c : Dev nD) (t : Fin cfg0.N) (A : Vec1 256)
    (h : (V m c main_arg28 : S256.Idx → EReal) = cv A) :
    (iblk m c 19 t : S256.Idx → EReal) = cv (A) := by
  funext y
  unfold iblk
  rw [View.read_apply]
  show (V m c main_arg28 : S256.Idx → EReal) _ = _
  rw [h]
  refine congrArg (fun k => ((A k : ℝ) : EReal)) ?_
  funext a
  apply Fin.ext
  match a with
  | ⟨0, _⟩ => show win0_19.index t (0 : Fin 1) * 256 + 1 * (y 0).val = (y 0).val; rw [idx_w19 t]; omega

theorem idx_w20 : ∀ t : Fin cfg0.N, win0_20.index t (0 : Fin 2) = 0 ∧ win0_20.index t (1 : Fin 2) = 0 :=
  (by decide +kernel : ∀ t : Fin grid0.N, _)

theorem iblk_w20 (c : Dev nD) (t : Fin cfg0.N) (A : Mat 256 64)
    (h : (V m c main_arg29 : S256x64.Idx → EReal) = cv A) :
    (iblk m c 20 t : S256x64.Idx → EReal) = cv (A) := by
  funext y
  unfold iblk
  rw [View.read_apply]
  show (V m c main_arg29 : S256x64.Idx → EReal) _ = _
  rw [h]
  refine congrArg (fun k => ((A k : ℝ) : EReal)) ?_
  funext a
  apply Fin.ext
  match a with
  | ⟨0, _⟩ => show win0_20.index t (0 : Fin 2) * 256 + 1 * (y 0).val = (y 0).val; rw [(idx_w20 t).1]; omega
  | ⟨1, _⟩ => show win0_20.index t (1 : Fin 2) * 64 + 1 * (y 1).val = (y 1).val; rw [(idx_w20 t).2]; omega

end Cert.KernelWin

end
-- ==== Proof.KernelWin3.lean ====
/-
  The block windows 21 … 27 of the kernel hold at a grid point: for a row window, rows 1000·t … 1000·t + 999 of its
  array; for a weight window, its whole array (the index map is decided over the 50 points).
-/
import proofs.«112616_j74217034875541_2_alg».proof.Proof.PatchedFrameKernelIdeal
import proofs.«112616_j74217034875541_2_alg».proof.Proof.KernelBlock
import Idealize.ShloMosaic.Lib.Pipeline.Value

import proofs.«112616_j74217034875541_2_alg».proof.Proof.KernelWin2

noncomputable section

namespace Cert.KernelWin

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.GenP Cert.RowNet Cert.Lift Cert.KernelBlock

variable (m : (ℓ : Loc nD τ sig) → Buf (Elt Ideal) ℓ)

theorem idx_w21 : ∀ t : Fin cfg0.N, win0_21.index t (0 : Fin 1) = 0 :=
  (by decide +kernel : ∀ t : Fin grid0.N, _)

theorem iblk_w21 (c : Dev nD) (t : Fin cfg0.N) (A : Vec1 64)
    (h : (V m c main_arg30 : S64.Idx → EReal) = cv A) :
    (iblk m c 21 t : S64.Idx → EReal) = cv (A) := by
  funext y
  unfold iblk
  rw [View.read_apply]
  show (V m c main_arg30 : S64.Idx → EReal) _ = _
  rw [h]
  refine congrArg (fun k => ((A k : ℝ) : EReal)) ?_
  funext a
  apply Fin.ext
  match a with
  | ⟨0, _⟩ => show win0_21.index t (0 : Fin 1) * 64 + 1 * (y 0).val = (y 0).val; rw [idx_w21 t]; omega

theorem idx_w22 : ∀ t : Fin cfg0.N, win0_22.index t (0 : Fin 2) = 0 ∧ win0_22.index t (1 : Fin 2) = 0 :=
  (by decide +kernel : ∀ t : Fin grid0.N, _)

theorem iblk_w22 (c : Dev nD) (t : Fin cfg0.N) (A : Mat 128 256)
    (h : (V m c main_arg19 : S128x256.Idx → EReal) = cv A) :
    (iblk m c 22 t : S128x256.Idx → EReal) = cv (A) := by
  funext y
  unfold iblk
  rw [View.read_apply]
  show (V m c main_arg19 : S128x256.Idx → EReal) _ = _
  rw [h]
  refine congrArg (fun k => ((A k : ℝ) : EReal)) ?_
  funext a
  apply Fin.ext
  match a with
  | ⟨0, _⟩ => show win0_22.index t (0 : Fin 2) * 128 + 1 * (y 0).val = (y 0).val; rw [(idx_w22 t).1]; omega
  | ⟨1, _⟩ => show win0_22.index t (1 : Fin 2) * 256 + 1 * (y 1).val = (y 1).val; rw [(idx_w22 t).2]; omega

theorem idx_w23 : ∀ t : Fin cfg0.N, win0_23.index t (0 : Fin 1) = 0 :=
  (by decide +kernel : ∀ t : Fin grid0.N, _)

theorem iblk_w23 (c : Dev nD) (t : Fin cfg0.N) (A : Vec1 256)
    (h : (V m c main_arg20 : S256.Idx → EReal) = cv A) :
    (iblk m c 23 t : S256.Idx → EReal) = cv (A) := by
  funext y
  unfold iblk
  rw [View.read_apply]
  show (V m c main_arg20 : S256.Idx → EReal) _ = _
  rw [h]
  refine congrArg (fun k => ((A k : ℝ) : EReal)) ?_
  funext a
  apply Fin.ext
  match a with
  | ⟨0, _⟩ => show win0_23.index t (0 : Fin 1) * 256 + 1 * (y 0).val = (y 0).val; rw [idx_w23 t]; omega

theorem idx_w24 : ∀ t : Fin cfg0.N, win0_24.index t (0 : Fin 2) = 0 ∧ win0_24.index t (1 : Fin 2) = 0 :=
  (by decide +kernel : ∀ t : Fin grid0.N, _)

theorem iblk_w24 (c : Dev nD) (t : Fin cfg0.N) (A : Mat 256 128)
    (h : (V m c main_arg21 : S256x128.Idx → EReal) = cv A) :
    (iblk m c 24 t : S256x128.Idx → EReal) = cv (A) := by
  funext y
  unfold iblk
  rw [View.read_apply]
  show (V m c main_arg21 : S256x128.Idx → EReal) _ = _
  rw [h]
  refine congrArg (fun k => ((A k : ℝ) : EReal)) ?_
  funext a
  apply Fin.ext
  match a with
  | ⟨0, _⟩ => show win0_24.index t (0 : Fin 2) * 256 + 1 * (y 0).val = (y 0).val; rw [(idx_w24 t).1]; omega
  | ⟨1, _⟩ => show win0_24.index t (1 : Fin 2) * 128 + 1 * (y 1).val = (y 1).val; rw [(idx_w24 t).2]; omega

theorem idx_w25 : ∀ t : Fin cfg0.N, win0_25.index t (0 : Fin 1) = 0 :=
  (by decide +kernel : ∀ t : Fin grid0.N, _)

theorem iblk_w25 (c : Dev nD) (t : Fin cfg0.N) (A : Vec1 128)
    (h : (V m c main_arg22 : S128.Idx → EReal) = cv A) :
    (iblk m c 25 t : S128.Idx → EReal) = cv (A) := by
  funext y
  unfold iblk
  rw [View.read_apply]
  show (V m c main_arg22 : S128.Idx → EReal) _ = _
  rw [h]
  refine congrArg (fun k => ((A k : ℝ) : EReal)) ?_
  funext a
  apply Fin.ext
  match a with
  | ⟨0, _⟩ => show win0_25.index t (0 : Fin 1) * 128 + 1 * (y 0).val = (y 0).val; rw [idx_w25 t]; omega

theorem idx_w26 : ∀ t : Fin cfg0.N, win0_26.index t (0 : Fin 2) = 0 ∧ win0_26.index t (1 : Fin 2) = 0 :=
  (by decide +kernel : ∀ t : Fin grid0.N, _)

theorem iblk_w26 (c : Dev nD) (t : Fin cfg0.N) (A : Mat 128 256)
    (h : (V m c main_arg23 : S128x256.Idx → EReal) = cv A) :
    (iblk m c 26 t : S128x256.Idx → EReal) = cv (A) := by
  funext y
  unfold iblk
  rw [View.read_apply]
  show (V m c main_arg23 : S128x256.Idx → EReal) _ = _
  rw [h]
  refine congrArg (fun k => ((A k : ℝ) : EReal)) ?_
  funext a
  apply Fin.ext
  match a with
  | ⟨0, _⟩ => show win0_26.index t (0 : Fin 2) * 128 + 1 * (y 0).val = (y 0).val; rw [(idx_w26 t).1]; omega
  | ⟨1, _⟩ => show win0_26.index t (1 : Fin 2) * 256 + 1 * (y 1).val = (y 1).val; rw [(idx_w26 t).2]; omega

theorem idx_w27 : ∀ t : Fin cfg0.N, win0_27.index t (0 : Fin 1) = 0 :=
  (by decide +kernel : ∀ t : Fin grid0.N, _)

theorem iblk_w27 (c : Dev nD) (t : Fin cfg0.N) (A : Vec1 256)
    (h : (V m c main_arg24 : S256.Idx → EReal) = cv A) :
    (iblk m c 27 t : S256.Idx → EReal) = cv (A) := by
  funext y
  unfold iblk
  rw [View.read_apply]
  show (V m c main_arg24 : S256.Idx → EReal) _ = _
  rw [h]
  refine congrArg (fun k => ((A k : ℝ) : EReal)) ?_
  funext a
  apply Fin.ext
  match a with
  | ⟨0, _⟩ => show win0_27.index t (0 : Fin 1) * 256 + 1 * (y 0).val = (y 0).val; rw [idx_w27 t]; omega

end Cert.KernelWin

end
-- ==== Proof.KernelWin4.lean ====
/-
  The block windows 28 … 34 of the kernel hold at a grid point: for a row window, rows 1000·t … 1000·t + 999 of its
  array; for a weight window, its whole array (the index map is decided over the 50 points).
-/
import proofs.«112616_j74217034875541_2_alg».proof.Proof.PatchedFrameKernelIdeal
import proofs.«112616_j74217034875541_2_alg».proof.Proof.KernelBlock
import Idealize.ShloMosaic.Lib.Pipeline.Value

import proofs.«112616_j74217034875541_2_alg».proof.Proof.KernelWin3

noncomputable section

namespace Cert.KernelWin

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.GenP Cert.RowNet Cert.Lift Cert.KernelBlock

variable (m : (ℓ : Loc nD τ sig) → Buf (Elt Ideal) ℓ)

theorem idx_w28 : ∀ t : Fin cfg0.N, win0_28.index t (0 : Fin 2) = 0 ∧ win0_28.index t (1 : Fin 2) = 0 :=
  (by decide +kernel : ∀ t : Fin grid0.N, _)

theorem iblk_w28 (c : Dev nD) (t : Fin cfg0.N) (A : Mat 256 128)
    (h : (V m c main_arg25 : S256x128.Idx → EReal) = cv A) :
    (iblk m c 28 t : S256x128.Idx → EReal) = cv (A) := by
  funext y
  unfold iblk
  rw [View.read_apply]
  show (V m c main_arg25 : S256x128.Idx → EReal) _ = _
  rw [h]
  refine congrArg (fun k => ((A k : ℝ) : EReal)) ?_
  funext a
  apply Fin.ext
  match a with
  | ⟨0, _⟩ => show win0_28.index t (0 : Fin 2) * 256 + 1 * (y 0).val = (y 0).val; rw [(idx_w28 t).1]; omega
  | ⟨1, _⟩ => show win0_28.index t (1 : Fin 2) * 128 + 1 * (y 1).val = (y 1).val; rw [(idx_w28 t).2]; omega

theorem idx_w29 : ∀ t : Fin cfg0.N, win0_29.index t (0 : Fin 1) = 0 :=
  (by decide +kernel : ∀ t : Fin grid0.N, _)

theorem iblk_w29 (c : Dev nD) (t : Fin cfg0.N) (A : Vec1 128)
    (h : (V m c main_arg26 : S128.Idx → EReal) = cv A) :
    (iblk m c 29 t : S128.Idx → EReal) = cv (A) := by
  funext y
  unfold iblk
  rw [View.read_apply]
  show (V m c main_arg26 : S128.Idx → EReal) _ = _
  rw [h]
  refine congrArg (fun k => ((A k : ℝ) : EReal)) ?_
  funext a
  apply Fin.ext
  match a with
  | ⟨0, _⟩ => show win0_29.index t (0 : Fin 1) * 128 + 1 * (y 0).val = (y 0).val; rw [idx_w29 t]; omega

theorem idx_w30 : ∀ t : Fin cfg0.N, win0_30.index t (0 : Fin 2) = 0 ∧ win0_30.index t (1 : Fin 2) = 0 :=
  (by decide +kernel : ∀ t : Fin grid0.N, _)

theorem iblk_w30 (c : Dev nD) (t : Fin cfg0.N) (A : Mat 128 256)
    (h : (V m c main_v47 : S128x256.Idx → EReal) = cv A) :
    (iblk m c 30 t : S128x256.Idx → EReal) = cv (A) := by
  funext y
  unfold iblk
  rw [View.read_apply]
  show (V m c main_v47 : S128x256.Idx → EReal) _ = _
  rw [h]
  refine congrArg (fun k => ((A k : ℝ) : EReal)) ?_
  funext a
  apply Fin.ext
  match a with
  | ⟨0, _⟩ => show win0_30.index t (0 : Fin 2) * 128 + 1 * (y 0).val = (y 0).val; rw [(idx_w30 t).1]; omega
  | ⟨1, _⟩ => show win0_30.index t (1 : Fin 2) * 256 + 1 * (y 1).val = (y 1).val; rw [(idx_w30 t).2]; omega

theorem idx_w31 : ∀ t : Fin cfg0.N, win0_31.index t (0 : Fin 2) = 0 ∧ win0_31.index t (1 : Fin 2) = 0 :=
  (by decide +kernel : ∀ t : Fin grid0.N, _)

theorem iblk_w31 (c : Dev nD) (t : Fin cfg0.N) (A : Mat 128 256)
    (h : (V m c main_v48 : S128x256.Idx → EReal) = cv A) :
    (iblk m c 31 t : S128x256.Idx → EReal) = cv (A) := by
  funext y
  unfold iblk
  rw [View.read_apply]
  show (V m c main_v48 : S128x256.Idx → EReal) _ = _
  rw [h]
  refine congrArg (fun k => ((A k : ℝ) : EReal)) ?_
  funext a
  apply Fin.ext
  match a with
  | ⟨0, _⟩ => show win0_31.index t (0 : Fin 2) * 128 + 1 * (y 0).val = (y 0).val; rw [(idx_w31 t).1]; omega
  | ⟨1, _⟩ => show win0_31.index t (1 : Fin 2) * 256 + 1 * (y 1).val = (y 1).val; rw [(idx_w31 t).2]; omega

theorem idx_w32 : ∀ t : Fin cfg0.N, win0_32.index t (0 : Fin 2) = 0 ∧ win0_32.index t (1 : Fin 2) = 0 :=
  (by decide +kernel : ∀ t : Fin grid0.N, _)

theorem iblk_w32 (c : Dev nD) (t : Fin cfg0.N) (A : Mat 64 256)
    (h : (V m c main_v49 : S64x256.Idx → EReal) = cv A) :
    (iblk m c 32 t : S64x256.Idx → EReal) = cv (A) := by
  funext y
  unfold iblk
  rw [View.read_apply]
  show (V m c main_v49 : S64x256.Idx → EReal) _ = _
  rw [h]
  refine congrArg (fun k => ((A k : ℝ) : EReal)) ?_
  funext a
  apply Fin.ext
  match a with
  | ⟨0, _⟩ => show win0_32.index t (0 : Fin 2) * 64 + 1 * (y 0).val = (y 0).val; rw [(idx_w32 t).1]; omega
  | ⟨1, _⟩ => show win0_32.index t (1 : Fin 2) * 256 + 1 * (y 1).val = (y 1).val; rw [(idx_w32 t).2]; omega

theorem idx_w33 : ∀ t : Fin cfg0.N, win0_33.index t (0 : Fin 2) = 0 ∧ win0_33.index t (1 : Fin 2) = 0 :=
  (by decide +kernel : ∀ t : Fin grid0.N, _)

theorem iblk_w33 (c : Dev nD) (t : Fin cfg0.N) (A : Mat 32 256)
    (h : (V m c main_v50 : S32x256.Idx → EReal) = cv A) :
    (iblk m c 33 t : S32x256.Idx → EReal) = cv (A) := by
  funext y
  unfold iblk
  rw [View.read_apply]
  show (V m c main_v50 : S32x256.Idx → EReal) _ = _
  rw [h]
  refine congrArg (fun k => ((A k : ℝ) : EReal)) ?_
  funext a
  apply Fin.ext
  match a with
  | ⟨0, _⟩ => show win0_33.index t (0 : Fin 2) * 32 + 1 * (y 0).val = (y 0).val; rw [(idx_w33 t).1]; omega
  | ⟨1, _⟩ => show win0_33.index t (1 : Fin 2) * 256 + 1 * (y 1).val = (y 1).val; rw [(idx_w33 t).2]; omega

theorem idx_w34 : ∀ t : Fin cfg0.N, win0_34.index t (0 : Fin 2) = 0 ∧ win0_34.index t (1 : Fin 2) = 0 :=
  (by decide +kernel : ∀ t : Fin grid0.N, _)

theorem iblk_w34 (c : Dev nD) (t : Fin cfg0.N) (A : Mat 128 256)
    (h : (V m c main_v51 : S128x256.Idx → EReal) = cv A) :
    (iblk m c 34 t : S128x256.Idx → EReal) = cv (A) := by
  funext y
  unfold iblk
  rw [View.read_apply]
  show (V m c main_v51 : S128x256.Idx → EReal) _ = _
  rw [h]
  refine congrArg (fun k => ((A k : ℝ) : EReal)) ?_
  funext a
  apply Fin.ext
  match a with
  | ⟨0, _⟩ => show win0_34.index t (0 : Fin 2) * 128 + 1 * (y 0).val = (y 0).val; rw [(idx_w34 t).1]; omega
  | ⟨1, _⟩ => show win0_34.index t (1 : Fin 2) * 256 + 1 * (y 1).val = (y 1).val; rw [(idx_w34 t).2]; omega

end Cert.KernelWin

end
-- ==== Proof.KernelWin5.lean ====
/-
  The block windows 35 … 41 of the kernel hold at a grid point: for a row window, rows 1000·t … 1000·t + 999 of its
  array; for a weight window, its whole array (the index map is decided over the 50 points).
-/
import proofs.«112616_j74217034875541_2_alg».proof.Proof.PatchedFrameKernelIdeal
import proofs.«112616_j74217034875541_2_alg».proof.Proof.KernelBlock
import Idealize.ShloMosaic.Lib.Pipeline.Value

import proofs.«112616_j74217034875541_2_alg».proof.Proof.KernelWin4

noncomputable section

namespace Cert.KernelWin

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.GenP Cert.RowNet Cert.Lift Cert.KernelBlock

variable (m : (ℓ : Loc nD τ sig) → Buf (Elt Ideal) ℓ)

theorem idx_w35 : ∀ t : Fin cfg0.N, win0_35.index t (0 : Fin 2) = 0 ∧ win0_35.index t (1 : Fin 2) = 0 :=
  (by decide +kernel : ∀ t : Fin grid0.N, _)

theorem iblk_w35 (c : Dev nD) (t : Fin cfg0.N) (A : Mat 128 256)
    (h : (V m c main_v52 : S128x256.Idx → EReal) = cv A) :
    (iblk m c 35 t : S128x256.Idx → EReal) = cv (A) := by
  funext y
  unfold iblk
  rw [View.read_apply]
  show (V m c main_v52 : S128x256.Idx → EReal) _ = _
  rw [h]
  refine congrArg (fun k => ((A k : ℝ) : EReal)) ?_
  funext a
  apply Fin.ext
  match a with
  | ⟨0, _⟩ => show win0_35.index t (0 : Fin 2) * 128 + 1 * (y 0).val = (y 0).val; rw [(idx_w35 t).1]; omega
  | ⟨1, _⟩ => show win0_35.index t (1 : Fin 2) * 256 + 1 * (y 1).val = (y 1).val; rw [(idx_w35 t).2]; omega

theorem idx_w36 : ∀ t : Fin cfg0.N, win0_36.index t (0 : Fin 1) = 0 :=
  (by decide +kernel : ∀ t : Fin grid0.N, _)

theorem iblk_w36 (c : Dev nD) (t : Fin cfg0.N) (A : Vec1 256)
    (h : (V m c main_arg36 : S256.Idx → EReal) = cv A) :
    (iblk m c 36 t : S256.Idx → EReal) = cv (A) := by
  funext y
  unfold iblk
  rw [View.read_apply]
  show (V m c main_arg36 : S256.Idx → EReal) _ = _
  rw [h]
  refine congrArg (fun k => ((A k : ℝ) : EReal)) ?_
  funext a
  apply Fin.ext
  match a with
  | ⟨0, _⟩ => show win0_36.index t (0 : Fin 1) * 256 + 1 * (y 0).val = (y 0).val; rw [idx_w36 t]; omega

theorem idx_w37 : ∀ t : Fin cfg0.N, win0_37.index t (0 : Fin 2) = 0 ∧ win0_37.index t (1 : Fin 2) = 0 :=
  (by decide +kernel : ∀ t : Fin grid0.N, _)

theorem iblk_w37 (c : Dev nD) (t : Fin cfg0.N) (A : Mat 256 128)
    (h : (V m c main_arg37 : S256x128.Idx → EReal) = cv A) :
    (iblk m c 37 t : S256x128.Idx → EReal) = cv (A) := by
  funext y
  unfold iblk
  rw [View.read_apply]
  show (V m c main_arg37 : S256x128.Idx → EReal) _ = _
  rw [h]
  refine congrArg (fun k => ((A k : ℝ) : EReal)) ?_
  funext a
  apply Fin.ext
  match a with
  | ⟨0, _⟩ => show win0_37.index t (0 : Fin 2) * 256 + 1 * (y 0).val = (y 0).val; rw [(idx_w37 t).1]; omega
  | ⟨1, _⟩ => show win0_37.index t (1 : Fin 2) * 128 + 1 * (y 1).val = (y 1).val; rw [(idx_w37 t).2]; omega

theorem idx_w38 : ∀ t : Fin cfg0.N, win0_38.index t (0 : Fin 1) = 0 :=
  (by decide +kernel : ∀ t : Fin grid0.N, _)

theorem iblk_w38 (c : Dev nD) (t : Fin cfg0.N) (A : Vec1 128)
    (h : (V m c main_arg38 : S128.Idx → EReal) = cv A) :
    (iblk m c 38 t : S128.Idx → EReal) = cv (A) := by
  funext y
  unfold iblk
  rw [View.read_apply]
  show (V m c main_arg38 : S128.Idx → EReal) _ = _
  rw [h]
  refine congrArg (fun k => ((A k : ℝ) : EReal)) ?_
  funext a
  apply Fin.ext
  match a with
  | ⟨0, _⟩ => show win0_38.index t (0 : Fin 1) * 128 + 1 * (y 0).val = (y 0).val; rw [idx_w38 t]; omega

theorem idx_w39 : ∀ t : Fin cfg0.N, win0_39.index t (0 : Fin 2) = 0 ∧ win0_39.index t (1 : Fin 2) = 0 :=
  (by decide +kernel : ∀ t : Fin grid0.N, _)

theorem iblk_w39 (c : Dev nD) (t : Fin cfg0.N) (A : Mat 128 128)
    (h : (V m c main_arg39 : S128x128.Idx → EReal) = cv A) :
    (iblk m c 39 t : S128x128.Idx → EReal) = cv (A) := by
  funext y
  unfold iblk
  rw [View.read_apply]
  show (V m c main_arg39 : S128x128.Idx → EReal) _ = _
  rw [h]
  refine congrArg (fun k => ((A k : ℝ) : EReal)) ?_
  funext a
  apply Fin.ext
  match a with
  | ⟨0, _⟩ => show win0_39.index t (0 : Fin 2) * 128 + 1 * (y 0).val = (y 0).val; rw [(idx_w39 t).1]; omega
  | ⟨1, _⟩ => show win0_39.index t (1 : Fin 2) * 128 + 1 * (y 1).val = (y 1).val; rw [(idx_w39 t).2]; omega

theorem idx_w40 : ∀ t : Fin cfg0.N, win0_40.index t (0 : Fin 1) = 0 :=
  (by decide +kernel : ∀ t : Fin grid0.N, _)

theorem iblk_w40 (c : Dev nD) (t : Fin cfg0.N) (A : Vec1 128)
    (h : (V m c main_arg40 : S128.Idx → EReal) = cv A) :
    (iblk m c 40 t : S128.Idx → EReal) = cv (A) := by
  funext y
  unfold iblk
  rw [View.read_apply]
  show (V m c main_arg40 : S128.Idx → EReal) _ = _
  rw [h]
  refine congrArg (fun k => ((A k : ℝ) : EReal)) ?_
  funext a
  apply Fin.ext
  match a with
  | ⟨0, _⟩ => show win0_40.index t (0 : Fin 1) * 128 + 1 * (y 0).val = (y 0).val; rw [idx_w40 t]; omega

theorem idx_w41 : ∀ t : Fin cfg0.N, win0_41.index t (0 : Fin 2) = t.val ∧ win0_41.index t (1 : Fin 2) = 0 :=
  (by decide +kernel : ∀ t : Fin grid0.N, _)

end Cert.KernelWin

end
-- ==== Proof.KernelValue.lean ====
/-
  The kernel's output array after the run, as one function of the arrays the region finds.

  The grid has 50 points. At point t the output window and the six row windows hold rows 1000·t … 1000·t + 999 of their
  arrays, and every weight window holds its whole array. So what point t writes back is the network's row function applied
  to rows 1000·t … of the six inputs: rows 1000·t … of ONE function of the whole arrays, the same for every t. The 50
  blocks tile the 50000 rows (row r lies in the block of point r / 1000), so after the run the array holds that function.
-/
import proofs.«112616_j74217034875541_2_alg».proof.Proof.PatchedFrameKernelIdeal
import proofs.«112616_j74217034875541_2_alg».proof.Proof.KernelBlock
import proofs.«112616_j74217034875541_2_alg».proof.Proof.KernelWin
import proofs.«112616_j74217034875541_2_alg».proof.Proof.KernelWinR0
import proofs.«112616_j74217034875541_2_alg».proof.Proof.KernelWinR1
import proofs.«112616_j74217034875541_2_alg».proof.Proof.KernelWinR2
import proofs.«112616_j74217034875541_2_alg».proof.Proof.KernelWinR3
import proofs.«112616_j74217034875541_2_alg».proof.Proof.KernelWinR4
import proofs.«112616_j74217034875541_2_alg».proof.Proof.KernelWinR5
import proofs.«112616_j74217034875541_2_alg».proof.Proof.KernelWin0
import proofs.«112616_j74217034875541_2_alg».proof.Proof.KernelWin1
import proofs.«112616_j74217034875541_2_alg».proof.Proof.KernelWin2
import proofs.«112616_j74217034875541_2_alg».proof.Proof.KernelWin3
import proofs.«112616_j74217034875541_2_alg».proof.Proof.KernelWin4
import proofs.«112616_j74217034875541_2_alg».proof.Proof.KernelWin5
import Idealize.ShloMosaic.Lib.Pipeline.Value

noncomputable section

namespace Cert.KernelValue

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.GenP Cert.RowNet Cert.Lift Cert.KernelBlock Cert.KernelWin

variable (m : (ℓ : Loc nD τ sig) → Buf (Elt Ideal) ℓ)

/-! ## The whole array -/

/-- The network applied to every row of the six input arrays. -/
def netFull (A0 : Mat 50000 128) (A1 : Mat 50000 128) (A2 : Mat 50000 32) (A3 : Mat 50000 64) (A4 : Mat 50000 128) (A5 : Mat 50000 128) (A6 : Mat 128 256) (A7 : Vec1 256) (A8 : Mat 256 128) (A9 : Vec1 128) (A10 : Mat 128 256) (A11 : Vec1 256) (A12 : Mat 256 128) (A13 : Vec1 128) (A14 : Mat 32 256) (A15 : Vec1 256) (A16 : Mat 256 32) (A17 : Vec1 32) (A18 : Mat 64 256) (A19 : Vec1 256) (A20 : Mat 256 64) (A21 : Vec1 64) (A22 : Mat 128 256) (A23 : Vec1 256) (A24 : Mat 256 128) (A25 : Vec1 128) (A26 : Mat 128 256) (A27 : Vec1 256) (A28 : Mat 256 128) (A29 : Vec1 128) (A30 : Mat 128 256) (A31 : Mat 128 256) (A32 : Mat 64 256) (A33 : Mat 32 256) (A34 : Mat 128 256) (A35 : Mat 128 256) (A36 : Vec1 256) (A37 : Mat 256 128) (A38 : Vec1 128) (A39 : Mat 128 128) (A40 : Vec1 128) : Mat 50000 128 :=
  fun i => rowOut (rowOf A0 (i 0)) (rowOf A1 (i 0)) (rowOf A2 (i 0)) (rowOf A3 (i 0)) (rowOf A4 (i 0)) (rowOf A5 (i 0))
    A6 A7 A8 A9 A10 A11 A12 A13 A14 A15 A16 A17 A18 A19 A20 A21 A22 A23 A24 A25 A26 A27 A28 A29 A30 A31 A32 A33 A34 A35 A36 A37 A38 A39 A40 (i 1)

/-- The buffer the body leaves is its one store's value: the stored value of the loaded blocks (every load and the store
    go through the whole rectangle). -/
theorem out_eq_payload (x0 : Vec Ideal S1000x128 .f32) (x1 : Vec Ideal S1000x128 .f32) (x2 : Vec Ideal S1000x32 .f32) (x3 : Vec Ideal S1000x64 .f32) (x4 : Vec Ideal S1000x128 .f32) (x5 : Vec Ideal S1000x128 .f32) (x6 : Vec Ideal S128x256 .f32) (x7 : Vec Ideal S256 .f32) (x8 : Vec Ideal S256x128 .f32) (x9 : Vec Ideal S128 .f32) (x10 : Vec Ideal S128x256 .f32) (x11 : Vec Ideal S256 .f32) (x12 : Vec Ideal S256x128 .f32) (x13 : Vec Ideal S128 .f32) (x14 : Vec Ideal S32x256 .f32) (x15 : Vec Ideal S256 .f32) (x16 : Vec Ideal S256x32 .f32) (x17 : Vec Ideal S32 .f32) (x18 : Vec Ideal S64x256 .f32) (x19 : Vec Ideal S256 .f32) (x20 : Vec Ideal S256x64 .f32) (x21 : Vec Ideal S64 .f32) (x22 : Vec Ideal S128x256 .f32) (x23 : Vec Ideal S256 .f32) (x24 : Vec Ideal S256x128 .f32) (x25 : Vec Ideal S128 .f32) (x26 : Vec Ideal S128x256 .f32) (x27 : Vec Ideal S256 .f32) (x28 : Vec Ideal S256x128 .f32) (x29 : Vec Ideal S128 .f32) (x30 : Vec Ideal S128x256 .f32) (x31 : Vec Ideal S128x256 .f32) (x32 : Vec Ideal S64x256 .f32) (x33 : Vec Ideal S32x256 .f32) (x34 : Vec Ideal S128x256 .f32) (x35 : Vec Ideal S128x256 .f32) (x36 : Vec Ideal S256 .f32) (x37 : Vec Ideal S256x128 .f32) (x38 : Vec Ideal S128 .f32) (x39 : Vec Ideal S128x128 .f32) (x40 : Vec Ideal S128 .f32) :
    out0_41 x0 x1 x2 x3 x4 x5 x6 x7 x8 x9 x10 x11 x12 x13 x14 x15 x16 x17 x18 x19 x20 x21 x22 x23 x24 x25 x26 x27 x28 x29 x30 x31 x32 x33 x34 x35 x36 x37 x38 x39 x40 = payload x0 x1 x2 x3 x4 x5 x6 x7 x8 x9 x10 x11 x12 x13 x14 x15 x16 x17 x18 x19 x20 x21 x22 x23 x24 x25 x26 x27 x28 x29 x30 x31 x32 x33 x34 x35 x36 x37 x38 x39 x40 := by
  unfold out0_41
  rw [View.canon_unit_zero hz2]
  simp only [View.ld_unit_zero (S := S1000x128) hz2, View.ld_unit_zero (S := S128x256) hz2, View.ld_unit_zero (S := S256) hz1,
    View.ld_unit_zero (S := S256x128) hz2, View.ld_unit_zero (S := S128) hz1, View.ld_unit_zero (S := S1000x32) hz2,
    View.ld_unit_zero (S := S32x256) hz2, View.ld_unit_zero (S := S256x32) hz2, View.ld_unit_zero (S := S32) hz1,
    View.ld_unit_zero (S := S1000x64) hz2, View.ld_unit_zero (S := S64x256) hz2, View.ld_unit_zero (S := S256x64) hz2,
    View.ld_unit_zero (S := S64) hz1, View.ld_unit_zero (S := S128x128) hz2]
  rfl

/-- Row p of rows 1000·t … of a matrix is its row 1000·t + p. -/
theorem rowOf_blockOf {D : ℕ} (t : ℕ) (ht : t < 50) (A : Mat 50000 D) (p : Fin 1000) :
    rowOf (blockOf t ht A) p = rowOf A ⟨1000 * t + p.val, by have := p.isLt; omega⟩ := rfl

set_option maxHeartbeats 4000000 in
/-- What the body leaves in the output buffer at point t: the network on the blocks of rows 1000·t …. -/
theorem after41_eq (c : Dev nD) (t : Fin cfg0.N) (A0 : Mat 50000 128) (A1 : Mat 50000 128) (A2 : Mat 50000 32) (A3 : Mat 50000 64) (A4 : Mat 50000 128) (A5 : Mat 50000 128) (A6 : Mat 128 256) (A7 : Vec1 256) (A8 : Mat 256 128) (A9 : Vec1 128) (A10 : Mat 128 256) (A11 : Vec1 256) (A12 : Mat 256 128) (A13 : Vec1 128) (A14 : Mat 32 256) (A15 : Vec1 256) (A16 : Mat 256 32) (A17 : Vec1 32) (A18 : Mat 64 256) (A19 : Vec1 256) (A20 : Mat 256 64) (A21 : Vec1 64) (A22 : Mat 128 256) (A23 : Vec1 256) (A24 : Mat 256 128) (A25 : Vec1 128) (A26 : Mat 128 256) (A27 : Vec1 256) (A28 : Mat 256 128) (A29 : Vec1 128) (A30 : Mat 128 256) (A31 : Mat 128 256) (A32 : Mat 64 256) (A33 : Mat 32 256) (A34 : Mat 128 256) (A35 : Mat 128 256) (A36 : Vec1 256) (A37 : Mat 256 128) (A38 : Vec1 128) (A39 : Mat 128 128) (A40 : Vec1 128)
    (h0 : (V m c main_arg0 : S50000x128.Idx → EReal) = cv A0)
    (h1 : (V m c main_v6 : S50000x128.Idx → EReal) = cv A1)
    (h2 : V m c (Pipeline.arrRef spec0 2) = (cv A2 : S50000x32.Idx → EReal))
    (h3 : V m c (Pipeline.arrRef spec0 3) = (cv A3 : S50000x64.Idx → EReal))
    (h4 : V m c (Pipeline.arrRef spec0 4) = (cv A4 : S50000x128.Idx → EReal))
    (h5 : V m c (Pipeline.arrRef spec0 5) = (cv A5 : S50000x128.Idx → EReal))
    (h6 : (V m c main_arg11 : S128x256.Idx → EReal) = cv A6)
    (h7 : (V m c main_arg12 : S256.Idx → EReal) = cv A7)
    (h8 : (V m c main_arg13 : S256x128.Idx → EReal) = cv A8)
    (h9 : (V m c main_arg14 : S128.Idx → EReal) = cv A9)
    (h10 : (V m c main_arg15 : S128x256.Idx → EReal) = cv A10)
    (h11 : (V m c main_arg16 : S256.Idx → EReal) = cv A11)
    (h12 : (V m c main_arg17 : S256x128.Idx → EReal) = cv A12)
    (h13 : (V m c main_arg18 : S128.Idx → EReal) = cv A13)
    (h14 : (V m c main_arg31 : S32x256.Idx → EReal) = cv A14)
    (h15 : (V m c main_arg32 : S256.Idx → EReal) = cv A15)
    (h16 : (V m c main_arg33 : S256x32.Idx → EReal) = cv A16)
    (h17 : (V m c main_arg34 : S32.Idx → EReal) = cv A17)
    (h18 : (V m c main_arg27 : S64x256.Idx → EReal) = cv A18)
    (h19 : (V m c main_arg28 : S256.Idx → EReal) = cv A19)
    (h20 : (V m c main_arg29 : S256x64.Idx → EReal) = cv A20)
    (h21 : (V m c main_arg30 : S64.Idx → EReal) = cv A21)
    (h22 : (V m c main_arg19 : S128x256.Idx → EReal) = cv A22)
    (h23 : (V m c main_arg20 : S256.Idx → EReal) = cv A23)
    (h24 : (V m c main_arg21 : S256x128.Idx → EReal) = cv A24)
    (h25 : (V m c main_arg22 : S128.Idx → EReal) = cv A25)
    (h26 : (V m c main_arg23 : S128x256.Idx → EReal) = cv A26)
    (h27 : (V m c main_arg24 : S256.Idx → EReal) = cv A27)
    (h28 : (V m c main_arg25 : S256x128.Idx → EReal) = cv A28)
    (h29 : (V m c main_arg26 : S128.Idx → EReal) = cv A29)
    (h30 : (V m c main_v47 : S128x256.Idx → EReal) = cv A30)
    (h31 : (V m c main_v48 : S128x256.Idx → EReal) = cv A31)
    (h32 : (V m c main_v49 : S64x256.Idx → EReal) = cv A32)
    (h33 : (V m c main_v50 : S32x256.Idx → EReal) = cv A33)
    (h34 : (V m c main_v51 : S128x256.Idx → EReal) = cv A34)
    (h35 : (V m c main_v52 : S128x256.Idx → EReal) = cv A35)
    (h36 : (V m c main_arg36 : S256.Idx → EReal) = cv A36)
    (h37 : (V m c main_arg37 : S256x128.Idx → EReal) = cv A37)
    (h38 : (V m c main_arg38 : S128.Idx → EReal) = cv A38)
    (h39 : (V m c main_arg39 : S128x128.Idx → EReal) = cv A39)
    (h40 : (V m c main_arg40 : S128.Idx → EReal) = cv A40) :
    ((dats m 0 c).after 41 t : S1000x128.Idx → EReal) = cv (netV (blockOf t.val (lt50 t) A0) (blockOf t.val (lt50 t) A1) (blockOf t.val (lt50 t) A2) (blockOf t.val (lt50 t) A3) (blockOf t.val (lt50 t) A4) (blockOf t.val (lt50 t) A5) A6 A7 A8 A9 A10 A11 A12 A13 A14 A15 A16 A17 A18 A19 A20 A21 A22 A23 A24 A25 A26 A27 A28 A29 A30 A31 A32 A33 A34 A35 A36 A37 A38 A39 A40) := by
  rw [after0_41, out_eq_payload]
  rw [iblk_w0 m c t A0 h0, iblk_w1 m c t A1 h1, iblk_w2 m c t A2 h2, iblk_w3 m c t A3 h3, iblk_w4 m c t A4 h4, iblk_w5 m c t A5 h5, iblk_w6 m c t A6 h6, iblk_w7 m c t A7 h7, iblk_w8 m c t A8 h8, iblk_w9 m c t A9 h9, iblk_w10 m c t A10 h10, iblk_w11 m c t A11 h11, iblk_w12 m c t A12 h12, iblk_w13 m c t A13 h13]
  rw [iblk_w14 m c t A14 h14, iblk_w15 m c t A15 h15, iblk_w16 m c t A16 h16, iblk_w17 m c t A17 h17, iblk_w18 m c t A18 h18, iblk_w19 m c t A19 h19, iblk_w20 m c t A20 h20, iblk_w21 m c t A21 h21, iblk_w22 m c t A22 h22, iblk_w23 m c t A23 h23, iblk_w24 m c t A24 h24, iblk_w25 m c t A25 h25, iblk_w26 m c t A26 h26, iblk_w27 m c t A27 h27]
  rw [iblk_w28 m c t A28 h28, iblk_w29 m c t A29 h29, iblk_w30 m c t A30 h30, iblk_w31 m c t A31 h31, iblk_w32 m c t A32 h32, iblk_w33 m c t A33 h33, iblk_w34 m c t A34 h34, iblk_w35 m c t A35 h35, iblk_w36 m c t A36 h36, iblk_w37 m c t A37 h37, iblk_w38 m c t A38 h38, iblk_w39 m c t A39 h39, iblk_w40 m c t A40 h40]
  exact payload_cv (blockOf t.val (lt50 t) A0) (blockOf t.val (lt50 t) A1) (blockOf t.val (lt50 t) A2) (blockOf t.val (lt50 t) A3) (blockOf t.val (lt50 t) A4) (blockOf t.val (lt50 t) A5) A6 A7 A8 A9 A10 A11 A12 A13 A14 A15 A16 A17 A18 A19 A20 A21 A22 A23 A24 A25 A26 A27 A28 A29 A30 A31 A32 A33 A34 A35 A36 A37 A38 A39 A40

set_option maxHeartbeats 4000000 in
/-- What point t writes back is rows 1000·t … of the network applied to the whole arrays. -/
theorem flushed_eq (c : Dev nD) (t : Fin cfg0.N) (A0 : Mat 50000 128) (A1 : Mat 50000 128) (A2 : Mat 50000 32) (A3 : Mat 50000 64) (A4 : Mat 50000 128) (A5 : Mat 50000 128) (A6 : Mat 128 256) (A7 : Vec1 256) (A8 : Mat 256 128) (A9 : Vec1 128) (A10 : Mat 128 256) (A11 : Vec1 256) (A12 : Mat 256 128) (A13 : Vec1 128) (A14 : Mat 32 256) (A15 : Vec1 256) (A16 : Mat 256 32) (A17 : Vec1 32) (A18 : Mat 64 256) (A19 : Vec1 256) (A20 : Mat 256 64) (A21 : Vec1 64) (A22 : Mat 128 256) (A23 : Vec1 256) (A24 : Mat 256 128) (A25 : Vec1 128) (A26 : Mat 128 256) (A27 : Vec1 256) (A28 : Mat 256 128) (A29 : Vec1 128) (A30 : Mat 128 256) (A31 : Mat 128 256) (A32 : Mat 64 256) (A33 : Mat 32 256) (A34 : Mat 128 256) (A35 : Mat 128 256) (A36 : Vec1 256) (A37 : Mat 256 128) (A38 : Vec1 128) (A39 : Mat 128 128) (A40 : Vec1 128)
    (h0 : (V m c main_arg0 : S50000x128.Idx → EReal) = cv A0)
    (h1 : (V m c main_v6 : S50000x128.Idx → EReal) = cv A1)
    (h2 : V m c (Pipeline.arrRef spec0 2) = (cv A2 : S50000x32.Idx → EReal))
    (h3 : V m c (Pipeline.arrRef spec0 3) = (cv A3 : S50000x64.Idx → EReal))
    (h4 : V m c (Pipeline.arrRef spec0 4) = (cv A4 : S50000x128.Idx → EReal))
    (h5 : V m c (Pipeline.arrRef spec0 5) = (cv A5 : S50000x128.Idx → EReal))
    (h6 : (V m c main_arg11 : S128x256.Idx → EReal) = cv A6)
    (h7 : (V m c main_arg12 : S256.Idx → EReal) = cv A7)
    (h8 : (V m c main_arg13 : S256x128.Idx → EReal) = cv A8)
    (h9 : (V m c main_arg14 : S128.Idx → EReal) = cv A9)
    (h10 : (V m c main_arg15 : S128x256.Idx → EReal) = cv A10)
    (h11 : (V m c main_arg16 : S256.Idx → EReal) = cv A11)
    (h12 : (V m c main_arg17 : S256x128.Idx → EReal) = cv A12)
    (h13 : (V m c main_arg18 : S128.Idx → EReal) = cv A13)
    (h14 : (V m c main_arg31 : S32x256.Idx → EReal) = cv A14)
    (h15 : (V m c main_arg32 : S256.Idx → EReal) = cv A15)
    (h16 : (V m c main_arg33 : S256x32.Idx → EReal) = cv A16)
    (h17 : (V m c main_arg34 : S32.Idx → EReal) = cv A17)
    (h18 : (V m c main_arg27 : S64x256.Idx → EReal) = cv A18)
    (h19 : (V m c main_arg28 : S256.Idx → EReal) = cv A19)
    (h20 : (V m c main_arg29 : S256x64.Idx → EReal) = cv A20)
    (h21 : (V m c main_arg30 : S64.Idx → EReal) = cv A21)
    (h22 : (V m c main_arg19 : S128x256.Idx → EReal) = cv A22)
    (h23 : (V m c main_arg20 : S256.Idx → EReal) = cv A23)
    (h24 : (V m c main_arg21 : S256x128.Idx → EReal) = cv A24)
    (h25 : (V m c main_arg22 : S128.Idx → EReal) = cv A25)
    (h26 : (V m c main_arg23 : S128x256.Idx → EReal) = cv A26)
    (h27 : (V m c main_arg24 : S256.Idx → EReal) = cv A27)
    (h28 : (V m c main_arg25 : S256x128.Idx → EReal) = cv A28)
    (h29 : (V m c main_arg26 : S128.Idx → EReal) = cv A29)
    (h30 : (V m c main_v47 : S128x256.Idx → EReal) = cv A30)
    (h31 : (V m c main_v48 : S128x256.Idx → EReal) = cv A31)
    (h32 : (V m c main_v49 : S64x256.Idx → EReal) = cv A32)
    (h33 : (V m c main_v50 : S32x256.Idx → EReal) = cv A33)
    (h34 : (V m c main_v51 : S128x256.Idx → EReal) = cv A34)
    (h35 : (V m c main_v52 : S128x256.Idx → EReal) = cv A35)
    (h36 : (V m c main_arg36 : S256.Idx → EReal) = cv A36)
    (h37 : (V m c main_arg37 : S256x128.Idx → EReal) = cv A37)
    (h38 : (V m c main_arg38 : S128.Idx → EReal) = cv A38)
    (h39 : (V m c main_arg39 : S128x128.Idx → EReal) = cv A39)
    (h40 : (V m c main_arg40 : S128.Idx → EReal) = cv A40) :
    (dats m 0 c).flushed 41 t = ((cfg0.win 41).blk t).view.read (Elt Ideal) (cv (netFull A0 A1 A2 A3 A4 A5 A6 A7 A8 A9 A10 A11 A12 A13 A14 A15 A16 A17 A18 A19 A20 A21 A22 A23 A24 A25 A26 A27 A28 A29 A30 A31 A32 A33 A34 A35 A36 A37 A38 A39 A40)) := by
  show (cfg0.win 41).cut (grid0.coords t) ((dats m 0 c).after 41 t) = _
  rw [after41_eq m c t A0 A1 A2 A3 A4 A5 A6 A7 A8 A9 A10 A11 A12 A13 A14 A15 A16 A17 A18 A19 A20 A21 A22 A23 A24 A25 A26 A27 A28 A29 A30 A31 A32 A33 A34 A35 A36 A37 A38 A39 A40 h0 h1 h2 h3 h4 h5 h6 h7 h8 h9 h10 h11 h12 h13 h14 h15 h16 h17 h18 h19 h20 h21 h22 h23 h24 h25 h26 h27 h28 h29 h30 h31 h32 h33 h34 h35 h36 h37 h38 h39 h40]
  funext y
  rw [View.read_apply]
  obtain ⟨p, q, rfl⟩ : ∃ (p : Fin 1000) (q : Fin 128), y = ix2 p q := ⟨y 0, y 1, eq_ix2 y⟩
  have he : ((cfg0.win 41).blk t).view.emb (ix2 p q)
      = (ix2 (⟨1000 * t.val + p.val, by have := lt50 t; have := p.isLt; omega⟩ : Fin 50000) q : S50000x128.Idx) := by
    funext a
    apply Fin.ext
    match a with
    | ⟨0, _⟩ => show win0_41.index t (0 : Fin 2) * 1000 + 1 * p.val = 1000 * t.val + p.val; rw [(idx_w41 t).1]; omega
    | ⟨1, _⟩ => show win0_41.index t (1 : Fin 2) * 128 + 1 * q.val = q.val; rw [(idx_w41 t).2]; omega
  show ((netV (blockOf t.val (lt50 t) A0) (blockOf t.val (lt50 t) A1) (blockOf t.val (lt50 t) A2) (blockOf t.val (lt50 t) A3) (blockOf t.val (lt50 t) A4) (blockOf t.val (lt50 t) A5) A6 A7 A8 A9 A10 A11 A12 A13 A14 A15 A16 A17 A18 A19 A20 A21 A22 A23 A24 A25 A26 A27 A28 A29 A30 A31 A32 A33 A34 A35 A36 A37 A38 A39 A40 (ix2 p q) : ℝ) : EReal) = cv (netFull A0 A1 A2 A3 A4 A5 A6 A7 A8 A9 A10 A11 A12 A13 A14 A15 A16 A17 A18 A19 A20 A21 A22 A23 A24 A25 A26 A27 A28 A29 A30 A31 A32 A33 A34 A35 A36 A37 A38 A39 A40) _
  rw [he, netV_apply, rowOf_blockOf, rowOf_blockOf, rowOf_blockOf, rowOf_blockOf, rowOf_blockOf, rowOf_blockOf]
  rfl

/-- An index of the output array is in point t's block iff each coordinate is in the block's range. -/
theorem mem_blk41 (t : Fin cfg0.N) (i : S50000x128.Idx) :
    i ∈ ((cfg0.win 41).blk t).view.set ↔ ∀ a : Fin 2, win0_41.index t a * S1000x128.size a ≤ (i a).val ∧ (i a).val < win0_41.index t a * S1000x128.size a + S1000x128.size a := by
  show i ∈ ((View.whole main_v53).slice (win0_41.rect t)).set ↔ _
  rw [View.set_slice_whole, Rect.mem_set_unit]
  exact Iff.rfl

/-- Every block of rows is some point's. -/
theorem idx_onto41 : ∀ q0 : Fin 50, ∃ t : Fin cfg0.N, win0_41.index t = ![q0.val, 0] :=
  (by decide +kernel : ∀ q0 : Fin 50, ∃ t : Fin grid0.N, win0_41.index t = ![q0.val, 0])

/-- The 50 blocks cover the output array: row r is in the block of point r / 1000. -/
theorem cover41 (i : S50000x128.Idx) : ∃ t : Fin cfg0.N, (cfg0.win 41).flush t = true ∧ i ∈ ((cfg0.win 41).blk t).view.set := by
  have hi0 : (i 0).val < 50000 := (i 0).isLt
  have hi1 : (i 1).val < 128 := (i 1).isLt
  obtain ⟨t, ht⟩ := idx_onto41 ⟨(i 0).val / 1000, by omega⟩
  have q0 : win0_41.index t (0 : Fin 2) = (i 0).val / 1000 := congrFun ht 0
  have q1 : win0_41.index t (1 : Fin 2) = 0 := congrFun ht 1
  refine ⟨t, flush0_41 t, ?_⟩
  rw [mem_blk41]
  intro a
  match a with
  | ⟨0, _⟩ => show win0_41.index t (0 : Fin 2) * 1000 ≤ (i 0).val ∧ (i 0).val < win0_41.index t (0 : Fin 2) * 1000 + 1000; omega
  | ⟨1, _⟩ => show win0_41.index t (1 : Fin 2) * 128 ≤ (i 1).val ∧ (i 1).val < win0_41.index t (1 : Fin 2) * 128 + 128; omega

set_option maxHeartbeats 4000000 in
/-- After the run the output array holds the network applied to every row of the arrays the region finds. -/
theorem final41 (c : Dev nD) (A0 : Mat 50000 128) (A1 : Mat 50000 128) (A2 : Mat 50000 32) (A3 : Mat 50000 64) (A4 : Mat 50000 128) (A5 : Mat 50000 128) (A6 : Mat 128 256) (A7 : Vec1 256) (A8 : Mat 256 128) (A9 : Vec1 128) (A10 : Mat 128 256) (A11 : Vec1 256) (A12 : Mat 256 128) (A13 : Vec1 128) (A14 : Mat 32 256) (A15 : Vec1 256) (A16 : Mat 256 32) (A17 : Vec1 32) (A18 : Mat 64 256) (A19 : Vec1 256) (A20 : Mat 256 64) (A21 : Vec1 64) (A22 : Mat 128 256) (A23 : Vec1 256) (A24 : Mat 256 128) (A25 : Vec1 128) (A26 : Mat 128 256) (A27 : Vec1 256) (A28 : Mat 256 128) (A29 : Vec1 128) (A30 : Mat 128 256) (A31 : Mat 128 256) (A32 : Mat 64 256) (A33 : Mat 32 256) (A34 : Mat 128 256) (A35 : Mat 128 256) (A36 : Vec1 256) (A37 : Mat 256 128) (A38 : Vec1 128) (A39 : Mat 128 128) (A40 : Vec1 128)
    (h0 : (V m c main_arg0 : S50000x128.Idx → EReal) = cv A0)
    (h1 : (V m c main_v6 : S50000x128.Idx → EReal) = cv A1)
    (h2 : V m c (Pipeline.arrRef spec0 2) = (cv A2 : S50000x32.Idx → EReal))
    (h3 : V m c (Pipeline.arrRef spec0 3) = (cv A3 : S50000x64.Idx → EReal))
    (h4 : V m c (Pipeline.arrRef spec0 4) = (cv A4 : S50000x128.Idx → EReal))
    (h5 : V m c (Pipeline.arrRef spec0 5) = (cv A5 : S50000x128.Idx → EReal))
    (h6 : (V m c main_arg11 : S128x256.Idx → EReal) = cv A6)
    (h7 : (V m c main_arg12 : S256.Idx → EReal) = cv A7)
    (h8 : (V m c main_arg13 : S256x128.Idx → EReal) = cv A8)
    (h9 : (V m c main_arg14 : S128.Idx → EReal) = cv A9)
    (h10 : (V m c main_arg15 : S128x256.Idx → EReal) = cv A10)
    (h11 : (V m c main_arg16 : S256.Idx → EReal) = cv A11)
    (h12 : (V m c main_arg17 : S256x128.Idx → EReal) = cv A12)
    (h13 : (V m c main_arg18 : S128.Idx → EReal) = cv A13)
    (h14 : (V m c main_arg31 : S32x256.Idx → EReal) = cv A14)
    (h15 : (V m c main_arg32 : S256.Idx → EReal) = cv A15)
    (h16 : (V m c main_arg33 : S256x32.Idx → EReal) = cv A16)
    (h17 : (V m c main_arg34 : S32.Idx → EReal) = cv A17)
    (h18 : (V m c main_arg27 : S64x256.Idx → EReal) = cv A18)
    (h19 : (V m c main_arg28 : S256.Idx → EReal) = cv A19)
    (h20 : (V m c main_arg29 : S256x64.Idx → EReal) = cv A20)
    (h21 : (V m c main_arg30 : S64.Idx → EReal) = cv A21)
    (h22 : (V m c main_arg19 : S128x256.Idx → EReal) = cv A22)
    (h23 : (V m c main_arg20 : S256.Idx → EReal) = cv A23)
    (h24 : (V m c main_arg21 : S256x128.Idx → EReal) = cv A24)
    (h25 : (V m c main_arg22 : S128.Idx → EReal) = cv A25)
    (h26 : (V m c main_arg23 : S128x256.Idx → EReal) = cv A26)
    (h27 : (V m c main_arg24 : S256.Idx → EReal) = cv A27)
    (h28 : (V m c main_arg25 : S256x128.Idx → EReal) = cv A28)
    (h29 : (V m c main_arg26 : S128.Idx → EReal) = cv A29)
    (h30 : (V m c main_v47 : S128x256.Idx → EReal) = cv A30)
    (h31 : (V m c main_v48 : S128x256.Idx → EReal) = cv A31)
    (h32 : (V m c main_v49 : S64x256.Idx → EReal) = cv A32)
    (h33 : (V m c main_v50 : S32x256.Idx → EReal) = cv A33)
    (h34 : (V m c main_v51 : S128x256.Idx → EReal) = cv A34)
    (h35 : (V m c main_v52 : S128x256.Idx → EReal) = cv A35)
    (h36 : (V m c main_arg36 : S256.Idx → EReal) = cv A36)
    (h37 : (V m c main_arg37 : S256x128.Idx → EReal) = cv A37)
    (h38 : (V m c main_arg38 : S128.Idx → EReal) = cv A38)
    (h39 : (V m c main_arg39 : S128x128.Idx → EReal) = cv A39)
    (h40 : (V m c main_arg40 : S128.Idx → EReal) = cv A40) :
    (dats m 0 c).arrAt 41 cfg0.N = cv (netFull A0 A1 A2 A3 A4 A5 A6 A7 A8 A9 A10 A11 A12 A13 A14 A15 A16 A17 A18 A19 A20 A21 A22 A23 A24 A25 A26 A27 A28 A29 A30 A31 A32 A33 A34 A35 A36 A37 A38 A39 A40) :=
  (dats m 0 c).arrAt_eq_of_cover 41 (cv (netFull A0 A1 A2 A3 A4 A5 A6 A7 A8 A9 A10 A11 A12 A13 A14 A15 A16 A17 A18 A19 A20 A21 A22 A23 A24 A25 A26 A27 A28 A29 A30 A31 A32 A33 A34 A35 A36 A37 A38 A39 A40))
    (fun t _ => flushed_eq m c t A0 A1 A2 A3 A4 A5 A6 A7 A8 A9 A10 A11 A12 A13 A14 A15 A16 A17 A18 A19 A20 A21 A22 A23 A24 A25 A26 A27 A28 A29 A30 A31 A32 A33 A34 A35 A36 A37 A38 A39 A40 h0 h1 h2 h3 h4 h5 h6 h7 h8 h9 h10 h11 h12 h13 h14 h15 h16 h17 h18 h19 h20 h21 h22 h23 h24 h25 h26 h27 h28 h29 h30 h31 h32 h33 h34 h35 h36 h37 h38 h39 h40) cover41

end Cert.KernelValue

end
-- ==== Proof.KernelHost.lean ====
/-
  What the region's computed input arrays hold when the region is entered.

  Before its one region the program gathers the item rows, gathers and sums the material, resource, predecessor and
  successor rows onto the operations, and cuts the joining layer's matrix into six bands of rows. The first five are
  the same expressions of the same arguments as the reference's stages; a band of rows cut out of a real matrix is
  "bandOf" of it.
-/
import proofs.«112616_j74217034875541_2_alg».proof.Proof.PatchedFrameKernelIdeal
import proofs.«112616_j74217034875541_2_alg».proof.Proof.Gen.ReferenceIdeal.Read
import proofs.«112616_j74217034875541_2_alg».proof.Proof.RowNet
import Idealize.ShloMosaic.Lib.Pipeline.Value
import Idealize.ShloMosaic.Lib.StableHlo.Run

set_option maxRecDepth 16384

noncomputable section

namespace Cert.KernelHost

open Cert.KernelIdeal Cert.KernelIdeal.Gen
open Idealize.ShloMosaic Idealize.ShloMosaic.TcCoe Idealize.ShloMosaic.ValueIdx Idealize.ShloMosaic.StableHlo
open Idealize.SL.Sem
open Cert.RowNet

/-- A block of consecutive rows cut out of a real matrix is the band of those rows. -/
theorem slice_band {T N : ℕ} (off K : ℕ) (hK : off + K ≤ T) (W : Mat T N)
    (h : (⟨2, ![T, N]⟩ : Shape).Slices ![off, 0] ⟨2, ![K, N]⟩) :
    extractStridedSlice (⟨2, ![K, N]⟩ : Shape) ![off, 0] (cv W) h = cv (bandOf off K hK W) := by
  funext j
  refine (extractStridedSlice_apply ![off, 0] (cv W) h j
    (ix2 ⟨off + (j 0).val, by have := (j 0).isLt; simp only [Matrix.cons_val_zero] at this; omega⟩ (j 1)) fun a => ?_).trans rfl
  match a with
  | ⟨0, _⟩ => rfl
  | ⟨1, _⟩ => exact (Nat.zero_add _).symm

/-- The same, of an array known to be that real matrix. -/
theorem slice_of_cv {T N : ℕ} (off K : ℕ) (hK : off + K ≤ T) (W : Mat T N)
    (h : (⟨2, ![T, N]⟩ : Shape).Slices ![off, 0] ⟨2, ![K, N]⟩) (x : (⟨2, ![T, N]⟩ : Shape).Idx → EReal) (hx : x = cv W) :
    extractStridedSlice (⟨2, ![K, N]⟩ : Shape) ![off, 0] x h = cv (bandOf off K hK W) := by
  subst hx; exact slice_band off K hK W h

variable (m : (ℓ : Loc nD τ sig) → Buf (Elt Ideal) ℓ) (c : Dev nD)

set_option maxHeartbeats 4000000 in
/-- The gathered item rows: window 1's array is the reference's stage of the same arguments. -/
theorem arr_w1 :
    (GenP.V m c main_v6 : S50000x128.Idx → EReal) =
      Cert.ReferenceIdeal.Read.val_main_v15 (F := Ideal) (m (c.tc.loc main_arg1)) (m (c.tc.loc main_arg4)) := by
  dsimp only [GenP.V, hostOps0]
  after_results_simp
  rfl

set_option maxHeartbeats 4000000 in
/-- The material rows gathered and summed onto the operations: window 2's array is the reference's stage of the same arguments. -/
theorem arr_w2 :
    (GenP.V m c main_v16 : S50000x32.Idx → EReal) =
      Cert.ReferenceIdeal.Read.val_main_v34 (F := Ideal) (m (c.tc.loc main_arg2)) (m (c.tc.loc main_arg7)) (m (c.tc.loc main_arg8)) := by
  dsimp only [GenP.V, hostOps0]
  after_results_simp
  rfl

set_option maxHeartbeats 4000000 in
/-- The resource rows gathered and summed onto the operations: window 3's array is the reference's stage of the same arguments. -/
theorem arr_w3 :
    (GenP.V m c main_v26 : S50000x64.Idx → EReal) =
      Cert.ReferenceIdeal.Read.val_main_v53 (F := Ideal) (m (c.tc.loc main_arg3)) (m (c.tc.loc main_arg5)) (m (c.tc.loc main_arg6)) := by
  dsimp only [GenP.V, hostOps0]
  after_results_simp
  rfl

set_option maxHeartbeats 4000000 in
/-- The predecessor rows gathered and summed onto the operations: window 4's array is the reference's stage of the same arguments. -/
theorem arr_w4 :
    (GenP.V m c main_v36 : S50000x128.Idx → EReal) =
      Cert.ReferenceIdeal.Read.val_main_v72 (F := Ideal) (m (c.tc.loc main_arg0)) (m (c.tc.loc main_arg9)) (m (c.tc.loc main_arg10)) := by
  dsimp only [GenP.V, hostOps0]
  after_results_simp
  rfl

set_option maxHeartbeats 4000000 in
/-- The successor rows gathered and summed onto the operations: window 5's array is the reference's stage of the same arguments. -/
theorem arr_w5 :
    (GenP.V m c main_v46 : S50000x128.Idx → EReal) =
      Cert.ReferenceIdeal.Read.val_main_v91 (F := Ideal) (m (c.tc.loc main_arg0)) (m (c.tc.loc main_arg9)) (m (c.tc.loc main_arg10)) := by
  dsimp only [GenP.V, hostOps0]
  after_results_simp
  rfl

set_option maxHeartbeats 4000000 in
/-- Window 30's array is the band of rows 0 … 127 of the joining layer's matrix. -/
theorem arr_w30 (W35 : Mat 608 256) (h35 : (m (c.tc.loc main_arg35) : S608x256.Idx → EReal) = cv W35) :
    (GenP.V m c main_v47 : S128x256.Idx → EReal) = cv (bandOf 0 128 (by norm_num) W35) := by
  dsimp only [GenP.V, hostOps0]
  after_results_simp
  exact slice_of_cv 0 128 _ W35 _ _ h35

set_option maxHeartbeats 4000000 in
/-- Window 31's array is the band of rows 128 … 255 of the joining layer's matrix. -/
theorem arr_w31 (W35 : Mat 608 256) (h35 : (m (c.tc.loc main_arg35) : S608x256.Idx → EReal) = cv W35) :
    (GenP.V m c main_v48 : S128x256.Idx → EReal) = cv (bandOf 128 128 (by norm_num) W35) := by
  dsimp only [GenP.V, hostOps0]
  after_results_simp
  exact slice_of_cv 128 128 _ W35 _ _ h35

set_option maxHeartbeats 4000000 in
/-- Window 32's array is the band of rows 256 … 319 of the joining layer's matrix. -/
theorem arr_w32 (W35 : Mat 608 256) (h35 : (m (c.tc.loc main_arg35) : S608x256.Idx → EReal) = cv W35) :
    (GenP.V m c main_v49 : S64x256.Idx → EReal) = cv (bandOf 256 64 (by norm_num) W35) := by
  dsimp only [GenP.V, hostOps0]
  after_results_simp
  exact slice_of_cv 256 64 _ W35 _ _ h35

set_option maxHeartbeats 4000000 in
/-- Window 33's array is the band of rows 320 … 351 of the joining layer's matrix. -/
theorem arr_w33 (W35 : Mat 608 256) (h35 : (m (c.tc.loc main_arg35) : S608x256.Idx → EReal) = cv W35) :
    (GenP.V m c main_v50 : S32x256.Idx → EReal) = cv (bandOf 320 32 (by norm_num) W35) := by
  dsimp only [GenP.V, hostOps0]
  after_results_simp
  exact slice_of_cv 320 32 _ W35 _ _ h35

set_option maxHeartbeats 4000000 in
/-- Window 34's array is the band of rows 352 … 479 of the joining layer's matrix. -/
theorem arr_w34 (W35 : Mat 608 256) (h35 : (m (c.tc.loc main_arg35) : S608x256.Idx → EReal) = cv W35) :
    (GenP.V m c main_v51 : S128x256.Idx → EReal) = cv (bandOf 352 128 (by norm_num) W35) := by
  dsimp only [GenP.V, hostOps0]
  after_results_simp
  exact slice_of_cv 352 128 _ W35 _ _ h35

set_option maxHeartbeats 4000000 in
/-- Window 35's array is the band of rows 480 … 607 of the joining layer's matrix. -/
theorem arr_w35 (W35 : Mat 608 256) (h35 : (m (c.tc.loc main_arg35) : S608x256.Idx → EReal) = cv W35) :
    (GenP.V m c main_v52 : S128x256.Idx → EReal) = cv (bandOf 480 128 (by norm_num) W35) := by
  dsimp only [GenP.V, hostOps0]
  after_results_simp
  exact slice_of_cv 480 128 _ W35 _ _ h35

end Cert.KernelHost

end
-- ==== Proof.FiniteArgs.lean ====
/-
  Every float argument is a real array, and three operations keep arrays real.

  The precondition says of each float argument that every entry has absolute value strictly below +∞; on the extended
  reals that leaves exactly the real numbers. The statement "all entries" is a conjunction over the arguments of an
  "and" over all entries of one comparison per entry, and the whole is the constant 1: so each argument's "and" is 1,
  so each entry's comparison is 1, so each entry is neither -∞ nor +∞.

  A gather reads entries of its operand, so it keeps an array real; a scatter-add puts at each place the old entry
  plus a finite sum of updates, and a finite sum of real numbers is real; the all-zero array is real.
-/
import proofs.«112616_j74217034875541_2_alg».proof.Proof.RowNet
import proofs.«112616_j74217034875541_2_alg».proof.Pre_finite_inputs
import Idealize.ShloMosaic.Lib.ReduceAll
import Idealize.ShloMosaic.Lib.IdealHost

noncomputable section

namespace Cert.FiniteArgs

open Idealize.ShloMosaic Idealize.ShloMosaic.ValueIdx Cert.RowNet
open scoped BigOperators

instance : Subsingleton (⟨0, ![]⟩ : Shape).Idx := ⟨fun a b => funext fun d => d.elim0⟩

/-- The pattern of +∞ denotes the top of the extended reals. -/
theorem ofBits_inf : Ideal.ofBits .f32 0x7F800000#32 = (⊤ : EReal) := by simp [Ideal.ofBits, Ideal.ieee]

/-- An extended real whose absolute value is below +∞ is a real number. -/
theorem real_of_abs_lt_top (a : EReal)
    (h : FloatOps.cmpf (F := Ideal) (φ := .f32) .olt (FloatOps.hostAbsf (F := Ideal) (φ := .f32) a) (Ideal.ofBits .f32 0x7F800000#32) = 1#1) :
    ∃ r : ℝ, a = (r : EReal) := by
  rw [ofBits_inf] at h
  induction a using EReal.rec with
  | bot => exact absurd h (by simp [Ideal.cmpf_def, Ideal.absf_def, Ideal.cmp])
  | coe r => exact ⟨r, rfl⟩
  | top => exact absurd h (by simp [Ideal.cmpf_def, Ideal.absf_def, Ideal.cmp])

/-- An array every entry of which is a real number is the image of a real array. -/
theorem isReal_of_forall {s : Shape} (x : s.Idx → EReal) (h : ∀ i, ∃ r : ℝ, x i = (r : EReal)) : IsReal x :=
  ⟨fun i => (h i).choose, funext fun i => (h i).choose_spec⟩

theorem isReal_apply {s : Shape} {x : s.Idx → EReal} (h : IsReal x) (i : s.Idx) : ∃ r : ℝ, x i = (r : EReal) := by
  obtain ⟨V, rfl⟩ := h; exact ⟨V i, rfl⟩

/-- "All entries are below +∞ in absolute value", as the precondition states it, gives a real array. -/
theorem isReal_of_all {s : Shape} {axes : List (Fin s.rank)} (x : FVec Ideal s .f32)
    (hb : (⟨0, ![]⟩ : Shape).BroadcastsInDim s (![] : Fin 0 → Fin s.rank)) (hr : s.ReducesTo axes (⟨0, ![]⟩ : Shape))
    (hu : 0 < (⟨0, ![]⟩ : Shape).numel) (init : IVec (⟨0, ![]⟩ : Shape) 1) (j : (⟨0, ![]⟩ : Shape).Idx)
    (e : Host.reduce IntOp.andi (cmpf .olt (Host.absf x) (broadcastInDim s ![] hb (constant (⟨0, ![]⟩ : Shape) .f32 0x7F800000#32)))
          init hr hu j = 1#1) : IsReal x := by
  refine isReal_of_forall x fun i => real_of_abs_lt_top (x i) ?_
  have := Host.reduce_andi_all _ init hr hu j e i
  rw [cmpf_apply, broadcastInDim_scalar_apply, constant_apply] at this
  exact this

/-- Every gathered entry is an entry of the operand. -/
theorem gather_isReal {s si t : Shape} {w : ℕ} (d : GatherDims s si t) (x : s.Idx → EReal) (idx : IVec si w)
    (hx : IsReal x) : IsReal (Host.gather d x idx) := by
  obtain ⟨V, rfl⟩ := hx
  exact ⟨fun j => V (d.operandIdx j idx), rfl⟩

/-- A finite sum of real numbers, read in the extended reals, is the real sum. -/
theorem coe_finset_sum {ι : Type} (S : Finset ι) (f : ι → ℝ) : (∑ j ∈ S, ((f j : ℝ) : EReal)) = ((∑ j ∈ S, f j : ℝ) : EReal) := by
  classical
  induction S using Finset.induction_on with
  | empty => simp
  | insert a S ha ih => rw [Finset.sum_insert ha, Finset.sum_insert ha, ih, EReal.coe_add]

/-- Scatter-add of real updates into a real array is real. -/
theorem scatterAdd_isReal {s si u : Shape} {w : ℕ} {φ : FTy} (d : ScatterDims s si u) (x : FVec Ideal s φ) (idx : IVec si w)
    (upd : FVec Ideal u φ) (hx : IsReal x) (hu : IsReal upd) : IsReal (Host.scatterAdd (F := Ideal) d x idx upd) := by
  obtain ⟨X, rfl⟩ := hx
  obtain ⟨Y, rfl⟩ := hu
  refine ⟨fun i => X i + ∑ j ∈ Finset.univ.filter (fun j => d.resultIdx? j idx = some i), Y j, ?_⟩
  funext i
  unfold Host.scatterAdd
  rw [Ideal.hostScatterAdd_def]
  unfold Ideal.hostScatterAdd
  rw [coe_finset_sum, ← EReal.coe_add]

/-- The all-zero array is real. -/
theorem zeros_isReal {t : Shape} (h : (⟨0, ![]⟩ : Shape).BroadcastsInDim t (![] : Fin 0 → Fin t.rank)) :
    IsReal (broadcastInDim t ![] h (constant (F := Ideal) (⟨0, ![]⟩ : Shape) .f32 0x00000000#32)) := by
  refine ⟨fun _ => 0, funext fun j => ?_⟩
  rw [broadcastInDim_scalar_apply, constant_apply, Ideal.ofBits_zero_f32]; rfl

/-- The bitwise "and" of two arrays is entry by entry. -/
theorem andi_apply {s : Shape} {w : ℕ} (x y : IVec s w) (i : s.Idx) : andi x y i = IntOp.andi (x i) (y i) := rfl

/-- The precondition "every float argument has every entry below +∞ in absolute value" makes every float argument
    a real array. -/
theorem args_real [Cert.Pre_finite_inputs.Facts]
    (a0 : FVec Ideal Cert.Pre_finite_inputs.S50000x128 .f32) (a1 : FVec Ideal Cert.Pre_finite_inputs.S20000x128 .f32) (a2 : FVec Ideal Cert.Pre_finite_inputs.S500x32 .f32) (a3 : FVec Ideal Cert.Pre_finite_inputs.S1000x64 .f32)
    (a4 : IVec Cert.Pre_finite_inputs.S50000 32) (a5 : IVec Cert.Pre_finite_inputs.S100000 32) (a6 : IVec Cert.Pre_finite_inputs.S100000 32) (a7 : IVec Cert.Pre_finite_inputs.S100000 32)
    (a8 : IVec Cert.Pre_finite_inputs.S100000 32) (a9 : IVec Cert.Pre_finite_inputs.S800000 32) (a10 : IVec Cert.Pre_finite_inputs.S800000 32) (a11 : FVec Ideal Cert.Pre_finite_inputs.S128x256 .f32)
    (a12 : FVec Ideal Cert.Pre_finite_inputs.S256 .f32) (a13 : FVec Ideal Cert.Pre_finite_inputs.S256x128 .f32) (a14 : FVec Ideal Cert.Pre_finite_inputs.S128 .f32) (a15 : FVec Ideal Cert.Pre_finite_inputs.S128x256 .f32)
    (a16 : FVec Ideal Cert.Pre_finite_inputs.S256 .f32) (a17 : FVec Ideal Cert.Pre_finite_inputs.S256x128 .f32) (a18 : FVec Ideal Cert.Pre_finite_inputs.S128 .f32) (a19 : FVec Ideal Cert.Pre_finite_inputs.S128x256 .f32)
    (a20 : FVec Ideal Cert.Pre_finite_inputs.S256 .f32) (a21 : FVec Ideal Cert.Pre_finite_inputs.S256x128 .f32) (a22 : FVec Ideal Cert.Pre_finite_inputs.S128 .f32) (a23 : FVec Ideal Cert.Pre_finite_inputs.S128x256 .f32)
    (a24 : FVec Ideal Cert.Pre_finite_inputs.S256 .f32) (a25 : FVec Ideal Cert.Pre_finite_inputs.S256x128 .f32) (a26 : FVec Ideal Cert.Pre_finite_inputs.S128 .f32) (a27 : FVec Ideal Cert.Pre_finite_inputs.S64x256 .f32)
    (a28 : FVec Ideal Cert.Pre_finite_inputs.S256 .f32) (a29 : FVec Ideal Cert.Pre_finite_inputs.S256x64 .f32) (a30 : FVec Ideal Cert.Pre_finite_inputs.S64 .f32) (a31 : FVec Ideal Cert.Pre_finite_inputs.S32x256 .f32)
    (a32 : FVec Ideal Cert.Pre_finite_inputs.S256 .f32) (a33 : FVec Ideal Cert.Pre_finite_inputs.S256x32 .f32) (a34 : FVec Ideal Cert.Pre_finite_inputs.S32 .f32) (a35 : FVec Ideal Cert.Pre_finite_inputs.S608x256 .f32)
    (a36 : FVec Ideal Cert.Pre_finite_inputs.S256 .f32) (a37 : FVec Ideal Cert.Pre_finite_inputs.S256x128 .f32) (a38 : FVec Ideal Cert.Pre_finite_inputs.S128 .f32) (a39 : FVec Ideal Cert.Pre_finite_inputs.S128x128 .f32)
    (a40 : FVec Ideal Cert.Pre_finite_inputs.S128 .f32)
    (h : Cert.Pre_finite_inputs.fn (F := Ideal) a0 a1 a2 a3 a4 a5 a6 a7 a8 a9 a10 a11 a12 a13 a14 a15 a16 a17 a18 a19 a20 a21 a22 a23 a24 a25 a26 a27 a28 a29 a30 a31 a32 a33 a34 a35 a36 a37 a38 a39 a40 = (fun _ => 1#1)) :
      IsReal a0 ∧ IsReal a1 ∧ IsReal a2 ∧ IsReal a3 ∧ IsReal a11 ∧ IsReal a12 ∧ IsReal a13 ∧ IsReal a14 ∧
      IsReal a15 ∧ IsReal a16 ∧ IsReal a17 ∧ IsReal a18 ∧ IsReal a19 ∧ IsReal a20 ∧ IsReal a21 ∧ IsReal a22 ∧
      IsReal a23 ∧ IsReal a24 ∧ IsReal a25 ∧ IsReal a26 ∧ IsReal a27 ∧ IsReal a28 ∧ IsReal a29 ∧ IsReal a30 ∧
      IsReal a31 ∧ IsReal a32 ∧ IsReal a33 ∧ IsReal a34 ∧ IsReal a35 ∧ IsReal a36 ∧ IsReal a37 ∧ IsReal a38 ∧
      IsReal a39 ∧ IsReal a40 := by
  have h0 := congrFun h ix0
  dsimp only [Cert.Pre_finite_inputs.fn, Cert.Pre_finite_inputs.fn_part1, Cert.Pre_finite_inputs.fn_part2, Cert.Pre_finite_inputs.fn_part3, Cert.Pre_finite_inputs.fn_part4, Cert.Pre_finite_inputs.fn_part5, Cert.Pre_finite_inputs.fn_part6, Cert.Pre_finite_inputs.fn_part7, Cert.Pre_finite_inputs.fn_part8, Cert.Pre_finite_inputs.fn_part9] at h0
  simp only [andi_apply, IntOp.andi_eq_one] at h0
  obtain ⟨⟨⟨⟨⟨⟨⟨⟨⟨⟨⟨⟨⟨⟨⟨⟨⟨⟨⟨⟨⟨⟨⟨⟨⟨⟨⟨⟨⟨⟨⟨⟨⟨e0, e1⟩, e2⟩, e3⟩, e4⟩, e5⟩, e6⟩, e7⟩, e8⟩, e9⟩, e10⟩, e11⟩, e12⟩, e13⟩, e14⟩, e15⟩, e16⟩, e17⟩, e18⟩, e19⟩, e20⟩, e21⟩, e22⟩, e23⟩, e24⟩, e25⟩, e26⟩, e27⟩, e28⟩, e29⟩, e30⟩, e31⟩, e32⟩, e33⟩ := h0
  exact ⟨
    isReal_of_all a0 _ _ _ _ _ e0, isReal_of_all a1 _ _ _ _ _ e1, isReal_of_all a2 _ _ _ _ _ e2,
    isReal_of_all a3 _ _ _ _ _ e3, isReal_of_all a11 _ _ _ _ _ e4, isReal_of_all a12 _ _ _ _ _ e5,
    isReal_of_all a13 _ _ _ _ _ e6, isReal_of_all a14 _ _ _ _ _ e7, isReal_of_all a15 _ _ _ _ _ e8,
    isReal_of_all a16 _ _ _ _ _ e9, isReal_of_all a17 _ _ _ _ _ e10, isReal_of_all a18 _ _ _ _ _ e11,
    isReal_of_all a19 _ _ _ _ _ e12, isReal_of_all a20 _ _ _ _ _ e13, isReal_of_all a21 _ _ _ _ _ e14,
    isReal_of_all a22 _ _ _ _ _ e15, isReal_of_all a23 _ _ _ _ _ e16, isReal_of_all a24 _ _ _ _ _ e17,
    isReal_of_all a25 _ _ _ _ _ e18, isReal_of_all a26 _ _ _ _ _ e19, isReal_of_all a27 _ _ _ _ _ e20,
    isReal_of_all a28 _ _ _ _ _ e21, isReal_of_all a29 _ _ _ _ _ e22, isReal_of_all a30 _ _ _ _ _ e23,
    isReal_of_all a31 _ _ _ _ _ e24, isReal_of_all a32 _ _ _ _ _ e25, isReal_of_all a33 _ _ _ _ _ e26,
    isReal_of_all a34 _ _ _ _ _ e27, isReal_of_all a35 _ _ _ _ _ e28, isReal_of_all a36 _ _ _ _ _ e29,
    isReal_of_all a37 _ _ _ _ _ e30, isReal_of_all a38 _ _ _ _ _ e31, isReal_of_all a39 _ _ _ _ _ e32,
    isReal_of_all a40 _ _ _ _ _ e33⟩

end Cert.FiniteArgs

end
-- ==== Proof.RefStagesReal.lean ====
/-
  The five host stages that feed the network are arrays of real numbers.

  The reference program gathers rows of the item array, and builds four arrays of sums: starting from the all-zero
  array it adds, at each place, the gathered rows of the material, resource and operation arrays that the index arrays
  send there. A gather only reads entries of its operand, the all-zero array is real, and a place of a scatter-add
  holds its old entry plus a finite sum of updates: so when the float argument a stage is computed from is an array of
  real numbers, so is the stage, whatever the integer index arrays are.
-/
import proofs.«112616_j74217034875541_2_alg».proof.Proof.RowNet
import proofs.«112616_j74217034875541_2_alg».proof.Proof.FiniteArgs
import proofs.«112616_j74217034875541_2_alg».proof.Proof.Gen.ReferenceIdeal.Read

noncomputable section

namespace Cert.RefStagesReal

open Cert.RowNet Cert.FiniteArgs Cert.ReferenceIdeal Cert.ReferenceIdeal.Gen Cert.ReferenceIdeal.Read
open Idealize.ShloMosaic

/-- The gathered rows of the item array. -/
theorem v15_isReal (x1 : (⟨S20000x128, .f32⟩ : BufTy).Contents (Elt Ideal)) (x4 : (⟨S50000, .i32⟩ : BufTy).Contents (Elt Ideal))
    (h : IsReal x1) : IsReal (val_main_v15 (F := Ideal) x1 x4) :=
  gather_isReal _ x1 _ h

/-- The gathered rows of the material array. -/
theorem v31_isReal (x2 : (⟨S500x32, .f32⟩ : BufTy).Contents (Elt Ideal)) (x8 : (⟨S100000, .i32⟩ : BufTy).Contents (Elt Ideal))
    (h : IsReal x2) : IsReal (val_main_v31 (F := Ideal) x2 x8) :=
  gather_isReal _ x2 _ h

/-- The sums of material rows. -/
theorem v34_isReal (x2 : (⟨S500x32, .f32⟩ : BufTy).Contents (Elt Ideal)) (x7 x8 : (⟨S100000, .i32⟩ : BufTy).Contents (Elt Ideal))
    (h : IsReal x2) : IsReal (val_main_v34 (F := Ideal) x2 x7 x8) :=
  scatterAdd_isReal _ _ _ _ (zeros_isReal bcast_S_S50000x32) (v31_isReal x2 x8 h)

/-- The gathered rows of the resource array. -/
theorem v50_isReal (x3 : (⟨S1000x64, .f32⟩ : BufTy).Contents (Elt Ideal)) (x6 : (⟨S100000, .i32⟩ : BufTy).Contents (Elt Ideal))
    (h : IsReal x3) : IsReal (val_main_v50 (F := Ideal) x3 x6) :=
  gather_isReal _ x3 _ h

/-- The sums of resource rows. -/
theorem v53_isReal (x3 : (⟨S1000x64, .f32⟩ : BufTy).Contents (Elt Ideal)) (x5 x6 : (⟨S100000, .i32⟩ : BufTy).Contents (Elt Ideal))
    (h : IsReal x3) : IsReal (val_main_v53 (F := Ideal) x3 x5 x6) :=
  scatterAdd_isReal _ _ _ _ (zeros_isReal bcast_S_S50000x64) (v50_isReal x3 x6 h)

/-- The rows of the operation array gathered at the edges' far ends. -/
theorem v69_isReal (x0 : (⟨S50000x128, .f32⟩ : BufTy).Contents (Elt Ideal)) (x10 : (⟨S800000, .i32⟩ : BufTy).Contents (Elt Ideal))
    (h : IsReal x0) : IsReal (val_main_v69 (F := Ideal) x0 x10) :=
  gather_isReal _ x0 _ h

/-- The sums of predecessor rows. -/
theorem v72_isReal (x0 : (⟨S50000x128, .f32⟩ : BufTy).Contents (Elt Ideal)) (x9 x10 : (⟨S800000, .i32⟩ : BufTy).Contents (Elt Ideal))
    (h : IsReal x0) : IsReal (val_main_v72 (F := Ideal) x0 x9 x10) :=
  scatterAdd_isReal _ _ _ _ (zeros_isReal bcast_S_S50000x128) (v69_isReal x0 x10 h)

/-- The rows of the operation array gathered at the edges' near ends. -/
theorem v88_isReal (x0 : (⟨S50000x128, .f32⟩ : BufTy).Contents (Elt Ideal)) (x9 : (⟨S800000, .i32⟩ : BufTy).Contents (Elt Ideal))
    (h : IsReal x0) : IsReal (val_main_v88 (F := Ideal) x0 x9) :=
  gather_isReal _ x0 _ h

/-- The sums of successor rows. -/
theorem v91_isReal (x0 : (⟨S50000x128, .f32⟩ : BufTy).Contents (Elt Ideal)) (x9 x10 : (⟨S800000, .i32⟩ : BufTy).Contents (Elt Ideal))
    (h : IsReal x0) : IsReal (val_main_v91 (F := Ideal) x0 x9 x10) :=
  scatterAdd_isReal _ _ _ _ (zeros_isReal bcast_S_S50000x128) (v88_isReal x0 x9 h)

end Cert.RefStagesReal

end
-- ==== Proof.RefRow.lean ====
/-
  The reference network, read one row at a time.

  The reference program is six two-layer perceptrons, a concatenation of their outputs along the columns, and three
  further layers. When every input entry and every weight is a real number, every intermediate array is an array of
  real numbers: a matrix product of real arrays is the real matrix product (a finite sum of products of reals is a
  real), adding a bias row and taking the positive part keep entries real. The product of the concatenated embeddings
  with the joining layer's matrix is the sum, over the six pieces, of each piece's product with the band of rows of
  the matrix that faces it: the sum over the 608 columns splits at 128, 256, 320, 352 and 480. Read at row i and
  column q the result is the row network of one row of each of the six inputs.
-/
import proofs.«112616_j74217034875541_2_alg».proof.Proof.RowNet
import proofs.«112616_j74217034875541_2_alg».proof.Proof.Gen.ReferenceIdeal.Read
import Idealize.ShloMosaic.Lib.StackMember
import Idealize.ShloMosaic.Lib.Pipeline.Value

noncomputable section

namespace Cert.RefRow

open Cert.RowNet Cert.ReferenceIdeal Cert.ReferenceIdeal.Gen Cert.ReferenceIdeal.Read
open Idealize.ShloMosaic Idealize.ShloMosaic.ValueIdx

/-! ## Real arrays inside the extended reals -/

/-- The coercion of a finite sum of reals is the sum of the coercions. -/
theorem coe_sum {ι : Type} (s : Finset ι) (f : ι → ℝ) :
    ((∑ k ∈ s, f k : ℝ) : EReal) = ∑ k ∈ s, ((f k : ℝ) : EReal) := by
  classical
  induction s using Finset.induction_on with
  | empty => simp
  | insert a s ha ih => rw [Finset.sum_insert ha, Finset.sum_insert ha, EReal.coe_add, ih]

/-- Every row x of X sent to x·W + b. -/
def linM {M K N : ℕ} (X : Mat M K) (W : Mat K N) (b : Vec1 N) : Mat M N :=
  fun j => lin (rowOf X (j 0)) W b (j 1)

/-- The positive part of a matrix, entry by entry. -/
def reluM {M N : ℕ} (X : Mat M N) : Mat M N := fun j => max (X j) 0

/-- The matrix every row of which is the vector b. -/
def biasM (M : ℕ) {N : ℕ} (b : Vec1 N) : Mat M N := fun j => b (ix1 (j 1))

/-- Every row of X sent through a two-layer perceptron. -/
def mlpM {M K H N : ℕ} (X : Mat M K) (W1 : Mat K H) (b1 : Vec1 H) (W2 : Mat H N) (b2 : Vec1 N) : Mat M N :=
  linM (reluM (linM X W1 b1)) W2 b2

/-- The product of two real matrices, on the extended reals, is the real product. -/
theorem dot_cv {m k n : ℕ} (X : Mat m k) (W : Mat k n) :
    Host.dotGeneral (F := Ideal) (φ₁ := .f32) (φ₂ := .f32) (DotDims.plain m k n) none (cv X) (cv W)
      = cv (fun j => dot (rowOf X (j 0)) W (j 1)) := by
  funext j
  obtain ⟨a, c, rfl⟩ : ∃ a c, j = ix2 a c := ⟨j 0, j 1, eq_ix2 j⟩
  rw [StackMember.dotGeneral_plain_apply]
  show ∑ c' : Fin k, ((X (ix2 a c') : ℝ) : EReal) * ((W (ix2 c' c) : ℝ) : EReal)
    = ((∑ c' : Fin k, X (ix2 a c') * W (ix2 c' c) : ℝ) : EReal)
  rw [coe_sum]
  exact Finset.sum_congr rfl fun c' _ => (EReal.coe_mul _ _).symm

/-- The sum of two real arrays is real. -/
theorem add_cv {s : Shape} (X Y : s.Idx → ℝ) :
    addf (F := Ideal) (φ := .f32) (cv X) (cv Y) = cv (fun j => X j + Y j) := by
  funext j; exact (EReal.coe_add _ _).symm

/-- The positive part of a real array is real. -/
theorem relu_cv {s : Shape} (X : s.Idx → ℝ) (Z : FVec Ideal s .f32) (hZ : Z = cv (fun _ => (0 : ℝ))) :
    maximumf (F := Ideal) (φ := .f32) (cv X) Z = cv (fun j => max (X j) 0) := by
  subst hZ; funext j; exact (EReal.coe_strictMono.monotone.map_max).symm

/-- One layer x ↦ x·W + b on real arrays. -/
theorem layer_cv {m k n : ℕ} (X : Mat m k) (W : Mat k n) (b : Vec1 n)
    (Xe : FVec Ideal ⟨2, ![m, k]⟩ .f32) (hX : Xe = cv X)
    (B : FVec Ideal ⟨2, ![m, n]⟩ .f32) (hB : B = cv (biasM m b)) :
    addf (Host.dotGeneral (F := Ideal) (φ₁ := .f32) (φ₂ := .f32) (DotDims.plain m k n) none Xe (cv W : FVec Ideal ⟨2, ![k, n]⟩ .f32)) B
      = cv (linM X W b) := by
  subst hX hB
  rw [dot_cv, add_cv]; rfl

/-- A layer followed by the positive part. -/
theorem layer_relu_cv {m k n : ℕ} (X : Mat m k) (W : Mat k n) (b : Vec1 n)
    (Xe : FVec Ideal ⟨2, ![m, k]⟩ .f32) (hX : Xe = cv X)
    (B : FVec Ideal ⟨2, ![m, n]⟩ .f32) (hB : B = cv (biasM m b))
    (Z : FVec Ideal ⟨2, ![m, n]⟩ .f32) (hZ : Z = cv (fun _ => (0 : ℝ))) :
    maximumf (addf (Host.dotGeneral (F := Ideal) (φ₁ := .f32) (φ₂ := .f32) (DotDims.plain m k n) none Xe (cv W : FVec Ideal ⟨2, ![k, n]⟩ .f32)) B) Z
      = cv (reluM (linM X W b)) := by
  rw [layer_cv X W b Xe hX B hB, relu_cv _ Z hZ]; rfl

/-- A two-layer perceptron on real arrays. -/
theorem mlp_cv {m k h n : ℕ} (X : Mat m k) (W1 : Mat k h) (b1 : Vec1 h) (W2 : Mat h n) (b2 : Vec1 n)
    (Xe : FVec Ideal ⟨2, ![m, k]⟩ .f32) (hX : Xe = cv X)
    (B1 : FVec Ideal ⟨2, ![m, h]⟩ .f32) (hB1 : B1 = cv (biasM m b1))
    (Z : FVec Ideal ⟨2, ![m, h]⟩ .f32) (hZ : Z = cv (fun _ => (0 : ℝ)))
    (B2 : FVec Ideal ⟨2, ![m, n]⟩ .f32) (hB2 : B2 = cv (biasM m b2)) :
    addf (Host.dotGeneral (F := Ideal) (φ₁ := .f32) (φ₂ := .f32) (DotDims.plain m h n) none
        (maximumf (addf (Host.dotGeneral (F := Ideal) (φ₁ := .f32) (φ₂ := .f32) (DotDims.plain m k h) none Xe
          (cv W1 : FVec Ideal ⟨2, ![k, h]⟩ .f32)) B1) Z) (cv W2 : FVec Ideal ⟨2, ![h, n]⟩ .f32)) B2
      = cv (mlpM X W1 b1 W2 b2) :=
  layer_cv _ W2 b2 _ (layer_relu_cv X W1 b1 Xe hX B1 hB1 Z hZ) B2 hB2

/-! ## The bias rows and the zero arrays of the reference program -/

theorem bias_v2 (b : Vec1 256) : val_main_v2 (F := Ideal) (cv b) = cv (biasM 50000 b) := by
  funext j
  rw [val_main_v2_apply, val_main_v1_apply]
  exact congrArg (fun t => ((b t : ℝ) : EReal)) (funext fun a => match a with | ⟨0, _⟩ => rfl)

theorem bias_v7 (b : Vec1 128) : val_main_v7 (F := Ideal) (cv b) = cv (biasM 50000 b) := by
  funext j
  rw [val_main_v7_apply, val_main_v6_apply]
  exact congrArg (fun t => ((b t : ℝ) : EReal)) (funext fun a => match a with | ⟨0, _⟩ => rfl)

theorem bias_v18 (b : Vec1 256) : val_main_v18 (F := Ideal) (cv b) = cv (biasM 50000 b) := by
  funext j
  rw [val_main_v18_apply, val_main_v17_apply]
  exact congrArg (fun t => ((b t : ℝ) : EReal)) (funext fun a => match a with | ⟨0, _⟩ => rfl)

theorem bias_v23 (b : Vec1 128) : val_main_v23 (F := Ideal) (cv b) = cv (biasM 50000 b) := by
  funext j
  rw [val_main_v23_apply, val_main_v22_apply]
  exact congrArg (fun t => ((b t : ℝ) : EReal)) (funext fun a => match a with | ⟨0, _⟩ => rfl)

theorem bias_v37 (b : Vec1 256) : val_main_v37 (F := Ideal) (cv b) = cv (biasM 50000 b) := by
  funext j
  rw [val_main_v37_apply, val_main_v36_apply]
  exact congrArg (fun t => ((b t : ℝ) : EReal)) (funext fun a => match a with | ⟨0, _⟩ => rfl)

theorem bias_v42 (b : Vec1 32) : val_main_v42 (F := Ideal) (cv b) = cv (biasM 50000 b) := by
  funext j
  rw [val_main_v42_apply, val_main_v41_apply]
  exact congrArg (fun t => ((b t : ℝ) : EReal)) (funext fun a => match a with | ⟨0, _⟩ => rfl)

theorem bias_v56 (b : Vec1 256) : val_main_v56 (F := Ideal) (cv b) = cv (biasM 50000 b) := by
  funext j
  rw [val_main_v56_apply, val_main_v55_apply]
  exact congrArg (fun t => ((b t : ℝ) : EReal)) (funext fun a => match a with | ⟨0, _⟩ => rfl)

theorem bias_v61 (b : Vec1 64) : val_main_v61 (F := Ideal) (cv b) = cv (biasM 50000 b) := by
  funext j
  rw [val_main_v61_apply, val_main_v60_apply]
  exact congrArg (fun t => ((b t : ℝ) : EReal)) (funext fun a => match a with | ⟨0, _⟩ => rfl)

theorem bias_v75 (b : Vec1 256) : val_main_v75 (F := Ideal) (cv b) = cv (biasM 50000 b) := by
  funext j
  rw [val_main_v75_apply, val_main_v74_apply]
  exact congrArg (fun t => ((b t : ℝ) : EReal)) (funext fun a => match a with | ⟨0, _⟩ => rfl)

theorem bias_v80 (b : Vec1 128) : val_main_v80 (F := Ideal) (cv b) = cv (biasM 50000 b) := by
  funext j
  rw [val_main_v80_apply, val_main_v79_apply]
  exact congrArg (fun t => ((b t : ℝ) : EReal)) (funext fun a => match a with | ⟨0, _⟩ => rfl)

theorem bias_v94 (b : Vec1 256) : val_main_v94 (F := Ideal) (cv b) = cv (biasM 50000 b) := by
  funext j
  rw [val_main_v94_apply, val_main_v93_apply]
  exact congrArg (fun t => ((b t : ℝ) : EReal)) (funext fun a => match a with | ⟨0, _⟩ => rfl)

theorem bias_v99 (b : Vec1 128) : val_main_v99 (F := Ideal) (cv b) = cv (biasM 50000 b) := by
  funext j
  rw [val_main_v99_apply, val_main_v98_apply]
  exact congrArg (fun t => ((b t : ℝ) : EReal)) (funext fun a => match a with | ⟨0, _⟩ => rfl)

theorem bias_v104 (b : Vec1 256) : val_main_v104 (F := Ideal) (cv b) = cv (biasM 50000 b) := by
  funext j
  rw [val_main_v104_apply, val_main_v103_apply]
  exact congrArg (fun t => ((b t : ℝ) : EReal)) (funext fun a => match a with | ⟨0, _⟩ => rfl)

theorem bias_v109 (b : Vec1 128) : val_main_v109 (F := Ideal) (cv b) = cv (biasM 50000 b) := by
  funext j
  rw [val_main_v109_apply, val_main_v108_apply]
  exact congrArg (fun t => ((b t : ℝ) : EReal)) (funext fun a => match a with | ⟨0, _⟩ => rfl)

theorem bias_v114 (b : Vec1 128) : val_main_v114 (F := Ideal) (cv b) = cv (biasM 50000 b) := by
  funext j
  rw [val_main_v114_apply, val_main_v113_apply]
  exact congrArg (fun t => ((b t : ℝ) : EReal)) (funext fun a => match a with | ⟨0, _⟩ => rfl)

theorem zero_call0 : val_main_call0_v0 (F := Ideal) = cv (fun _ => (0 : ℝ)) := by
  funext j
  rw [val_main_call0_v0_apply, val_main_call0_cst_apply]
  exact Ideal.ofBits_zero_f32.trans EReal.coe_zero.symm

theorem zero_call1 : val_main_call1_v0 (F := Ideal) = cv (fun _ => (0 : ℝ)) := by
  funext j
  rw [val_main_call1_v0_apply, val_main_call1_cst_apply]
  exact Ideal.ofBits_zero_f32.trans EReal.coe_zero.symm

theorem zero_call2 : val_main_call2_v0 (F := Ideal) = cv (fun _ => (0 : ℝ)) := by
  funext j
  rw [val_main_call2_v0_apply, val_main_call2_cst_apply]
  exact Ideal.ofBits_zero_f32.trans EReal.coe_zero.symm

theorem zero_call3 : val_main_call3_v0 (F := Ideal) = cv (fun _ => (0 : ℝ)) := by
  funext j
  rw [val_main_call3_v0_apply, val_main_call3_cst_apply]
  exact Ideal.ofBits_zero_f32.trans EReal.coe_zero.symm

theorem zero_call4 : val_main_call4_v0 (F := Ideal) = cv (fun _ => (0 : ℝ)) := by
  funext j
  rw [val_main_call4_v0_apply, val_main_call4_cst_apply]
  exact Ideal.ofBits_zero_f32.trans EReal.coe_zero.symm

theorem zero_call5 : val_main_call5_v0 (F := Ideal) = cv (fun _ => (0 : ℝ)) := by
  funext j
  rw [val_main_call5_v0_apply, val_main_call5_cst_apply]
  exact Ideal.ofBits_zero_f32.trans EReal.coe_zero.symm

theorem zero_call6 : val_main_call6_v0 (F := Ideal) = cv (fun _ => (0 : ℝ)) := by
  funext j
  rw [val_main_call6_v0_apply, val_main_call6_cst_apply]
  exact Ideal.ofBits_zero_f32.trans EReal.coe_zero.symm

theorem zero_call7 : val_main_call7_v0 (F := Ideal) = cv (fun _ => (0 : ℝ)) := by
  funext j
  rw [val_main_call7_v0_apply, val_main_call7_cst_apply]
  exact Ideal.ofBits_zero_f32.trans EReal.coe_zero.symm

/-! ## The six perceptrons -/

theorem self_branch (A0 : Mat 50000 128) (W11 : Mat 128 256) (W12 : Vec1 256) (W13 : Mat 256 128) (W14 : Vec1 128) :
    val_main_v8 (F := Ideal) (cv A0) (cv W11) (cv W12) (cv W13) (cv W14) = cv (mlpM A0 W11 W12 W13 W14) :=
  mlp_cv A0 W11 W12 W13 W14 _ rfl _ (bias_v2 W12) _ zero_call0 _ (bias_v7 W14)

/-! ## The sum over the 608 columns, split at the six pieces -/

/-- A sum over 608 = 128 + 128 + 64 + 32 + 128 + 128 indices is the sum of the six sums over the consecutive runs. -/
theorem sum_six {M : Type} [AddCommMonoid M] (f : Fin (128 + 128 + 64 + 32 + 128 + 128) → M) :
    ∑ c, f c
      = (∑ c : Fin 128, f ⟨0 + c.val, by have := c.isLt; omega⟩)
        + (∑ c : Fin 128, f ⟨128 + c.val, by have := c.isLt; omega⟩)
        + (∑ c : Fin 64, f ⟨256 + c.val, by have := c.isLt; omega⟩)
        + (∑ c : Fin 32, f ⟨320 + c.val, by have := c.isLt; omega⟩)
        + (∑ c : Fin 128, f ⟨352 + c.val, by have := c.isLt; omega⟩)
        + (∑ c : Fin 128, f ⟨480 + c.val, by have := c.isLt; omega⟩) := by
  rw [Fin.sum_univ_add, Fin.sum_univ_add, Fin.sum_univ_add, Fin.sum_univ_add, Fin.sum_univ_add]
  refine congrArg₂ (· + ·) (congrArg₂ (· + ·) (congrArg₂ (· + ·) (congrArg₂ (· + ·) (congrArg₂ (· + ·) ?_ ?_) ?_) ?_) ?_) ?_ <;>
    exact Finset.sum_congr rfl fun c _ => congrArg f (Fin.ext (by first | (simp; done) | (simp; omega)))

/-- A run of K real entries against the rows off, …, off + K − 1 of W is the run's product with that band of W. -/
theorem band_sum {T K N : ℕ} (off : ℕ) (h : off + K ≤ T) (x : Fin K → ℝ) (W : Mat T N) (j : Fin N)
    (g : Fin K → EReal) (hg : ∀ c, g c = ((x c : ℝ) : EReal)) :
    ∑ c : Fin K, g c * cv W (ix2 ⟨off + c.val, by have := c.isLt; omega⟩ j)
      = ((dot x (bandOf off K h W) j : ℝ) : EReal) := by
  unfold dot
  rw [coe_sum]
  refine Finset.sum_congr rfl fun c _ => ?_
  rw [hg, EReal.coe_mul]; rfl

section Cat
variable (P Su : Mat 50000 128) (R : Mat 50000 64) (Mt : Mat 50000 32) (It Se : Mat 50000 128)

/-- Six real arrays side by side, as the reference program joins them. -/
def catE : S50000x608.Idx → EReal :=
  concatenate S50000x608 1 [⟨S50000x128, cv P⟩, ⟨S50000x128, cv Su⟩, ⟨S50000x64, cv R⟩, ⟨S50000x32, cv Mt⟩,
    ⟨S50000x128, cv It⟩, ⟨S50000x128, cv Se⟩]
    concatenates_S50000x128_S50000x128_S50000x64_S50000x32_S50000x128_S50000x128_S50000x608_d1

theorem catE_0 (i : Fin 50000) (c : Fin 128) (hlt : 0 + c.val < 608) :
    catE P Su R Mt It Se (ix2 i ⟨0 + c.val, hlt⟩) = ((P (ix2 i c) : ℝ) : EReal) := by
  unfold catE
  exact concatenate_apply_piece (t := S50000x608) 1 _ _ _ 0 (by show 0 < 6; omega) S50000x128 (cv P) rfl rfl 0 rfl (ix2 i c)
    (fun b hb => by match b with | ⟨0, _⟩ => rfl | ⟨1, _⟩ => exact absurd rfl hb) rfl

theorem catE_1 (i : Fin 50000) (c : Fin 128) (hlt : 128 + c.val < 608) :
    catE P Su R Mt It Se (ix2 i ⟨128 + c.val, hlt⟩) = ((Su (ix2 i c) : ℝ) : EReal) := by
  unfold catE
  exact concatenate_apply_piece (t := S50000x608) 1 _ _ _ 1 (by show 1 < 6; omega) S50000x128 (cv Su) rfl rfl 128 rfl (ix2 i c)
    (fun b hb => by match b with | ⟨0, _⟩ => rfl | ⟨1, _⟩ => exact absurd rfl hb) rfl

theorem catE_2 (i : Fin 50000) (c : Fin 64) (hlt : 256 + c.val < 608) :
    catE P Su R Mt It Se (ix2 i ⟨256 + c.val, hlt⟩) = ((R (ix2 i c) : ℝ) : EReal) := by
  unfold catE
  exact concatenate_apply_piece (t := S50000x608) 1 _ _ _ 2 (by show 2 < 6; omega) S50000x64 (cv R) rfl rfl 256 rfl (ix2 i c)
    (fun b hb => by match b with | ⟨0, _⟩ => rfl | ⟨1, _⟩ => exact absurd rfl hb) rfl

theorem catE_3 (i : Fin 50000) (c : Fin 32) (hlt : 320 + c.val < 608) :
    catE P Su R Mt It Se (ix2 i ⟨320 + c.val, hlt⟩) = ((Mt (ix2 i c) : ℝ) : EReal) := by
  unfold catE
  exact concatenate_apply_piece (t := S50000x608) 1 _ _ _ 3 (by show 3 < 6; omega) S50000x32 (cv Mt) rfl rfl 320 rfl (ix2 i c)
    (fun b hb => by match b with | ⟨0, _⟩ => rfl | ⟨1, _⟩ => exact absurd rfl hb) rfl

theorem catE_4 (i : Fin 50000) (c : Fin 128) (hlt : 352 + c.val < 608) :
    catE P Su R Mt It Se (ix2 i ⟨352 + c.val, hlt⟩) = ((It (ix2 i c) : ℝ) : EReal) := by
  unfold catE
  exact concatenate_apply_piece (t := S50000x608) 1 _ _ _ 4 (by show 4 < 6; omega) S50000x128 (cv It) rfl rfl 352 rfl (ix2 i c)
    (fun b hb => by match b with | ⟨0, _⟩ => rfl | ⟨1, _⟩ => exact absurd rfl hb) rfl

theorem catE_5 (i : Fin 50000) (c : Fin 128) (hlt : 480 + c.val < 608) :
    catE P Su R Mt It Se (ix2 i ⟨480 + c.val, hlt⟩) = ((Se (ix2 i c) : ℝ) : EReal) := by
  unfold catE
  exact concatenate_apply_piece (t := S50000x608) 1 _ _ _ 5 (by show 5 < 6; omega) S50000x128 (cv Se) rfl rfl 480 rfl (ix2 i c)
    (fun b hb => by match b with | ⟨0, _⟩ => rfl | ⟨1, _⟩ => exact absurd rfl hb) rfl

/-- The joined row times the whole matrix is the sum of each piece's row times its band. -/
def joinRow (W : Mat 608 256) (i : Fin 50000) (j : Fin 256) : ℝ :=
  dot (rowOf P i) (bandOf 0 128 (by norm_num) W) j + dot (rowOf Su i) (bandOf 128 128 (by norm_num) W) j
    + dot (rowOf R i) (bandOf 256 64 (by norm_num) W) j + dot (rowOf Mt i) (bandOf 320 32 (by norm_num) W) j
    + dot (rowOf It i) (bandOf 352 128 (by norm_num) W) j + dot (rowOf Se i) (bandOf 480 128 (by norm_num) W) j

theorem cat_dot (W : Mat 608 256) (i : Fin 50000) (j : Fin 256) :
    Host.dotGeneral (F := Ideal) (φ₁ := .f32) (φ₂ := .f32) (DotDims.plain 50000 608 256) none
        (catE P Su R Mt It Se) (cv W) (ix2 i j)
      = ((joinRow P Su R Mt It Se W i j : ℝ) : EReal) := by
  rw [StackMember.dotGeneral_plain_apply]
  refine (sum_six (fun c : Fin 608 => catE P Su R Mt It Se (ix2 i c) * cv W (ix2 c j))).trans ?_
  unfold joinRow
  simp only [EReal.coe_add]
  refine congrArg₂ (· + ·) (congrArg₂ (· + ·) (congrArg₂ (· + ·) (congrArg₂ (· + ·) (congrArg₂ (· + ·) ?_ ?_) ?_) ?_) ?_) ?_
  · exact band_sum 0 _ (rowOf P i) W j _ (fun c => catE_0 P Su R Mt It Se i c _)
  · exact band_sum 128 _ (rowOf Su i) W j _ (fun c => catE_1 P Su R Mt It Se i c _)
  · exact band_sum 256 _ (rowOf R i) W j _ (fun c => catE_2 P Su R Mt It Se i c _)
  · exact band_sum 320 _ (rowOf Mt i) W j _ (fun c => catE_3 P Su R Mt It Se i c _)
  · exact band_sum 352 _ (rowOf It i) W j _ (fun c => catE_4 P Su R Mt It Se i c _)
  · exact band_sum 480 _ (rowOf Se i) W j _ (fun c => catE_5 P Su R Mt It Se i c _)

/-- The joining layer before its positive part: the six band products and the bias. -/
def joinM (W : Mat 608 256) (b : Vec1 256) : Mat 50000 256 :=
  fun j => joinRow P Su R Mt It Se W (j 0) (j 1) + b (ix1 (j 1))

theorem join_cv (W : Mat 608 256) (b : Vec1 256) (B : FVec Ideal S50000x256 .f32) (hB : B = cv (biasM 50000 b)) :
    addf (Host.dotGeneral (F := Ideal) (φ₁ := .f32) (φ₂ := .f32) (DotDims.plain 50000 608 256) none
        (catE P Su R Mt It Se) (cv W)) B = cv (joinM P Su R Mt It Se W b) := by
  subst hB
  funext j
  obtain ⟨i, q, rfl⟩ : ∃ i q, j = ix2 i q := ⟨j 0, j 1, eq_ix2 j⟩
  show Host.dotGeneral (F := Ideal) (φ₁ := .f32) (φ₂ := .f32) (DotDims.plain 50000 608 256) none
        (catE P Su R Mt It Se) (cv W) (ix2 i q) + ((b (ix1 q) : ℝ) : EReal) = _
  rw [cat_dot]
  exact (EReal.coe_add _ _).symm

end Cat

/-! ## The layers after the concatenation -/

/-- The joining layer and the two layers after it, on six real embeddings. -/
theorem tail_cv (P Su : Mat 50000 128) (R : Mat 50000 64) (Mt : Mat 50000 32) (It Se : Mat 50000 128)
    (W35 : Mat 608 256) (W36 : Vec1 256) (W37 : Mat 256 128) (W38 : Vec1 128) (W39 : Mat 128 128) (W40 : Vec1 128)
    (eP eSu : FVec Ideal S50000x128 .f32) (eR : FVec Ideal S50000x64 .f32) (eMt : FVec Ideal S50000x32 .f32)
    (eIt eSe : FVec Ideal S50000x128 .f32)
    (hP : eP = cv P) (hSu : eSu = cv Su) (hR : eR = cv R) (hMt : eMt = cv Mt) (hIt : eIt = cv It) (hSe : eSe = cv Se)
    (B1 : FVec Ideal S50000x256 .f32) (hB1 : B1 = cv (biasM 50000 W36))
    (Z1 : FVec Ideal S50000x256 .f32) (hZ1 : Z1 = cv (fun _ => (0 : ℝ)))
    (B2 : FVec Ideal S50000x128 .f32) (hB2 : B2 = cv (biasM 50000 W38))
    (Z2 : FVec Ideal S50000x128 .f32) (hZ2 : Z2 = cv (fun _ => (0 : ℝ)))
    (B3 : FVec Ideal S50000x128 .f32) (hB3 : B3 = cv (biasM 50000 W40)) :
    addf (Host.dotGeneral (F := Ideal) (φ₁ := .f32) (φ₂ := .f32) (DotDims.plain 50000 128 128) none
      (maximumf (addf (Host.dotGeneral (F := Ideal) (φ₁ := .f32) (φ₂ := .f32) (DotDims.plain 50000 256 128) none
        (maximumf (addf (Host.dotGeneral (F := Ideal) (φ₁ := .f32) (φ₂ := .f32) (DotDims.plain 50000 608 256) none
          (concatenate S50000x608 1 [⟨S50000x128, eP⟩, ⟨S50000x128, eSu⟩, ⟨S50000x64, eR⟩, ⟨S50000x32, eMt⟩,
            ⟨S50000x128, eIt⟩, ⟨S50000x128, eSe⟩]
            concatenates_S50000x128_S50000x128_S50000x64_S50000x32_S50000x128_S50000x128_S50000x608_d1)
          (cv W35 : FVec Ideal S608x256 .f32)) B1) Z1) (cv W37 : FVec Ideal S256x128 .f32)) B2) Z2)
      (cv W39 : FVec Ideal S128x128 .f32)) B3
      = cv (linM (reluM (linM (reluM (joinM P Su R Mt It Se W35 W36)) W37 W38)) W39 W40) := by
  subst hP hSu hR hMt hIt hSe
  have hJ : maximumf (addf (Host.dotGeneral (F := Ideal) (φ₁ := .f32) (φ₂ := .f32) (DotDims.plain 50000 608 256) none
      (catE P Su R Mt It Se) (cv W35 : FVec Ideal S608x256 .f32)) B1) Z1
      = cv (reluM (joinM P Su R Mt It Se W35 W36)) := by
    rw [join_cv P Su R Mt It Se W35 W36 B1 hB1, relu_cv _ Z1 hZ1]; rfl
  exact layer_cv _ W39 W40 _ (layer_relu_cv _ W37 W38 _ hJ B2 hB2 Z2 hZ2) B3 hB3

/-! ## The reference program at row i and column q -/

/-- With every float input and weight real, and the gathered and summed inputs real, the reference program's result at
    row i and column q is the row network of row i of the six inputs. -/
theorem ref_row
    (A0 G15 : Mat 50000 128) (G34 : Mat 50000 32) (G53 : Mat 50000 64) (G72 G91 : Mat 50000 128)
    (W11 : Mat 128 256) (W12 : Vec1 256) (W13 : Mat 256 128) (W14 : Vec1 128) (W15 : Mat 128 256) (W16 : Vec1 256)
    (W17 : Mat 256 128) (W18 : Vec1 128) (W19 : Mat 128 256) (W20 : Vec1 256) (W21 : Mat 256 128) (W22 : Vec1 128)
    (W23 : Mat 128 256) (W24 : Vec1 256) (W25 : Mat 256 128) (W26 : Vec1 128) (W27 : Mat 64 256) (W28 : Vec1 256)
    (W29 : Mat 256 64) (W30 : Vec1 64) (W31 : Mat 32 256) (W32 : Vec1 256) (W33 : Mat 256 32) (W34 : Vec1 32)
    (W35 : Mat 608 256) (W36 : Vec1 256) (W37 : Mat 256 128) (W38 : Vec1 128) (W39 : Mat 128 128) (W40 : Vec1 128)
    (x0 : (⟨S50000x128, .f32⟩ : BufTy).Contents (Elt Ideal))
    (x1 : (⟨S20000x128, .f32⟩ : BufTy).Contents (Elt Ideal)) (x2 : (⟨S500x32, .f32⟩ : BufTy).Contents (Elt Ideal))
    (x3 : (⟨S1000x64, .f32⟩ : BufTy).Contents (Elt Ideal)) (x4 : (⟨S50000, .i32⟩ : BufTy).Contents (Elt Ideal))
    (x5 : (⟨S100000, .i32⟩ : BufTy).Contents (Elt Ideal)) (x6 : (⟨S100000, .i32⟩ : BufTy).Contents (Elt Ideal))
    (x7 : (⟨S100000, .i32⟩ : BufTy).Contents (Elt Ideal)) (x8 : (⟨S100000, .i32⟩ : BufTy).Contents (Elt Ideal))
    (x9 : (⟨S800000, .i32⟩ : BufTy).Contents (Elt Ideal)) (x10 : (⟨S800000, .i32⟩ : BufTy).Contents (Elt Ideal))
    (x11 : (⟨S128x256, .f32⟩ : BufTy).Contents (Elt Ideal)) (x12 : (⟨S256, .f32⟩ : BufTy).Contents (Elt Ideal))
    (x13 : (⟨S256x128, .f32⟩ : BufTy).Contents (Elt Ideal)) (x14 : (⟨S128, .f32⟩ : BufTy).Contents (Elt Ideal))
    (x15 : (⟨S128x256, .f32⟩ : BufTy).Contents (Elt Ideal)) (x16 : (⟨S256, .f32⟩ : BufTy).Contents (Elt Ideal))
    (x17 : (⟨S256x128, .f32⟩ : BufTy).Contents (Elt Ideal)) (x18 : (⟨S128, .f32⟩ : BufTy).Contents (Elt Ideal))
    (x19 : (⟨S128x256, .f32⟩ : BufTy).Contents (Elt Ideal)) (x20 : (⟨S256, .f32⟩ : BufTy).Contents (Elt Ideal))
    (x21 : (⟨S256x128, .f32⟩ : BufTy).Contents (Elt Ideal)) (x22 : (⟨S128, .f32⟩ : BufTy).Contents (Elt Ideal))
    (x23 : (⟨S128x256, .f32⟩ : BufTy).Contents (Elt Ideal)) (x24 : (⟨S256, .f32⟩ : BufTy).Contents (Elt Ideal))
    (x25 : (⟨S256x128, .f32⟩ : BufTy).Contents (Elt Ideal)) (x26 : (⟨S128, .f32⟩ : BufTy).Contents (Elt Ideal))
    (x27 : (⟨S64x256, .f32⟩ : BufTy).Contents (Elt Ideal)) (x28 : (⟨S256, .f32⟩ : BufTy).Contents (Elt Ideal))
    (x29 : (⟨S256x64, .f32⟩ : BufTy).Contents (Elt Ideal)) (x30 : (⟨S64, .f32⟩ : BufTy).Contents (Elt Ideal))
    (x31 : (⟨S32x256, .f32⟩ : BufTy).Contents (Elt Ideal)) (x32 : (⟨S256, .f32⟩ : BufTy).Contents (Elt Ideal))
    (x33 : (⟨S256x32, .f32⟩ : BufTy).Contents (Elt Ideal)) (x34 : (⟨S32, .f32⟩ : BufTy).Contents (Elt Ideal))
    (x35 : (⟨S608x256, .f32⟩ : BufTy).Contents (Elt Ideal)) (x36 : (⟨S256, .f32⟩ : BufTy).Contents (Elt Ideal))
    (x37 : (⟨S256x128, .f32⟩ : BufTy).Contents (Elt Ideal)) (x38 : (⟨S128, .f32⟩ : BufTy).Contents (Elt Ideal))
    (x39 : (⟨S128x128, .f32⟩ : BufTy).Contents (Elt Ideal)) (x40 : (⟨S128, .f32⟩ : BufTy).Contents (Elt Ideal))
    (h0 : x0 = cv A0) (hg15 : val_main_v15 (F := Ideal) x1 x4 = cv G15)
    (hg34 : val_main_v34 (F := Ideal) x2 x7 x8 = cv G34) (hg53 : val_main_v53 (F := Ideal) x3 x5 x6 = cv G53)
    (hg72 : val_main_v72 (F := Ideal) x0 x9 x10 = cv G72) (hg91 : val_main_v91 (F := Ideal) x0 x9 x10 = cv G91)
    (h11 : x11 = cv W11) (h12 : x12 = cv W12) (h13 : x13 = cv W13) (h14 : x14 = cv W14) (h15 : x15 = cv W15)
    (h16 : x16 = cv W16) (h17 : x17 = cv W17) (h18 : x18 = cv W18) (h19 : x19 = cv W19) (h20 : x20 = cv W20)
    (h21 : x21 = cv W21) (h22 : x22 = cv W22) (h23 : x23 = cv W23) (h24 : x24 = cv W24) (h25 : x25 = cv W25)
    (h26 : x26 = cv W26) (h27 : x27 = cv W27) (h28 : x28 = cv W28) (h29 : x29 = cv W29) (h30 : x30 = cv W30)
    (h31 : x31 = cv W31) (h32 : x32 = cv W32) (h33 : x33 = cv W33) (h34 : x34 = cv W34) (h35 : x35 = cv W35)
    (h36 : x36 = cv W36) (h37 : x37 = cv W37) (h38 : x38 = cv W38) (h39 : x39 = cv W39) (h40 : x40 = cv W40)
    (i : Fin 50000) (q : Fin 128) :
    val_main_v115 (F := Ideal)
        x0 x1 x2 x3 x4 x5 x6 x7 x8 x9 x10 x11 x12 x13 x14 x15 x16 x17 x18 x19 x20 x21 x22 x23 x24 x25 x26 x27 x28
        x29 x30 x31 x32 x33 x34 x35 x36 x37 x38 x39 x40 (ix2 i q)
      = ((rowOut (rowOf A0 i) (rowOf G15 i) (rowOf G34 i) (rowOf G53 i) (rowOf G72 i) (rowOf G91 i)
          W11 W12 W13 W14 W15 W16 W17 W18 W31 W32 W33 W34 W27 W28 W29 W30 W19 W20 W21 W22 W23 W24 W25 W26
          (bandOf 0 128 (by norm_num) W35) (bandOf 128 128 (by norm_num) W35) (bandOf 256 64 (by norm_num) W35)
          (bandOf 320 32 (by norm_num) W35) (bandOf 352 128 (by norm_num) W35) (bandOf 480 128 (by norm_num) W35)
          W36 W37 W38 W39 W40 q : ℝ) : EReal) := by
  subst h0 h11 h12 h13 h14 h15 h16 h17 h18 h19 h20 h21 h22 h23 h24 h25
    h26 h27 h28 h29 h30 h31 h32 h33 h34 h35 h36 h37 h38 h39 h40
  have e8 := self_branch A0 W11 W12 W13 W14
  have e24 : val_main_v24 (F := Ideal) x1 x4 (cv W15) (cv W16) (cv W17) (cv W18) = cv (mlpM G15 W15 W16 W17 W18) :=
    mlp_cv G15 W15 W16 W17 W18 _ hg15 _ (bias_v18 W16) _ zero_call1 _ (bias_v23 W18)
  have e43 : val_main_v43 (F := Ideal) x2 x7 x8 (cv W31) (cv W32) (cv W33) (cv W34) = cv (mlpM G34 W31 W32 W33 W34) :=
    mlp_cv G34 W31 W32 W33 W34 _ hg34 _ (bias_v37 W32) _ zero_call2 _ (bias_v42 W34)
  have e62 : val_main_v62 (F := Ideal) x3 x5 x6 (cv W27) (cv W28) (cv W29) (cv W30) = cv (mlpM G53 W27 W28 W29 W30) :=
    mlp_cv G53 W27 W28 W29 W30 _ hg53 _ (bias_v56 W28) _ zero_call3 _ (bias_v61 W30)
  have e81 : val_main_v81 (F := Ideal) (cv A0) x9 x10 (cv W19) (cv W20) (cv W21) (cv W22)
      = cv (mlpM G72 W19 W20 W21 W22) :=
    mlp_cv G72 W19 W20 W21 W22 _ hg72 _ (bias_v75 W20) _ zero_call4 _ (bias_v80 W22)
  have e100 : val_main_v100 (F := Ideal) (cv A0) x9 x10 (cv W23) (cv W24) (cv W25) (cv W26)
      = cv (mlpM G91 W23 W24 W25 W26) :=
    mlp_cv G91 W23 W24 W25 W26 _ hg91 _ (bias_v94 W24) _ zero_call5 _ (bias_v99 W26)
  exact (congrFun (tail_cv (mlpM G72 W19 W20 W21 W22) (mlpM G91 W23 W24 W25 W26) (mlpM G53 W27 W28 W29 W30)
    (mlpM G34 W31 W32 W33 W34) (mlpM G15 W15 W16 W17 W18) (mlpM A0 W11 W12 W13 W14) W35 W36 W37 W38 W39 W40
    _ _ _ _ _ _ e81 e100 e62 e43 e24 e8 _ (bias_v104 W36) _ zero_call6 _ (bias_v109 W38) _ zero_call7
    _ (bias_v114 W40)) (ix2 i q)).trans rfl

end Cert.RefRow

end
-- ==== Proof.Bridge.lean ====
/-
  Under the precondition the kernel's output array is the reference's result.

  Every float argument is an array of real numbers (the precondition), hence so are the gathered item rows and the four
  arrays of summed rows both programs compute from them in the same way. For arrays of real numbers the kernel's output
  array is the network's row function applied row by row, and so is the reference's result: the two are the same array.
-/
import proofs.«112616_j74217034875541_2_alg».proof.Proof.KernelValue
import proofs.«112616_j74217034875541_2_alg».proof.Proof.KernelHost
import proofs.«112616_j74217034875541_2_alg».proof.Proof.FiniteArgs
import proofs.«112616_j74217034875541_2_alg».proof.Proof.RefStagesReal
import proofs.«112616_j74217034875541_2_alg».proof.Proof.RefRow

noncomputable section

namespace Cert.Bridge

open Idealize.ShloMosaic Idealize.ShloMosaic.TcCoe Idealize.SL.Sem Idealize.ShloMosaic.ValueIdx
open Cert.KernelIdeal Cert.KernelIdeal.Gen Cert.KernelIdeal.GenP Cert.RowNet

set_option maxHeartbeats 4000000 in
/-- When every float argument is finite, the array the kernel's run leaves is the reference's last stage of the same
    arguments. -/
theorem kernel_value [Cert.Pre_finite_inputs.Facts] (m : (ℓ : Loc nD τ sig) → Buf (Elt Ideal) ℓ) (c : Dev nD)
    (hpre : Cert.Pre_finite_inputs.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (m ((c.tc : Thread nD τ).loc main_arg29)) (m ((c.tc : Thread nD τ).loc main_arg30)) (m ((c.tc : Thread nD τ).loc main_arg31)) (m ((c.tc : Thread nD τ).loc main_arg32)) (m ((c.tc : Thread nD τ).loc main_arg33)) (m ((c.tc : Thread nD τ).loc main_arg34)) (m ((c.tc : Thread nD τ).loc main_arg35)) (m ((c.tc : Thread nD τ).loc main_arg36)) (m ((c.tc : Thread nD τ).loc main_arg37)) (m ((c.tc : Thread nD τ).loc main_arg38)) (m ((c.tc : Thread nD τ).loc main_arg39)) (m ((c.tc : Thread nD τ).loc main_arg40)) = (fun _ => 1#1)) :
    (dats m 0 c).arrAt 41 cfg0.N
      = Cert.ReferenceIdeal.Read.val_main_v115 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (m ((c.tc : Thread nD τ).loc main_arg29)) (m ((c.tc : Thread nD τ).loc main_arg30)) (m ((c.tc : Thread nD τ).loc main_arg31)) (m ((c.tc : Thread nD τ).loc main_arg32)) (m ((c.tc : Thread nD τ).loc main_arg33)) (m ((c.tc : Thread nD τ).loc main_arg34)) (m ((c.tc : Thread nD τ).loc main_arg35)) (m ((c.tc : Thread nD τ).loc main_arg36)) (m ((c.tc : Thread nD τ).loc main_arg37)) (m ((c.tc : Thread nD τ).loc main_arg38)) (m ((c.tc : Thread nD τ).loc main_arg39)) (m ((c.tc : Thread nD τ).loc main_arg40)) := by
  obtain ⟨r0, r1, r2, r3, r11, r12, r13, r14, r15, r16, r17, r18, r19, r20, r21, r22, r23, r24, r25, r26, r27, r28, r29, r30, r31, r32, r33, r34, r35, r36, r37, r38, r39, r40⟩ := Cert.FiniteArgs.args_real _ _ _ _ _ _ _ _ _ _ _ _ _ _ _ _ _ _ _ _ _ _ _ _ _ _ _ _ _ _ _ _ _ _ _ _ _ _ _ _ _ hpre
  obtain ⟨G15, g15⟩ := Cert.RefStagesReal.v15_isReal (m ((c.tc : Thread nD τ).loc main_arg1)) (m ((c.tc : Thread nD τ).loc main_arg4)) r1
  obtain ⟨G34, g34⟩ := Cert.RefStagesReal.v34_isReal (m ((c.tc : Thread nD τ).loc main_arg2)) (m ((c.tc : Thread nD τ).loc main_arg7)) (m ((c.tc : Thread nD τ).loc main_arg8)) r2
  obtain ⟨G53, g53⟩ := Cert.RefStagesReal.v53_isReal (m ((c.tc : Thread nD τ).loc main_arg3)) (m ((c.tc : Thread nD τ).loc main_arg5)) (m ((c.tc : Thread nD τ).loc main_arg6)) r3
  obtain ⟨G72, g72⟩ := Cert.RefStagesReal.v72_isReal (m ((c.tc : Thread nD τ).loc main_arg0)) (m ((c.tc : Thread nD τ).loc main_arg9)) (m ((c.tc : Thread nD τ).loc main_arg10)) r0
  obtain ⟨G91, g91⟩ := Cert.RefStagesReal.v91_isReal (m ((c.tc : Thread nD τ).loc main_arg0)) (m ((c.tc : Thread nD τ).loc main_arg9)) (m ((c.tc : Thread nD τ).loc main_arg10)) r0
  obtain ⟨A0, e0⟩ := r0
  obtain ⟨W11, e11⟩ := r11
  obtain ⟨W12, e12⟩ := r12
  obtain ⟨W13, e13⟩ := r13
  obtain ⟨W14, e14⟩ := r14
  obtain ⟨W15, e15⟩ := r15
  obtain ⟨W16, e16⟩ := r16
  obtain ⟨W17, e17⟩ := r17
  obtain ⟨W18, e18⟩ := r18
  obtain ⟨W19, e19⟩ := r19
  obtain ⟨W20, e20⟩ := r20
  obtain ⟨W21, e21⟩ := r21
  obtain ⟨W22, e22⟩ := r22
  obtain ⟨W23, e23⟩ := r23
  obtain ⟨W24, e24⟩ := r24
  obtain ⟨W25, e25⟩ := r25
  obtain ⟨W26, e26⟩ := r26
  obtain ⟨W27, e27⟩ := r27
  obtain ⟨W28, e28⟩ := r28
  obtain ⟨W29, e29⟩ := r29
  obtain ⟨W30, e30⟩ := r30
  obtain ⟨W31, e31⟩ := r31
  obtain ⟨W32, e32⟩ := r32
  obtain ⟨W33, e33⟩ := r33
  obtain ⟨W34, e34⟩ := r34
  obtain ⟨W35, e35⟩ := r35
  obtain ⟨W36, e36⟩ := r36
  obtain ⟨W37, e37⟩ := r37
  obtain ⟨W38, e38⟩ := r38
  obtain ⟨W39, e39⟩ := r39
  obtain ⟨W40, e40⟩ := r40
  rw [Cert.KernelValue.final41 m c A0 G15 G34 G53 G72 G91 W11 W12 W13 W14 W15 W16 W17 W18 W31 W32 W33 W34 W27 W28 W29 W30 W19 W20 W21 W22 W23 W24 W25 W26 (bandOf 0 128 (by norm_num) W35) (bandOf 128 128 (by norm_num) W35) (bandOf 256 64 (by norm_num) W35) (bandOf 320 32 (by norm_num) W35) (bandOf 352 128 (by norm_num) W35) (bandOf 480 128 (by norm_num) W35) W36 W37 W38 W39 W40
    ((V_main_arg0 m c).trans e0)
    ((Cert.KernelHost.arr_w1 m c).trans g15)
    (show V m c (Pipeline.arrRef spec0 2) = (cv G34 : S50000x32.Idx → EReal) from (Cert.KernelHost.arr_w2 m c).trans g34)
    (show V m c (Pipeline.arrRef spec0 3) = (cv G53 : S50000x64.Idx → EReal) from (Cert.KernelHost.arr_w3 m c).trans g53)
    (show V m c (Pipeline.arrRef spec0 4) = (cv G72 : S50000x128.Idx → EReal) from (Cert.KernelHost.arr_w4 m c).trans g72)
    (show V m c (Pipeline.arrRef spec0 5) = (cv G91 : S50000x128.Idx → EReal) from (Cert.KernelHost.arr_w5 m c).trans g91)
    ((V_main_arg11 m c).trans e11)
    ((V_main_arg12 m c).trans e12)
    ((V_main_arg13 m c).trans e13)
    ((V_main_arg14 m c).trans e14)
    ((V_main_arg15 m c).trans e15)
    ((V_main_arg16 m c).trans e16)
    ((V_main_arg17 m c).trans e17)
    ((V_main_arg18 m c).trans e18)
    ((V_main_arg31 m c).trans e31)
    ((V_main_arg32 m c).trans e32)
    ((V_main_arg33 m c).trans e33)
    ((V_main_arg34 m c).trans e34)
    ((V_main_arg27 m c).trans e27)
    ((V_main_arg28 m c).trans e28)
    ((V_main_arg29 m c).trans e29)
    ((V_main_arg30 m c).trans e30)
    ((V_main_arg19 m c).trans e19)
    ((V_main_arg20 m c).trans e20)
    ((V_main_arg21 m c).trans e21)
    ((V_main_arg22 m c).trans e22)
    ((V_main_arg23 m c).trans e23)
    ((V_main_arg24 m c).trans e24)
    ((V_main_arg25 m c).trans e25)
    ((V_main_arg26 m c).trans e26)
    (Cert.KernelHost.arr_w30 m c W35 e35)
    (Cert.KernelHost.arr_w31 m c W35 e35)
    (Cert.KernelHost.arr_w32 m c W35 e35)
    (Cert.KernelHost.arr_w33 m c W35 e35)
    (Cert.KernelHost.arr_w34 m c W35 e35)
    (Cert.KernelHost.arr_w35 m c W35 e35)
    ((V_main_arg36 m c).trans e36)
    ((V_main_arg37 m c).trans e37)
    ((V_main_arg38 m c).trans e38)
    ((V_main_arg39 m c).trans e39)
    ((V_main_arg40 m c).trans e40)]
  funext i
  obtain ⟨p, q, rfl⟩ : ∃ (p : Fin 50000) (q : Fin 128), i = ix2 p q := ⟨i 0, i 1, eq_ix2 i⟩
  rw [Cert.RefRow.ref_row A0 G15 G34 G53 G72 G91 W11 W12 W13 W14 W15 W16 W17 W18 W19 W20 W21 W22 W23 W24 W25 W26 W27 W28 W29 W30 W31 W32 W33 W34 W35 W36 W37 W38 W39 W40 _ _ _ _ _ _ _ _ _ _ _ _ _ _ _ _ _ _ _ _ _ _ _ _ _ _ _ _ _ _ _ _ _ _ _ _ _ _ _ _ _
    e0 g15 g34 g53 g72 g91 e11 e12 e13 e14 e15 e16 e17 e18 e19 e20 e21 e22 e23 e24 e25 e26 e27 e28 e29 e30 e31 e32 e33 e34 e35 e36 e37 e38 e39 e40 p q]
  rfl

end Cert.Bridge

end
-- ==== Proof.lean ====
/-
  The certificate of the fused embedding layer against its reference.

  The kernel and the reference compute the same network: six two-layer perceptrons on one row each of six inputs, their
  outputs joined by a layer whose weight matrix is cut into six bands, and two more layers. They differ in three ways
  that do not change the value on real numbers: the kernel works on blocks of 1000 rows where the reference works on all
  50000; it multiplies the six embeddings by the six bands and adds, where the reference concatenates and multiplies once;
  and it computes every product x·W as x·W + x·(W − W) + (x − x)·W, which is x·W as soon as x and W are real numbers. The
  precondition makes every float argument finite; gathers and sums of rows keep entries real, and so do the layers.

  The three frames: the two kernels' by the frame modules (a run that terminates without a fault and leaves the
  arguments as they were), the reference's by its run read back. The kernel is its own idealization up to forty round
  trips through a narrower float format, each the identity on extended reals.
-/
import proofs.«112616_j74217034875541_2_alg».proof.Defs
import proofs.«112616_j74217034875541_2_alg».proof.Proof.Gen.Kernel
import proofs.«112616_j74217034875541_2_alg».proof.Proof.Gen.KernelIdeal
import proofs.«112616_j74217034875541_2_alg».proof.Proof.Gen.ReferenceIdeal
import proofs.«112616_j74217034875541_2_alg».proof.Proof.Gen.Pre_finite_inputs
import proofs.«112616_j74217034875541_2_alg».proof.Proof.Gen.ReferenceIdeal.Run
import proofs.«112616_j74217034875541_2_alg».proof.Proof.Gen.ReferenceIdeal.Read
import proofs.«112616_j74217034875541_2_alg».proof.Proof.PatchedFrameKernel
import proofs.«112616_j74217034875541_2_alg».proof.Proof.PatchedFrameKernelIdeal
import proofs.«112616_j74217034875541_2_alg».proof.Proof.KernelRun
import proofs.«112616_j74217034875541_2_alg».proof.Proof.Bridge
import Idealize.ShloMosaic.Adequacy
import Idealize.ShloMosaic.Init

noncomputable section

namespace Cert.Proof

open Idealize.ShloMosaic Idealize.SL.Sem

/-- The word-level kernel runs to the end without a fault and leaves its arguments unchanged. -/
theorem frame_kernel : Cert.frame_Kernel := fun m ρ _ => Cert.Kernel.GenP.frame m ρ

/-- So does the idealized kernel. -/
theorem frame_kernelIdeal : Cert.frame_KernelIdeal := fun m ρ _ => Cert.KernelIdeal.GenP.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Forty times the idealization replaced "narrow the format, then widen it back" by the identity: on extended reals a
    change of format is the identity, whatever the shape. -/
theorem preserves : Cert.preserves_Kernel_KernelIdeal :=
  ⟨IdealRules.truncf_extf.statement _ .f32 .bf16,
    IdealRules.truncf_extf.statement _ .f32 .bf16,
    IdealRules.truncf_extf.statement _ .f32 .bf16,
    IdealRules.truncf_extf.statement _ .f32 .bf16,
    IdealRules.truncf_extf.statement _ .f32 .bf16,
    IdealRules.truncf_extf.statement _ .f32 .bf16,
    IdealRules.truncf_extf.statement _ .f32 .bf16,
    IdealRules.truncf_extf.statement _ .f32 .bf16,
    IdealRules.truncf_extf.statement _ .f32 .bf16,
    IdealRules.truncf_extf.statement _ .f32 .bf16,
    IdealRules.truncf_extf.statement _ .f32 .bf16,
    IdealRules.truncf_extf.statement _ .f32 .bf16,
    IdealRules.truncf_extf.statement _ .f32 .bf16,
    IdealRules.truncf_extf.statement _ .f32 .bf16,
    IdealRules.truncf_extf.statement _ .f32 .bf16,
    IdealRules.truncf_extf.statement _ .f32 .bf16,
    IdealRules.truncf_extf.statement _ .f32 .bf16,
    IdealRules.truncf_extf.statement _ .f32 .bf16,
    IdealRules.truncf_extf.statement _ .f32 .bf16,
    IdealRules.truncf_extf.statement _ .f32 .bf16,
    IdealRules.truncf_extf.statement _ .f32 .bf16,
    IdealRules.truncf_extf.statement _ .f32 .bf16,
    IdealRules.truncf_extf.statement _ .f32 .bf16,
    IdealRules.truncf_extf.statement _ .f32 .bf16,
    IdealRules.truncf_extf.statement _ .f32 .bf16,
    IdealRules.truncf_extf.statement _ .f32 .bf16,
    IdealRules.truncf_extf.statement _ .f32 .bf16,
    IdealRules.truncf_extf.statement _ .f32 .bf16,
    IdealRules.truncf_extf.statement _ .f32 .bf16,
    IdealRules.truncf_extf.statement _ .f32 .bf16,
    IdealRules.truncf_extf.statement _ .f32 .bf16,
    IdealRules.truncf_extf.statement _ .f32 .bf16,
    IdealRules.truncf_extf.statement _ .f32 .bf16,
    IdealRules.truncf_extf.statement _ .f32 .bf16,
    IdealRules.truncf_extf.statement _ .f32 .bf16,
    IdealRules.truncf_extf.statement _ .f32 .bf16,
    IdealRules.truncf_extf.statement _ .f32 .bf16,
    IdealRules.truncf_extf.statement _ .f32 .bf16,
    IdealRules.truncf_extf.statement _ .f32 .bf16,
    IdealRules.truncf_extf.statement _ .f32 .bf16⟩

set_option maxHeartbeats 4000000 in
/-- From memories that agree on the arguments, under the precondition, both programs run to the end with the same
    result: the kernel's output array is the reference's last stage of the arguments. -/
theorem algebraic : Cert.algebraic_KernelIdeal_ReferenceIdeal := by
  intro m ρ m' ρ' hpre hagree
  refine ⟨fun c => (Cert.KernelIdeal.GenP.dats m 0 c).arrAt 41 Cert.KernelIdeal.cfg0.N,
    Cert.KernelRun.run_blocks (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12, a13, a14, a15, a16, a17, a18, a19, a20, a21, a22, a23, a24, a25, a26, a27, a28, a29, a30, a31, a32, a33, a34, a35, a36, a37, a38, a39, a40⟩ := hagree c
  rw [Cert.ReferenceIdeal.Read.val_main_v115_eq, a0, a1, a2, a3, a4, a5, a6, a7, a8, a9, a10, a11, a12, a13, a14, a15, a16, a17, a18, a19, a20, a21, a22, a23, a24, a25, a26, a27, a28, a29, a30, a31, a32, a33, a34, a35, a36, a37, a38, a39, a40]
  exact (Cert.Bridge.kernel_value m c (hpre c)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
